-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v130_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S5000x1 : Shape := ⟨2, ![5000, 1]⟩
abbrev S700000x128 : Shape := ⟨2, ![700000, 128]⟩

abbrev nBuf : Space → Nat
  | .hbm => 181
  | .vmem => 112
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128x128, .bf16⟩
  | 6 => ⟨S1x128, .f32⟩
  | 7 => ⟨S100000x128, .f32⟩
  | 8 => ⟨S100000, .i32⟩
  | 9 => ⟨S1x600000, .i32⟩
  | 10 => ⟨S600000, .i32⟩
  | 11 => ⟨S700000, .i32⟩
  | 12 => ⟨S1x600000, .i32⟩
  | 13 => ⟨S600000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000x128, .f32⟩
  | 40 => ⟨S_, .f32⟩
  | 41 => ⟨S100000x128, .f32⟩
  | 42 => ⟨S700000x1, .i32⟩
  | 43 => ⟨S100000x128, .f32⟩
  | 44 => ⟨S100000x128, .f32⟩
  | 45 => ⟨S100000x128, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000x128, .f32⟩
  | 55 => ⟨S_, .f32⟩
  | 56 => ⟨S100000x128, .f32⟩
  | 57 => ⟨S700000x1, .i32⟩
  | 58 => ⟨S100000x128, .f32⟩
  | 59 => ⟨S100000x128, .f32⟩
  | 60 => ⟨S100000x128, .f32⟩
  | 61 => ⟨S_, .i32⟩
  | 62 => ⟨S700000, .i32⟩
  | 63 => ⟨S700000, .i1⟩
  | 64 => ⟨S_, .i32⟩
  | 65 => ⟨S700000, .i32⟩
  | 66 => ⟨S700000, .i32⟩
  | 67 => ⟨S700000, .i32⟩
  | 68 => ⟨S700000x1, .i32⟩
  | 69 => ⟨S700000x128, .f32⟩
  | 70 => ⟨S_, .f32⟩
  | 71 => ⟨S100000x128, .f32⟩
  | 72 => ⟨S700000x1, .i32⟩
  | 73 => ⟨S100000x128, .f32⟩
  | 74 => ⟨S100000x128, .f32⟩
  | 75 => ⟨S100000x128, .f32⟩
  | 76 => ⟨S_, .i32⟩
  | 77 => ⟨S700000, .i32⟩
  | 78 => ⟨S700000, .i1⟩
  | 79 => ⟨S_, .i32⟩
  | 80 => ⟨S700000, .i32⟩
  | 81 => ⟨S700000, .i32⟩
  | 82 => ⟨S700000, .i32⟩
  | 83 => ⟨S700000x1, .i32⟩
  | 84 => ⟨S700000x128, .f32⟩
  | 85 => ⟨S_, .f32⟩
  | 86 => ⟨S100000x128, .f32⟩
  | 87 => ⟨S700000x1, .i32⟩
  | 88 => ⟨S100000x128, .f32⟩
  | 89 => ⟨S100000x128, .f32⟩
  | 90 => ⟨S100000x128, .f32⟩
  | 91 => ⟨S_, .i32⟩
  | 92 => ⟨S700000, .i32⟩
  | 93 => ⟨S700000, .i1⟩
  | 94 => ⟨S_, .i32⟩
  | 95 => ⟨S700000, .i32⟩
  | 96 => ⟨S700000, .i32⟩
  | 97 => ⟨S700000, .i32⟩
  | 98 => ⟨S700000x1, .i32⟩
  | 99 => ⟨S700000x128, .f32⟩
  | 100 => ⟨S_, .f32⟩
  | 101 => ⟨S100000x128, .f32⟩
  | 102 => ⟨S700000x1, .i32⟩
  | 103 => ⟨S100000x128, .f32⟩
  | 104 => ⟨S100000x128, .f32⟩
  | 105 => ⟨S100000x128, .f32⟩
  | 106 => ⟨S_, .i32⟩
  | 107 => ⟨S700000, .i32⟩
  | 108 => ⟨S700000, .i1⟩
  | 109 => ⟨S_, .i32⟩
  | 110 => ⟨S700000, .i32⟩
  | 111 => ⟨S700000, .i32⟩
  | 112 => ⟨S700000, .i32⟩
  | 113 => ⟨S700000x1, .i32⟩
  | 114 => ⟨S700000x128, .f32⟩
  | 115 => ⟨S_, .f32⟩
  | 116 => ⟨S100000x128, .f32⟩
  | 117 => ⟨S700000x1, .i32⟩
  | 118 => ⟨S100000x128, .f32⟩
  | 119 => ⟨S100000x128, .f32⟩
  | 120 => ⟨S100000x128, .f32⟩
  | 121 => ⟨S_, .i32⟩
  | 122 => ⟨S700000, .i32⟩
  | 123 => ⟨S700000, .i1⟩
  | 124 => ⟨S_, .i32⟩
  | 125 => ⟨S700000, .i32⟩
  | 126 => ⟨S700000, .i32⟩
  | 127 => ⟨S700000, .i32⟩
  | _ => ⟨S100000x128, .f32⟩

abbrev hbmTy0_1 (i : Nat) : BufTy := match i % 128 with
  | 0 => ⟨S700000x1, .i32⟩
  | 1 => ⟨S700000x128, .f32⟩
  | 2 => ⟨S_, .f32⟩
  | 3 => ⟨S100000x128, .f32⟩
  | 4 => ⟨S700000x1, .i32⟩
  | 5 => ⟨S100000x128, .f32⟩
  | 6 => ⟨S100000x128, .f32⟩
  | 7 => ⟨S100000x128, .f32⟩
  | 8 => ⟨S_, .i32⟩
  | 9 => ⟨S700000, .i32⟩
  | 10 => ⟨S700000, .i1⟩
  | 11 => ⟨S_, .i32⟩
  | 12 => ⟨S700000, .i32⟩
  | 13 => ⟨S700000, .i32⟩
  | 14 => ⟨S700000, .i32⟩
  | 15 => ⟨S700000x1, .i32⟩
  | 16 => ⟨S700000x128, .f32⟩
  | 17 => ⟨S_, .f32⟩
  | 18 => ⟨S100000x128, .f32⟩
  | 19 => ⟨S700000x1, .i32⟩
  | 20 => ⟨S100000x128, .f32⟩
  | 21 => ⟨S100000x128, .f32⟩
  | 22 => ⟨S100000x128, .f32⟩
  | 23 => ⟨S_, .i32⟩
  | 24 => ⟨S700000, .i32⟩
  | 25 => ⟨S700000, .i1⟩
  | 26 => ⟨S_, .i32⟩
  | 27 => ⟨S700000, .i32⟩
  | 28 => ⟨S700000, .i32⟩
  | 29 => ⟨S700000, .i32⟩
  | 30 => ⟨S700000x1, .i32⟩
  | 31 => ⟨S700000x128, .f32⟩
  | 32 => ⟨S_, .f32⟩
  | 33 => ⟨S100000x128, .f32⟩
  | 34 => ⟨S700000x1, .i32⟩
  | 35 => ⟨S100000x128, .f32⟩
  | 36 => ⟨S100000x128, .f32⟩
  | 37 => ⟨S100000x128, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000x128, .f32⟩
  | 47 => ⟨S_, .f32⟩
  | 48 => ⟨S100000x128, .f32⟩
  | 49 => ⟨S700000x1, .i32⟩
  | 50 => ⟨S100000x128, .f32⟩
  | 51 => ⟨S100000x128, .f32⟩
  | 52 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .f32⟩
  | .local _ .vmem, ⟨57, _⟩ => ⟨S5000x1, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x1, .f32⟩
  | .local _ .vmem, ⟨67, _⟩ => ⟨S5000x1, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x1, .f32⟩
  | .local _ .vmem, ⟨77, _⟩ => ⟨S5000x1, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x1, .f32⟩
  | .local _ .vmem, ⟨87, _⟩ => ⟨S5000x1, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x1, .f32⟩
  | .local _ .vmem, ⟨97, _⟩ => ⟨S5000x1, .f32⟩
  | .local _ .vmem, ⟨98, _⟩ => ⟨S5000x128, .f32⟩
  | .local _ .vmem, ⟨99, _⟩ => ⟨S5000x128, .f32⟩
  | .local _ .vmem, ⟨100, _⟩ => ⟨S5000x128, .f32⟩
  | .local _ .vmem, ⟨101, _⟩ => ⟨S5000x128, .f32⟩
  | .local _ .vmem, ⟨102, _⟩ => ⟨S5000x128, .f32⟩
  | .local _ .vmem, ⟨103, _⟩ => ⟨S5000x128, .f32⟩
  | .local _ .vmem, ⟨104, _⟩ => ⟨S5000x128, .f32⟩
  | .local _ .vmem, ⟨105, _⟩ => ⟨S5000x128, .f32⟩
  | .local _ .vmem, ⟨106, _⟩ => ⟨S5000x1, .f32⟩
  | .local _ .vmem, ⟨107, _⟩ => ⟨S5000x1, .f32⟩
  | .local _ .vmem, ⟨108, _⟩ => ⟨S5000x128, .f32⟩
  | .local _ .vmem, ⟨109, _⟩ => ⟨S5000x128, .f32⟩
  | .local _ .vmem, ⟨110, _⟩ => ⟨S5000x128, .f32⟩
  | .local _ .vmem, ⟨111, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53_0 : Ref sig .tc := ⟨.hbm, 74, rfl⟩
abbrev main_v53_1 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64_0 : Ref sig .tc := ⟨.hbm, 89, rfl⟩
abbrev main_v64_1 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75_0 : Ref sig .tc := ⟨.hbm, 104, rfl⟩
abbrev main_v75_1 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_c_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86_0 : Ref sig .tc := ⟨.hbm, 119, rfl⟩
abbrev main_v86_1 : Ref sig .tc := ⟨.hbm, 120, rfl⟩
abbrev main_c_20 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97_0 : Ref sig .tc := ⟨.hbm, 134, rfl⟩
abbrev main_v97_1 : Ref sig .tc := ⟨.hbm, 135, rfl⟩
abbrev main_c_23 : Ref sig .tc := ⟨.hbm, 136, rfl⟩
abbrev main_v98 : Ref sig .tc := ⟨.hbm, 137, rfl⟩
abbrev main_v99 : Ref sig .tc := ⟨.hbm, 138, rfl⟩
abbrev main_c_24 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_25 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108_0 : Ref sig .tc := ⟨.hbm, 149, rfl⟩
abbrev main_v108_1 : Ref sig .tc := ⟨.hbm, 150, rfl⟩
abbrev main_c_26 : Ref sig .tc := ⟨.hbm, 151, rfl⟩
abbrev main_v109 : Ref sig .tc := ⟨.hbm, 152, rfl⟩
abbrev main_v110 : Ref sig .tc := ⟨.hbm, 153, rfl⟩
abbrev main_c_27 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_28 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119_0 : Ref sig .tc := ⟨.hbm, 164, rfl⟩
abbrev main_v119_1 : Ref sig .tc := ⟨.hbm, 165, rfl⟩
abbrev main_c_29 : Ref sig .tc := ⟨.hbm, 166, rfl⟩
abbrev main_v120 : Ref sig .tc := ⟨.hbm, 167, rfl⟩
abbrev main_v121 : Ref sig .tc := ⟨.hbm, 168, rfl⟩
abbrev main_c_30 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_31 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130_0 : Ref sig .tc := ⟨.hbm, 179, rfl⟩
abbrev main_v130_1 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg3_1 : Ref sig .tc := ⟨.vmem, 79, rfl⟩
abbrev cc8_stg4_0 : Ref sig .tc := ⟨.vmem, 80, rfl⟩
abbrev cc8_stg4_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg1_1 : Ref sig .tc := ⟨.vmem, 85, rfl⟩
abbrev cc9_stg2_0 : Ref sig .tc := ⟨.vmem, 86, rfl⟩
abbrev cc9_stg2_1 : Ref sig .tc := ⟨.vmem, 87, rfl⟩
abbrev cc9_stg3_0 : Ref sig .tc := ⟨.vmem, 88, rfl⟩
abbrev cc9_stg3_1 : Ref sig .tc := ⟨.vmem, 89, rfl⟩
abbrev cc9_stg4_0 : Ref sig .tc := ⟨.vmem, 90, rfl⟩
abbrev cc9_stg4_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg2_1 : Ref sig .tc := ⟨.vmem, 97, rfl⟩
abbrev cc10_stg3_0 : Ref sig .tc := ⟨.vmem, 98, rfl⟩
abbrev cc10_stg3_1 : Ref sig .tc := ⟨.vmem, 99, rfl⟩
abbrev cc10_stg4_0 : Ref sig .tc := ⟨.vmem, 100, rfl⟩
abbrev cc10_stg4_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg2_1 : Ref sig .tc := ⟨.vmem, 107, rfl⟩
abbrev cc11_stg3_0 : Ref sig .tc := ⟨.vmem, 108, rfl⟩
abbrev cc11_stg3_1 : Ref sig .tc := ⟨.vmem, 109, rfl⟩
abbrev cc11_stg4_0 : Ref sig .tc := ⟨.vmem, 110, rfl⟩
abbrev cc11_stg4_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem3_1 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem3_1 : DmaSem sig := 69
abbrev cc7_sem4_0 : DmaSem sig := 70
abbrev cc7_sem4_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem3_1 : DmaSem sig := 79
abbrev cc8_sem4_0 : DmaSem sig := 80
abbrev cc8_sem4_1 : DmaSem sig := 81
abbrev cc9_sem0_0 : DmaSem sig := 82
abbrev cc9_sem0_1 : DmaSem sig := 83
abbrev cc9_sem1_0 : DmaSem sig := 84
abbrev cc9_sem1_1 : DmaSem sig := 85
abbrev cc9_sem2_0 : DmaSem sig := 86
abbrev cc9_sem2_1 : DmaSem sig := 87
abbrev cc9_sem3_0 : DmaSem sig := 88
abbrev cc9_sem3_1 : DmaSem sig := 89
abbrev cc9_sem4_0 : DmaSem sig := 90
abbrev cc9_sem4_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem2_1 : DmaSem sig := 97
abbrev cc10_sem3_0 : DmaSem sig := 98
abbrev cc10_sem3_1 : DmaSem sig := 99
abbrev cc10_sem4_0 : DmaSem sig := 100
abbrev cc10_sem4_1 : DmaSem sig := 101
abbrev cc11_sem0_0 : DmaSem sig := 102
abbrev cc11_sem0_1 : DmaSem sig := 103
abbrev cc11_sem1_0 : DmaSem sig := 104
abbrev cc11_sem1_1 : DmaSem sig := 105
abbrev cc11_sem2_0 : DmaSem sig := 106
abbrev cc11_sem2_1 : DmaSem sig := 107
abbrev cc11_sem3_0 : DmaSem sig := 108
abbrev cc11_sem3_1 : DmaSem sig := 109
abbrev cc11_sem4_0 : DmaSem sig := 110
abbrev cc11_sem4_1 : DmaSem sig := 111

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S5000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  scatter_S100000_S700000x1_S700000_n_0_0_1_wf : ScatterDims.WF S100000 S700000x1 S700000 [] [0] [0] 1
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S100000x128.size a
  hwx10_4 : ∀ i : grid10.Coords, EltTy.bits .f32 = 32 ∨ (Rect.block (s := S100000x128) S5000x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S100000x128.size a
  hwx11_1 : ∀ i : grid11.Coords, EltTy.bits .f32 = 32 ∨ (Rect.block (s := S100000x128) S5000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x1.size a ≤ S100000x1.size a
  hwx11_2 : ∀ i : grid11.Coords, EltTy.bits .f32 = 32 ∨ (Rect.block (s := S100000x1) S5000x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S100000x128.size a
  hwx11_3 : ∀ i : grid11.Coords, EltTy.bits .f32 = 32 ∨ (Rect.block (s := S100000x128) S5000x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S100000x128.size a
  hwx11_4 : ∀ i : grid11.Coords, EltTy.bits .f32 = 32 ∨ (Rect.block (s := S100000x128) S5000x128.size (cc11_transform_4 i) (hinb11_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v42_1) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v52) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v53_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v53_1) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v64_0) S5000x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v64_1) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v19) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v75_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v75_1) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v85) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v3) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v19) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v86_0) S5000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v86_1) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v96) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v3) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v19) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v97_0) S5000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v97_1) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v107) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v3) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v19) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v108_0) S5000x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v108_1) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v118) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v3) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v19) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v119_0) S5000x128.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v119_1) S5000x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v129) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v3) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v19) S5000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v130_0) S5000x128.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v130_1) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩

abbrev nBuf : Space → Nat
  | .hbm => 279
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S100000x128, .f32⟩
  | 6 => ⟨S1x128, .f32⟩
  | 7 => ⟨S100000x128, .f32⟩
  | 8 => ⟨S100000x128, .f32⟩
  | 9 => ⟨S100000, .i32⟩
  | 10 => ⟨S1x600000, .i32⟩
  | 11 => ⟨S600000, .i32⟩
  | 12 => ⟨S700000, .i32⟩
  | 13 => ⟨S1x600000, .i32⟩
  | 14 => ⟨S600000, .i32⟩
  | 15 => ⟨S700000, .i32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S_, .i32⟩
  | 40 => ⟨S700000, .i32⟩
  | 41 => ⟨S700000, .i1⟩
  | 42 => ⟨S_, .i32⟩
  | 43 => ⟨S700000, .i32⟩
  | 44 => ⟨S700000, .i32⟩
  | 45 => ⟨S700000, .i32⟩
  | 46 => ⟨S700000x1, .i32⟩
  | 47 => ⟨S700000, .f32⟩
  | 48 => ⟨S700000, .f32⟩
  | 49 => ⟨S700000x1, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000x128, .f32⟩
  | 59 => ⟨S700000x128, .f32⟩
  | 60 => ⟨S700000x128, .f32⟩
  | 61 => ⟨S_, .f32⟩
  | 62 => ⟨S100000x128, .f32⟩
  | 63 => ⟨S700000x1, .i32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S700000x1, .f32⟩
  | 73 => ⟨S_, .i32⟩
  | 74 => ⟨S700000, .i32⟩
  | 75 => ⟨S700000, .i1⟩
  | 76 => ⟨S_, .i32⟩
  | 77 => ⟨S700000, .i32⟩
  | 78 => ⟨S700000, .i32⟩
  | 79 => ⟨S700000, .i32⟩
  | 80 => ⟨S700000x1, .i32⟩
  | 81 => ⟨S700000x128, .f32⟩
  | 82 => ⟨S700000x128, .f32⟩
  | 83 => ⟨S700000x128, .f32⟩
  | 84 => ⟨S_, .f32⟩
  | 85 => ⟨S100000x128, .f32⟩
  | 86 => ⟨S700000x1, .i32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S700000x1, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000x128, .f32⟩
  | 105 => ⟨S700000x128, .f32⟩
  | 106 => ⟨S700000x128, .f32⟩
  | 107 => ⟨S_, .f32⟩
  | 108 => ⟨S100000x128, .f32⟩
  | 109 => ⟨S700000x1, .i32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S700000x1, .f32⟩
  | 119 => ⟨S_, .i32⟩
  | 120 => ⟨S700000, .i32⟩
  | 121 => ⟨S700000, .i1⟩
  | 122 => ⟨S_, .i32⟩
  | 123 => ⟨S700000, .i32⟩
  | 124 => ⟨S700000, .i32⟩
  | 125 => ⟨S700000, .i32⟩
  | 126 => ⟨S700000x1, .i32⟩
  | 127 => ⟨S700000x128, .f32⟩
  | _ => ⟨S100000x128, .f32⟩

abbrev hbmTy0_1 (i : Nat) : BufTy := match i % 128 with
  | 0 => ⟨S700000x128, .f32⟩
  | 1 => ⟨S700000x128, .f32⟩
  | 2 => ⟨S_, .f32⟩
  | 3 => ⟨S100000x128, .f32⟩
  | 4 => ⟨S700000x1, .i32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S700000x1, .f32⟩
  | 14 => ⟨S_, .i32⟩
  | 15 => ⟨S700000, .i32⟩
  | 16 => ⟨S700000, .i1⟩
  | 17 => ⟨S_, .i32⟩
  | 18 => ⟨S700000, .i32⟩
  | 19 => ⟨S700000, .i32⟩
  | 20 => ⟨S700000, .i32⟩
  | 21 => ⟨S700000x1, .i32⟩
  | 22 => ⟨S700000x128, .f32⟩
  | 23 => ⟨S700000x128, .f32⟩
  | 24 => ⟨S700000x128, .f32⟩
  | 25 => ⟨S_, .f32⟩
  | 26 => ⟨S100000x128, .f32⟩
  | 27 => ⟨S700000x1, .i32⟩
  | 28 => ⟨S100000x128, .f32⟩
  | 29 => ⟨S_, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S700000x1, .f32⟩
  | 37 => ⟨S_, .i32⟩
  | 38 => ⟨S700000, .i32⟩
  | 39 => ⟨S700000, .i1⟩
  | 40 => ⟨S_, .i32⟩
  | 41 => ⟨S700000, .i32⟩
  | 42 => ⟨S700000, .i32⟩
  | 43 => ⟨S700000, .i32⟩
  | 44 => ⟨S700000x1, .i32⟩
  | 45 => ⟨S700000x128, .f32⟩
  | 46 => ⟨S700000x128, .f32⟩
  | 47 => ⟨S700000x128, .f32⟩
  | 48 => ⟨S_, .f32⟩
  | 49 => ⟨S100000x128, .f32⟩
  | 50 => ⟨S700000x1, .i32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x128, .f32⟩
  | 59 => ⟨S700000x1, .f32⟩
  | 60 => ⟨S_, .i32⟩
  | 61 => ⟨S700000, .i32⟩
  | 62 => ⟨S700000, .i1⟩
  | 63 => ⟨S_, .i32⟩
  | 64 => ⟨S700000, .i32⟩
  | 65 => ⟨S700000, .i32⟩
  | 66 => ⟨S700000, .i32⟩
  | 67 => ⟨S700000x1, .i32⟩
  | 68 => ⟨S700000x128, .f32⟩
  | 69 => ⟨S700000x128, .f32⟩
  | 70 => ⟨S700000x128, .f32⟩
  | 71 => ⟨S_, .f32⟩
  | 72 => ⟨S100000x128, .f32⟩
  | 73 => ⟨S700000x1, .i32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S700000x1, .f32⟩
  | 83 => ⟨S_, .i32⟩
  | 84 => ⟨S700000, .i32⟩
  | 85 => ⟨S700000, .i1⟩
  | 86 => ⟨S_, .i32⟩
  | 87 => ⟨S700000, .i32⟩
  | 88 => ⟨S700000, .i32⟩
  | 89 => ⟨S700000, .i32⟩
  | 90 => ⟨S700000x1, .i32⟩
  | 91 => ⟨S700000x128, .f32⟩
  | 92 => ⟨S700000x128, .f32⟩
  | 93 => ⟨S700000x128, .f32⟩
  | 94 => ⟨S_, .f32⟩
  | 95 => ⟨S100000x128, .f32⟩
  | 96 => ⟨S700000x1, .i32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S700000x1, .f32⟩
  | 106 => ⟨S_, .i32⟩
  | 107 => ⟨S700000, .i32⟩
  | 108 => ⟨S700000, .i1⟩
  | 109 => ⟨S_, .i32⟩
  | 110 => ⟨S700000, .i32⟩
  | 111 => ⟨S700000, .i32⟩
  | 112 => ⟨S700000, .i32⟩
  | 113 => ⟨S700000x1, .i32⟩
  | 114 => ⟨S700000x128, .f32⟩
  | 115 => ⟨S700000x128, .f32⟩
  | 116 => ⟨S700000x128, .f32⟩
  | 117 => ⟨S_, .f32⟩
  | 118 => ⟨S100000x128, .f32⟩
  | 119 => ⟨S700000x1, .i32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_2 (i : Nat) : BufTy := match i % 128 with
  | 0 => ⟨S700000x1, .f32⟩
  | 1 => ⟨S_, .i32⟩
  | 2 => ⟨S700000, .i32⟩
  | 3 => ⟨S700000, .i1⟩
  | 4 => ⟨S_, .i32⟩
  | 5 => ⟨S700000, .i32⟩
  | 6 => ⟨S700000, .i32⟩
  | 7 => ⟨S700000, .i32⟩
  | 8 => ⟨S700000x1, .i32⟩
  | 9 => ⟨S700000x128, .f32⟩
  | 10 => ⟨S700000x128, .f32⟩
  | 11 => ⟨S700000x128, .f32⟩
  | 12 => ⟨S_, .f32⟩
  | 13 => ⟨S100000x128, .f32⟩
  | 14 => ⟨S700000x1, .i32⟩
  | 15 => ⟨S100000x128, .f32⟩
  | 16 => ⟨S_, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_c_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_cst_20 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_21 : Ref sig .tc := ⟨.hbm, 119, rfl⟩
abbrev main_v90 : Ref sig .tc := ⟨.hbm, 120, rfl⟩
abbrev main_v91 : Ref sig .tc := ⟨.hbm, 121, rfl⟩
abbrev main_c_22 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_23 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_24 : Ref sig .tc := ⟨.hbm, 134, rfl⟩
abbrev main_v102 : Ref sig .tc := ⟨.hbm, 135, rfl⟩
abbrev main_v103 : Ref sig .tc := ⟨.hbm, 136, rfl⟩
abbrev main_cst_25 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_26 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_29 : Ref sig .tc := ⟨.hbm, 157, rfl⟩
abbrev main_v120 : Ref sig .tc := ⟨.hbm, 158, rfl⟩
abbrev main_v121 : Ref sig .tc := ⟨.hbm, 159, rfl⟩
abbrev main_cst_30 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_31 : Ref sig .tc := ⟨.hbm, 165, rfl⟩
abbrev main_v126 : Ref sig .tc := ⟨.hbm, 166, rfl⟩
abbrev main_v127 : Ref sig .tc := ⟨.hbm, 167, rfl⟩
abbrev main_c_32 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_33 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_34 : Ref sig .tc := ⟨.hbm, 180, rfl⟩
abbrev main_v138 : Ref sig .tc := ⟨.hbm, 181, rfl⟩
abbrev main_v139 : Ref sig .tc := ⟨.hbm, 182, rfl⟩
abbrev main_cst_35 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_36 : Ref sig .tc := ⟨.hbm, 188, rfl⟩
abbrev main_v144 : Ref sig .tc := ⟨.hbm, 189, rfl⟩
abbrev main_v145 : Ref sig .tc := ⟨.hbm, 190, rfl⟩
abbrev main_c_37 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_38 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_39 : Ref sig .tc := ⟨.hbm, 203, rfl⟩
abbrev main_v156 : Ref sig .tc := ⟨.hbm, 204, rfl⟩
abbrev main_v157 : Ref sig .tc := ⟨.hbm, 205, rfl⟩
abbrev main_cst_40 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_41 : Ref sig .tc := ⟨.hbm, 211, rfl⟩
abbrev main_v162 : Ref sig .tc := ⟨.hbm, 212, rfl⟩
abbrev main_v163 : Ref sig .tc := ⟨.hbm, 213, rfl⟩
abbrev main_c_42 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_43 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_44 : Ref sig .tc := ⟨.hbm, 226, rfl⟩
abbrev main_v174 : Ref sig .tc := ⟨.hbm, 227, rfl⟩
abbrev main_v175 : Ref sig .tc := ⟨.hbm, 228, rfl⟩
abbrev main_cst_45 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_c_46 : Ref sig .tc := ⟨.hbm, 234, rfl⟩
abbrev main_v180 : Ref sig .tc := ⟨.hbm, 235, rfl⟩
abbrev main_v181 : Ref sig .tc := ⟨.hbm, 236, rfl⟩
abbrev main_c_47 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_48 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_cst_49 : Ref sig .tc := ⟨.hbm, 249, rfl⟩
abbrev main_v192 : Ref sig .tc := ⟨.hbm, 250, rfl⟩
abbrev main_v193 : Ref sig .tc := ⟨.hbm, 251, rfl⟩
abbrev main_cst_50 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_c_51 : Ref sig .tc := ⟨.hbm, 257, rfl⟩
abbrev main_v198 : Ref sig .tc := ⟨.hbm, 258, rfl⟩
abbrev main_v199 : Ref sig .tc := ⟨.hbm, 259, rfl⟩
abbrev main_c_52 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_cst_53 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_cst_54 : Ref sig .tc := ⟨.hbm, 272, rfl⟩
abbrev main_v210 : Ref sig .tc := ⟨.hbm, 273, rfl⟩
abbrev main_v211 : Ref sig .tc := ⟨.hbm, 274, rfl⟩
abbrev main_cst_55 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The idealized kernel program's run, with its RESULT named.

  The program is twelve kernel regions among stretches of host operations.  Run from any memory, every weakly fair
  execution terminates and the memory it ends in holds, at every buffer that outlives the regions, the contents
  `Gen.W26`: the fold of the host stretches and of the regions' write-backs through the program, from the launch
  memory.  Read at the result buffer this gives the result; read at the four argument buffers it gives back the
  launch contents.
-/
import proofs.«176388_j37022618092150_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the four argument arrays end as launched.  The segments, their chaining and the launch
    are the generated frame's; only the final reading differs: the result buffer is read too. -/
theorem run_result : θ_run defs (onTc (τ := τ) (main (F := F))) ⟨m, fun _ => 0, ρ⟩ (fun r => ∀ c : Dev nD,
      r.2.mem ((c.tc : Thread nD τ).loc main_v130_0) = W26 m ρ c (Proc.devRef .tc main_v130_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v130_0 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c)⟩)

end Cert.KernelIdeal.Run

end
-- ==== Proof.KHost.lean ====
/-
  The host stretches of the idealized kernel program, read at the buffers the regions take.

  Between two kernel regions the program runs plain array operations.  The stretch before the first region transposes
  the weight matrix and lays the bias as a row; the stretch before the second builds the edge lists (sources and
  destinations, each edge list followed by one self-loop per node), counts every node's incoming edges by
  accumulating ones, and turns the count into the node's weight `where(deg > 0, deg^(-1/2), 0)`; the stretch before
  each propagation region gathers one row per edge from the previous region's weighted rows, at the edge's source
  (a negative index first wrapped by the number of nodes), and accumulates the rows into the edges' destinations.
  Each lemma reads a stretch, run from ANY buffer contents `W`, at one buffer: a buffer a region takes is one named
  function of the contents the stretch starts from, and a buffer the stretch does not write keeps its contents.
-/
import proofs.«176388_j37022618092150_2_alg».proof.Proof.Gen.KernelIdeal.Launch
import Idealize.ShloMosaic.Lib.StableHlo.Run
import Idealize.ShloMosaic.PureOps.Ideal
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

/-- The weight matrix transposed (its format change is the identity on the extended reals). -/
def wtOf (w : (⟨S128x128, .f32⟩ : BufTy).Contents (Elt Ideal)) : (⟨S128x128, .bf16⟩ : BufTy).Contents (Elt Ideal) :=
  truncf (F := Ideal) (φ := .f32) .bf16 (transpose S128x128 [1, 0] w transposes_S128x128_S128x128_1_0) bitsLt_bf16_f32

/-- The bias as a row [1, 128]. -/
def biasRow (b : (⟨S128, .f32⟩ : BufTy).Contents (Elt Ideal)) : (⟨S1x128, .f32⟩ : BufTy).Contents (Elt Ideal) :=
  shapeCast _ b shapeCasts_S128_S1x128

/-- The source list: row 0 of the [2, 600000] edge array, followed by one self-loop per node. -/
def srcOf (e : (⟨S2x600000, .i32⟩ : BufTy).Contents (Elt Ideal)) : (⟨S700000, .i32⟩ : BufTy).Contents (Elt Ideal) :=
  concatenate S700000 0 [⟨S600000, (shapeCast _ (extractStridedSlice S1x600000 ![0, 0] e slices_S2x600000_S1x600000_0_0) shapeCasts_S1x600000_S600000 : (⟨S600000, .i32⟩ : BufTy).Contents (Elt Ideal))⟩, ⟨S100000, iotaInDim S100000 32 0⟩] concatenates_S600000_S100000_S700000_d0

/-- The destination list: row 1 of the edge array, followed by one self-loop per node. -/
def dstOf (e : (⟨S2x600000, .i32⟩ : BufTy).Contents (Elt Ideal)) : (⟨S700000, .i32⟩ : BufTy).Contents (Elt Ideal) :=
  concatenate S700000 0 [⟨S600000, (shapeCast _ (extractStridedSlice S1x600000 ![1, 0] e slices_S2x600000_S1x600000_1_0) shapeCasts_S1x600000_S600000 : (⟨S600000, .i32⟩ : BufTy).Contents (Elt Ideal))⟩, ⟨S100000, iotaInDim S100000 32 0⟩] concatenates_S600000_S100000_S700000_d0

/-- The source list as the index column a gather takes: a negative entry wrapped by the number of nodes. -/
def srcCol (src : (⟨S700000, .i32⟩ : BufTy).Contents (Elt Ideal)) : (⟨S700000x1, .i32⟩ : BufTy).Contents (Elt Ideal) :=
  broadcastInDim S700000x1 ![0] bcast_S700000_S700000x1_0
    (select (cmpi .slt src (broadcastInDim S700000 ![] bcast_S_S700000 (constantI S_ 32 0#32)))
      (addi src (broadcastInDim S700000 ![] bcast_S_S700000 (constantI S_ 32 100000#32))) src)

/-- The destination list as the index column a scatter takes (not wrapped: an entry outside the nodes lands nowhere). -/
def dstCol (dst : (⟨S700000, .i32⟩ : BufTy).Contents (Elt Ideal)) : (⟨S700000x1, .i32⟩ : BufTy).Contents (Elt Ideal) :=
  broadcastInDim S700000x1 ![0] bcast_S700000_S700000x1_0 dst

/-- The all-zero rows an aggregation starts from. -/
def zeroRows : (⟨S100000x128, .f32⟩ : BufTy).Contents (Elt Ideal) :=
  broadcastInDim S100000x128 ![] bcast_S_S100000x128 (constant (F := Ideal) S_ .f32 0x00000000#32)

/-- One aggregation: node n's row is the sum, over the edges whose destination is n, of the source's row of `hs`. -/
def aggOf (src dst : (⟨S700000, .i32⟩ : BufTy).Contents (Elt Ideal)) (hs : (⟨S100000x128, .f32⟩ : BufTy).Contents (Elt Ideal)) : (⟨S100000x128, .f32⟩ : BufTy).Contents (Elt Ideal) :=
  Host.scatterAdd (F := Ideal) (φ := .f32) scatter_S100000x128_S700000x1_S700000x128_1_0_0_1 zeroRows (dstCol dst)
    (Host.gather gather_S100000x128_S700000x1_S700000x128_1_0_n_n_0_1_1128 hs (srcCol src))

/-- The number of edges into every node: ones accumulated at the destinations. -/
def degOf (dst : (⟨S700000, .i32⟩ : BufTy).Contents (Elt Ideal)) : (⟨S100000, .f32⟩ : BufTy).Contents (Elt Ideal) :=
  Host.scatterAdd (F := Ideal) (φ := .f32) scatter_S100000_S700000x1_S700000_n_0_0_1 (broadcastInDim S100000 ![] bcast_S_S100000 (constant (F := Ideal) S_ .f32 0x00000000#32))
    (dstCol dst) (broadcastInDim S700000 ![] bcast_S_S700000 (constant (F := Ideal) S_ .f32 0x3F800000#32))

/-- The node weights `where(deg > 0, deg^(-1/2), 0)`. -/
def dinvOf (dst : (⟨S700000, .i32⟩ : BufTy).Contents (Elt Ideal)) : (⟨S100000, .f32⟩ : BufTy).Contents (Elt Ideal) :=
  select (cmpf (F := Ideal) (φ := .f32) .ogt (degOf dst) (broadcastInDim S100000 ![] bcast_S_S100000 (constant (F := Ideal) S_ .f32 0x00000000#32)))
    (Host.rsqrt (F := Ideal) (φ := .f32) (degOf dst)) (broadcastInDim S100000 ![] bcast_S_S100000 (id (constant (F := Ideal) S_ .f32 0x00000000#32)))

/-- The weights as a column [100000, 1]. -/
def dinvCol (dst : (⟨S700000, .i32⟩ : BufTy).Contents (Elt Ideal)) : (⟨S100000x1, .f32⟩ : BufTy).Contents (Elt Ideal) :=
  shapeCast _ (dinvOf dst) shapeCasts_S100000_S100000x1

variable (W : Valuation τ sig (Elt Ideal))

/-! ## Before the first region -/

theorem pre0_arg0 : StableHlo.after (hostOps0 (F := Ideal)) W (Proc.devRef .tc main_arg0) = W (Proc.devRef .tc main_arg0) := by
  after_results
theorem pre0_arg1 : StableHlo.after (hostOps0 (F := Ideal)) W (Proc.devRef .tc main_arg1) = W (Proc.devRef .tc main_arg1) := by
  after_results
theorem pre0_v1 : StableHlo.after (hostOps0 (F := Ideal)) W (Proc.devRef .tc main_v1) = wtOf (W (Proc.devRef .tc main_arg2)) := by
  after_results; rfl
theorem pre0_v2 : StableHlo.after (hostOps0 (F := Ideal)) W (Proc.devRef .tc main_v2) = biasRow (W (Proc.devRef .tc main_arg3)) := by
  after_results; rfl

/-! ## Before the second region: the edge lists and the node weights, in the program's three stretches -/

theorem pre1a_v7 : StableHlo.after (hostOps1 (F := Ideal)) W (Proc.devRef .tc main_v7) = srcOf (W (Proc.devRef .tc main_arg1)) := by
  after_results; rfl
theorem pre1a_v10 : StableHlo.after (hostOps1 (F := Ideal)) W (Proc.devRef .tc main_v10) = dstOf (W (Proc.devRef .tc main_arg1)) := by
  after_results; rfl
theorem pre1a_v3 : StableHlo.after (hostOps1 (F := Ideal)) W (Proc.devRef .tc main_v3) = W (Proc.devRef .tc main_v3) := by
  after_results
set_option maxHeartbeats 1000000 in
theorem pre1a_v16 : StableHlo.after (hostOps1 (F := Ideal)) W (Proc.devRef .tc main_v16)
    = (cmpf (F := Ideal) (φ := .f32) .ogt (degOf (dstOf (W (Proc.devRef .tc main_arg1)))) (broadcastInDim S100000 ![] bcast_S_S100000 (constant (F := Ideal) S_ .f32 0x00000000#32)) : (⟨S100000, .i1⟩ : BufTy).Contents (Elt Ideal)) := by
  after_results; rfl
set_option maxHeartbeats 1000000 in
theorem pre1a_v17 : StableHlo.after (hostOps1 (F := Ideal)) W (Proc.devRef .tc main_v17)
    = (Host.rsqrt (F := Ideal) (φ := .f32) (degOf (dstOf (W (Proc.devRef .tc main_arg1)))) : (⟨S100000, .f32⟩ : BufTy).Contents (Elt Ideal)) := by
  after_results; rfl
theorem pre1a_cst2 : StableHlo.after (hostOps1 (F := Ideal)) W (Proc.devRef .tc main_cst_2)
    = (constant (F := Ideal) S_ .f32 0x00000000#32 : (⟨S_, .f32⟩ : BufTy).Contents (Elt Ideal)) := by
  after_results
theorem pre1b_v18 : StableHlo.after (hostOps1_1 (F := Ideal)) W (Proc.devRef .tc main_v18)
    = (select (W (Proc.devRef .tc main_v16)) (W (Proc.devRef .tc main_v17)) (broadcastInDim S100000 ![] bcast_S_S100000 (id (W (Proc.devRef .tc main_cst_2)))) : (⟨S100000, .f32⟩ : BufTy).Contents (Elt Ideal)) := by
  after_results; rfl
theorem pre1b_v7 : StableHlo.after (hostOps1_1 (F := Ideal)) W (Proc.devRef .tc main_v7) = W (Proc.devRef .tc main_v7) := by
  after_results
theorem pre1b_v10 : StableHlo.after (hostOps1_1 (F := Ideal)) W (Proc.devRef .tc main_v10) = W (Proc.devRef .tc main_v10) := by
  after_results
theorem pre1b_v3 : StableHlo.after (hostOps1_1 (F := Ideal)) W (Proc.devRef .tc main_v3) = W (Proc.devRef .tc main_v3) := by
  after_results
theorem pre1c_v19 : StableHlo.after (hostOps1_2 (F := Ideal)) W (Proc.devRef .tc main_v19)
    = (shapeCast _ (W (Proc.devRef .tc main_v18)) shapeCasts_S100000_S100000x1 : (⟨S100000x1, .f32⟩ : BufTy).Contents (Elt Ideal)) := by
  after_results; rfl
theorem pre1c_v7 : StableHlo.after (hostOps1_2 (F := Ideal)) W (Proc.devRef .tc main_v7) = W (Proc.devRef .tc main_v7) := by
  after_results
theorem pre1c_v10 : StableHlo.after (hostOps1_2 (F := Ideal)) W (Proc.devRef .tc main_v10) = W (Proc.devRef .tc main_v10) := by
  after_results
theorem pre1c_v3 : StableHlo.after (hostOps1_2 (F := Ideal)) W (Proc.devRef .tc main_v3) = W (Proc.devRef .tc main_v3) := by
  after_results

/-- The three stretches together, at the weight column. -/
theorem pre1_v19 : StableHlo.after (hostOps1_2 (F := Ideal)) (StableHlo.after (hostOps1_1 (F := Ideal)) (StableHlo.after (hostOps1 (F := Ideal)) W)) (Proc.devRef .tc main_v19)
    = dinvCol (dstOf (W (Proc.devRef .tc main_arg1))) := by
  rw [pre1c_v19, pre1b_v18, pre1a_v16, pre1a_v17, pre1a_cst2]
  rfl
theorem pre1_v7 : StableHlo.after (hostOps1_2 (F := Ideal)) (StableHlo.after (hostOps1_1 (F := Ideal)) (StableHlo.after (hostOps1 (F := Ideal)) W)) (Proc.devRef .tc main_v7)
    = srcOf (W (Proc.devRef .tc main_arg1)) := by
  rw [pre1c_v7, pre1b_v7, pre1a_v7]
theorem pre1_v10 : StableHlo.after (hostOps1_2 (F := Ideal)) (StableHlo.after (hostOps1_1 (F := Ideal)) (StableHlo.after (hostOps1 (F := Ideal)) W)) (Proc.devRef .tc main_v10)
    = dstOf (W (Proc.devRef .tc main_arg1)) := by
  rw [pre1c_v10, pre1b_v10, pre1a_v10]
theorem pre1_v3 : StableHlo.after (hostOps1_2 (F := Ideal)) (StableHlo.after (hostOps1_1 (F := Ideal)) (StableHlo.after (hostOps1 (F := Ideal)) W)) (Proc.devRef .tc main_v3)
    = W (Proc.devRef .tc main_v3) := by
  rw [pre1c_v3, pre1b_v3, pre1a_v3]

/-! ## Before each propagation region: one aggregation of the previous region's weighted rows -/

set_option maxHeartbeats 4000000 in
theorem agg2 : StableHlo.after (hostOps2 (F := Ideal)) W (Proc.devRef .tc main_v30)
    = aggOf (W (Proc.devRef .tc main_v7)) (W (Proc.devRef .tc main_v10)) (W (Proc.devRef .tc main_v20)) := by
  after_results; rfl
theorem kept2_v3 : StableHlo.after (hostOps2 (F := Ideal)) W (Proc.devRef .tc main_v3) = W (Proc.devRef .tc main_v3) :=
  StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept2_v19 : StableHlo.after (hostOps2 (F := Ideal)) W (Proc.devRef .tc main_v19) = W (Proc.devRef .tc main_v19) :=
  StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept2_v7 : StableHlo.after (hostOps2 (F := Ideal)) W (Proc.devRef .tc main_v7) = W (Proc.devRef .tc main_v7) :=
  StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept2_v10 : StableHlo.after (hostOps2 (F := Ideal)) W (Proc.devRef .tc main_v10) = W (Proc.devRef .tc main_v10) :=
  StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg3 : StableHlo.after (hostOps3 (F := Ideal)) W (Proc.devRef .tc main_v41)
    = aggOf (W (Proc.devRef .tc main_v7)) (W (Proc.devRef .tc main_v10)) (W (Proc.devRef .tc main_v31_1)) := by
  after_results; rfl
theorem kept3_v3 : StableHlo.after (hostOps3 (F := Ideal)) W (Proc.devRef .tc main_v3) = W (Proc.devRef .tc main_v3) :=
  StableHlo.after_of_forall_not_mem _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept3_v19 : StableHlo.after (hostOps3 (F := Ideal)) W (Proc.devRef .tc main_v19) = W (Proc.devRef .tc main_v19) :=
  StableHlo.after_of_forall_not_mem _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept3_v7 : StableHlo.after (hostOps3 (F := Ideal)) W (Proc.devRef .tc main_v7) = W (Proc.devRef .tc main_v7) :=
  StableHlo.after_of_forall_not_mem _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept3_v10 : StableHlo.after (hostOps3 (F := Ideal)) W (Proc.devRef .tc main_v10) = W (Proc.devRef .tc main_v10) :=
  StableHlo.after_of_forall_not_mem _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg4 : StableHlo.after (hostOps4 (F := Ideal)) W (Proc.devRef .tc main_v52)
    = aggOf (W (Proc.devRef .tc main_v7)) (W (Proc.devRef .tc main_v10)) (W (Proc.devRef .tc main_v42_1)) := by
  after_results; rfl
theorem kept4_v3 : StableHlo.after (hostOps4 (F := Ideal)) W (Proc.devRef .tc main_v3) = W (Proc.devRef .tc main_v3) :=
  StableHlo.after_of_forall_not_mem _ _ (List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept4_v19 : StableHlo.after (hostOps4 (F := Ideal)) W (Proc.devRef .tc main_v19) = W (Proc.devRef .tc main_v19) :=
  StableHlo.after_of_forall_not_mem _ _ (List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept4_v7 : StableHlo.after (hostOps4 (F := Ideal)) W (Proc.devRef .tc main_v7) = W (Proc.devRef .tc main_v7) :=
  StableHlo.after_of_forall_not_mem _ _ (List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept4_v10 : StableHlo.after (hostOps4 (F := Ideal)) W (Proc.devRef .tc main_v10) = W (Proc.devRef .tc main_v10) :=
  StableHlo.after_of_forall_not_mem _ _ (List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg5 : StableHlo.after (hostOps5 (F := Ideal)) W (Proc.devRef .tc main_v63)
    = aggOf (W (Proc.devRef .tc main_v7)) (W (Proc.devRef .tc main_v10)) (W (Proc.devRef .tc main_v53_1)) := by
  after_results; rfl
theorem kept5_v3 : StableHlo.after (hostOps5 (F := Ideal)) W (Proc.devRef .tc main_v3) = W (Proc.devRef .tc main_v3) :=
  StableHlo.after_of_forall_not_mem _ _ (List.forall_iff_forall_mem.mp (by
    simp only [hostOps5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept5_v19 : StableHlo.after (hostOps5 (F := Ideal)) W (Proc.devRef .tc main_v19) = W (Proc.devRef .tc main_v19) :=
  StableHlo.after_of_forall_not_mem _ _ (List.forall_iff_forall_mem.mp (by
    simp only [hostOps5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept5_v7 : StableHlo.after (hostOps5 (F := Ideal)) W (Proc.devRef .tc main_v7) = W (Proc.devRef .tc main_v7) :=
  StableHlo.after_of_forall_not_mem _ _ (List.forall_iff_forall_mem.mp (by
    simp only [hostOps5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept5_v10 : StableHlo.after (hostOps5 (F := Ideal)) W (Proc.devRef .tc main_v10) = W (Proc.devRef .tc main_v10) :=
  StableHlo.after_of_forall_not_mem _ _ (List.forall_iff_forall_mem.mp (by
    simp only [hostOps5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg6 : StableHlo.after (hostOps6 (F := Ideal)) W (Proc.devRef .tc main_v74)
    = aggOf (W (Proc.devRef .tc main_v7)) (W (Proc.devRef .tc main_v10)) (W (Proc.devRef .tc main_v64_1)) := by
  after_results; rfl
theorem kept6_v3 : StableHlo.after (hostOps6 (F := Ideal)) W (Proc.devRef .tc main_v3) = W (Proc.devRef .tc main_v3) :=
  StableHlo.after_of_forall_not_mem _ _ (List.forall_iff_forall_mem.mp (by
    simp only [hostOps6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept6_v19 : StableHlo.after (hostOps6 (F := Ideal)) W (Proc.devRef .tc main_v19) = W (Proc.devRef .tc main_v19) :=
  StableHlo.after_of_forall_not_mem _ _ (List.forall_iff_forall_mem.mp (by
    simp only [hostOps6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept6_v7 : StableHlo.after (hostOps6 (F := Ideal)) W (Proc.devRef .tc main_v7) = W (Proc.devRef .tc main_v7) :=
  StableHlo.after_of_forall_not_mem _ _ (List.forall_iff_forall_mem.mp (by
    simp only [hostOps6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept6_v10 : StableHlo.after (hostOps6 (F := Ideal)) W (Proc.devRef .tc main_v10) = W (Proc.devRef .tc main_v10) :=
  StableHlo.after_of_forall_not_mem _ _ (List.forall_iff_forall_mem.mp (by
    simp only [hostOps6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg7 : StableHlo.after (hostOps7 (F := Ideal)) W (Proc.devRef .tc main_v85)
    = aggOf (W (Proc.devRef .tc main_v7)) (W (Proc.devRef .tc main_v10)) (W (Proc.devRef .tc main_v75_1)) := by
  after_results; rfl
theorem kept7_v3 : StableHlo.after (hostOps7 (F := Ideal)) W (Proc.devRef .tc main_v3) = W (Proc.devRef .tc main_v3) :=
  StableHlo.after_of_forall_not_mem _ _ (List.forall_iff_forall_mem.mp (by
    simp only [hostOps7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept7_v19 : StableHlo.after (hostOps7 (F := Ideal)) W (Proc.devRef .tc main_v19) = W (Proc.devRef .tc main_v19) :=
  StableHlo.after_of_forall_not_mem _ _ (List.forall_iff_forall_mem.mp (by
    simp only [hostOps7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept7_v7 : StableHlo.after (hostOps7 (F := Ideal)) W (Proc.devRef .tc main_v7) = W (Proc.devRef .tc main_v7) :=
  StableHlo.after_of_forall_not_mem _ _ (List.forall_iff_forall_mem.mp (by
    simp only [hostOps7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept7_v10 : StableHlo.after (hostOps7 (F := Ideal)) W (Proc.devRef .tc main_v10) = W (Proc.devRef .tc main_v10) :=
  StableHlo.after_of_forall_not_mem _ _ (List.forall_iff_forall_mem.mp (by
    simp only [hostOps7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg8 : StableHlo.after (hostOps8 (F := Ideal)) W (Proc.devRef .tc main_v96)
    = aggOf (W (Proc.devRef .tc main_v7)) (W (Proc.devRef .tc main_v10)) (W (Proc.devRef .tc main_v86_1)) := by
  after_results; rfl
theorem kept8_v3 : StableHlo.after (hostOps8 (F := Ideal)) W (Proc.devRef .tc main_v3) = W (Proc.devRef .tc main_v3) :=
  StableHlo.after_of_forall_not_mem _ _ (List.forall_iff_forall_mem.mp (by
    simp only [hostOps8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept8_v19 : StableHlo.after (hostOps8 (F := Ideal)) W (Proc.devRef .tc main_v19) = W (Proc.devRef .tc main_v19) :=
  StableHlo.after_of_forall_not_mem _ _ (List.forall_iff_forall_mem.mp (by
    simp only [hostOps8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept8_v7 : StableHlo.after (hostOps8 (F := Ideal)) W (Proc.devRef .tc main_v7) = W (Proc.devRef .tc main_v7) :=
  StableHlo.after_of_forall_not_mem _ _ (List.forall_iff_forall_mem.mp (by
    simp only [hostOps8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept8_v10 : StableHlo.after (hostOps8 (F := Ideal)) W (Proc.devRef .tc main_v10) = W (Proc.devRef .tc main_v10) :=
  StableHlo.after_of_forall_not_mem _ _ (List.forall_iff_forall_mem.mp (by
    simp only [hostOps8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg9 : StableHlo.after (hostOps9 (F := Ideal)) W (Proc.devRef .tc main_v107)
    = aggOf (W (Proc.devRef .tc main_v7)) (W (Proc.devRef .tc main_v10)) (W (Proc.devRef .tc main_v97_1)) := by
  after_results; rfl
theorem kept9_v3 : StableHlo.after (hostOps9 (F := Ideal)) W (Proc.devRef .tc main_v3) = W (Proc.devRef .tc main_v3) :=
  StableHlo.after_of_forall_not_mem _ _ (List.forall_iff_forall_mem.mp (by
    simp only [hostOps9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept9_v19 : StableHlo.after (hostOps9 (F := Ideal)) W (Proc.devRef .tc main_v19) = W (Proc.devRef .tc main_v19) :=
  StableHlo.after_of_forall_not_mem _ _ (List.forall_iff_forall_mem.mp (by
    simp only [hostOps9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept9_v7 : StableHlo.after (hostOps9 (F := Ideal)) W (Proc.devRef .tc main_v7) = W (Proc.devRef .tc main_v7) :=
  StableHlo.after_of_forall_not_mem _ _ (List.forall_iff_forall_mem.mp (by
    simp only [hostOps9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept9_v10 : StableHlo.after (hostOps9 (F := Ideal)) W (Proc.devRef .tc main_v10) = W (Proc.devRef .tc main_v10) :=
  StableHlo.after_of_forall_not_mem _ _ (List.forall_iff_forall_mem.mp (by
    simp only [hostOps9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg10 : StableHlo.after (hostOps10 (F := Ideal)) W (Proc.devRef .tc main_v118)
    = aggOf (W (Proc.devRef .tc main_v7)) (W (Proc.devRef .tc main_v10)) (W (Proc.devRef .tc main_v108_1)) := by
  after_results; rfl
theorem kept10_v3 : StableHlo.after (hostOps10 (F := Ideal)) W (Proc.devRef .tc main_v3) = W (Proc.devRef .tc main_v3) :=
  StableHlo.after_of_forall_not_mem _ _ (List.forall_iff_forall_mem.mp (by
    simp only [hostOps10, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept10_v19 : StableHlo.after (hostOps10 (F := Ideal)) W (Proc.devRef .tc main_v19) = W (Proc.devRef .tc main_v19) :=
  StableHlo.after_of_forall_not_mem _ _ (List.forall_iff_forall_mem.mp (by
    simp only [hostOps10, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept10_v7 : StableHlo.after (hostOps10 (F := Ideal)) W (Proc.devRef .tc main_v7) = W (Proc.devRef .tc main_v7) :=
  StableHlo.after_of_forall_not_mem _ _ (List.forall_iff_forall_mem.mp (by
    simp only [hostOps10, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept10_v10 : StableHlo.after (hostOps10 (F := Ideal)) W (Proc.devRef .tc main_v10) = W (Proc.devRef .tc main_v10) :=
  StableHlo.after_of_forall_not_mem _ _ (List.forall_iff_forall_mem.mp (by
    simp only [hostOps10, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 4000000 in
theorem agg11 : StableHlo.after (hostOps11 (F := Ideal)) W (Proc.devRef .tc main_v129)
    = aggOf (W (Proc.devRef .tc main_v7)) (W (Proc.devRef .tc main_v10)) (W (Proc.devRef .tc main_v119_1)) := by
  after_results; rfl
theorem kept11_v3 : StableHlo.after (hostOps11 (F := Ideal)) W (Proc.devRef .tc main_v3) = W (Proc.devRef .tc main_v3) :=
  StableHlo.after_of_forall_not_mem _ _ (List.forall_iff_forall_mem.mp (by
    simp only [hostOps11, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept11_v19 : StableHlo.after (hostOps11 (F := Ideal)) W (Proc.devRef .tc main_v19) = W (Proc.devRef .tc main_v19) :=
  StableHlo.after_of_forall_not_mem _ _ (List.forall_iff_forall_mem.mp (by
    simp only [hostOps11, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept11_v7 : StableHlo.after (hostOps11 (F := Ideal)) W (Proc.devRef .tc main_v7) = W (Proc.devRef .tc main_v7) :=
  StableHlo.after_of_forall_not_mem _ _ (List.forall_iff_forall_mem.mp (by
    simp only [hostOps11, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept11_v10 : StableHlo.after (hostOps11 (F := Ideal)) W (Proc.devRef .tc main_v10) = W (Proc.devRef .tc main_v10) :=
  StableHlo.after_of_forall_not_mem _ _ (List.forall_iff_forall_mem.mp (by
    simp only [hostOps11, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.KernelIdeal.Host

end
-- ==== Proof.KSpec.lean ====
/-
  The three node-wise maps the propagation is made of, as whole-array functions on the extended reals.

  Nodes are the 100000 rows, features the 128 lanes.  `linear` is the projection of a row by a 128 x 128 matrix
  plus a bias row; `scale` multiplies every row by its node's weight (a column [100000, 1]); `blendH` is one
  propagation step's node-wise part, 0.9 * weight * aggregate + 0.1 * projection, and `blendHS` the same value
  multiplied once more by the node's weight, ready to be gathered by the next step.
-/
import Idealize.ShloMosaic.Lib.ValueIdx
import Idealize.ShloMosaic.PureOps.Ideal.Laws

noncomputable section

namespace Cert.Appnp

open Idealize.ShloMosaic Idealize.ShloMosaic.ValueIdx

abbrev SNC : Shape := ⟨2, ![100000, 128]⟩
abbrev SN1 : Shape := ⟨2, ![100000, 1]⟩
abbrev SCC : Shape := ⟨2, ![128, 128]⟩
abbrev S1C : Shape := ⟨2, ![1, 128]⟩

/-- The f32 word of 0.9 and of 0.1, as the extended reals they denote. -/
abbrev c9 : EReal := Ideal.ofBits .f32 0x3F666666#32
abbrev c1 : EReal := Ideal.ofBits .f32 0x3DCCCCCD#32

/-- The row of a node in the weight column. -/
abbrev rowOf (i : SNC.Idx) : SN1.Idx := ix2 (⟨(i 0).val, idx2_lt0 i⟩ : Fin 100000) (0 : Fin 1)

/-- Row `p` of `x` times the matrix `w`, plus the bias row: entry (p, q) is the sum over j of x(p, j) * w(j, q), plus b(0, q). -/
def linear (x : SNC.Idx → EReal) (w : SCC.Idx → EReal) (b : S1C.Idx → EReal) : SNC.Idx → EReal :=
  fun i => (∑ j : Fin 128, x (ix2 (⟨(i 0).val, idx2_lt0 i⟩ : Fin 100000) j) * w (ix2 j (⟨(i 1).val, idx2_lt1 i⟩ : Fin 128)))
    + b (ix2 (0 : Fin 1) (⟨(i 1).val, idx2_lt1 i⟩ : Fin 128))

/-- Every row multiplied by its node's weight. -/
def scale (h : SNC.Idx → EReal) (d : SN1.Idx → EReal) : SNC.Idx → EReal :=
  fun i => d (rowOf i) * h i

/-- One step's node-wise part: (0.9 * weight) * aggregate + 0.1 * projection. -/
def blendH (agg h0 : SNC.Idx → EReal) (d : SN1.Idx → EReal) : SNC.Idx → EReal :=
  fun i => (c9 * d (rowOf i)) * agg i + c1 * h0 i

/-- The step's value multiplied by the node's weight. -/
def blendHS (agg h0 : SNC.Idx → EReal) (d : SN1.Idx → EReal) : SNC.Idx → EReal :=
  fun i => d (rowOf i) * blendH agg h0 d i

end Cert.Appnp

end
-- ==== Proof.KHop.lean ====
/-
  The kernel program's propagation as a recurrence on pairs.

  The program keeps two arrays per step: the rows `h` and the rows multiplied by their nodes' weights, `hs`, which is
  what the next step's aggregation gathers.  One step takes the aggregation of `hs` over the edges and leaves
  `h' = (0.9 * weight) * aggregation + 0.1 * h0` and `hs' = weight * h'`.
-/
import proofs.«176388_j37022618092150_2_alg».proof.Proof.KHost
import proofs.«176388_j37022618092150_2_alg».proof.Proof.KSpec

noncomputable section

namespace Cert.KernelIdeal.Chain

open Cert.KernelIdeal Cert.KernelIdeal.Host Idealize.ShloMosaic

abbrev TNC : Type := (⟨S100000x128, .f32⟩ : BufTy).Contents (Elt Ideal)
abbrev TE : Type := (⟨S2x600000, .i32⟩ : BufTy).Contents (Elt Ideal)

/-- The rows and the weighted rows after `k` propagation steps, from the projection `h0` and the edge array `e`. -/
def hopK (e : TE) (h0 : TNC) : ℕ → TNC × TNC
  | 0 => (h0, Cert.Appnp.scale h0 (dinvCol (dstOf e)))
  | k + 1 => (Cert.Appnp.blendH (aggOf (srcOf e) (dstOf e) (hopK e h0 k).2) h0 (dinvCol (dstOf e)),
      Cert.Appnp.blendHS (aggOf (srcOf e) (dstOf e) (hopK e h0 k).2) h0 (dinvCol (dstOf e)))

end Cert.KernelIdeal.Chain

end
-- ==== Proof.Linear0.lean ====
/-
  The projection step, read as one array.

  The grid has 20 points.  Point t holds rows 5000 t … 5000 t + 4999 of the input and of the result (128 lanes each), and
  at every point the whole 128 x 128 matrix and the whole bias row.  At row r and lane q of its block the body computes
  the sum over j of x (r, j) * w (j, q), the rounding of x to the matrix's element type being the identity on the
  extended reals and the accumulator starting at zero, and adds the bias at lane q, broadcast down the rows.  Every
  point writes its block back and the 20 blocks tile the 100000 rows, so after the step the result array is, at every
  index, that row of the input times the matrix plus the bias.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Linear0

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 SCC S1C rowOf)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic at one row and lane -/

/-- The operand indices of the product at output index i and contraction index k: row (i 0) and column k of the left
    operand, row k and column (i 1) of the right one. -/
theorem lhs_row (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem rhs_contr (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem rhs_col (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator at (r, q): the sum over j of x (r, j) * w (j, q). -/
theorem mm_apply (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ j : Fin 128, x (ix2 r j) * w (ix2 j q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The body's result at (r, q): row r of the block times column q of the matrix, plus the bias at lane q. -/
theorem pay_apply (x : Vec Ideal S5000x128 .f32) (w : Vec Ideal S128x128 .bf16) (b : Vec Ideal S1x128 .f32) (r : Fin 5000) (q : Fin 128) :
    k0_pay1 x w b (ix2 r q) = (∑ j : Fin 128, x (ix2 r j) * w (ix2 j q)) + b (ix2 (0 : Fin 1) q) := by
  unfold k0_pay1
  simp only [shapeCast_self, addf_apply]
  rw [mm_apply, broadcastTo_1b_ab_apply]
  rfl

/-- The result at (r, q) of a block is the projection at an index i of the arrays, once the entries of the block's row r, of
    the matrix's column q and of the bias at lane q are the arrays' entries at i's row and lane. -/
theorem blk_lin (x : Vec Ideal S5000x128 .f32) (w : Vec Ideal S128x128 .bf16) (b : Vec Ideal S1x128 .f32)
    (X : SNC.Idx → EReal) (W : SCC.Idx → EReal) (B : S1C.Idx → EReal) (r : Fin 5000) (q : Fin 128) (i : SNC.Idx)
    (hx : ∀ j : Fin 128, x (ix2 r j) = X (ix2 (⟨(i 0).val, idx2_lt0 i⟩ : Fin 100000) j))
    (hw : ∀ j : Fin 128, w (ix2 j q) = W (ix2 j (⟨(i 1).val, idx2_lt1 i⟩ : Fin 128)))
    (hb : b (ix2 (0 : Fin 1) q) = B (ix2 (0 : Fin 1) (⟨(i 1).val, idx2_lt1 i⟩ : Fin 128))) :
    k0_pay1 x w b (ix2 r q) = Cert.Appnp.linear X W B i := by
  have hs : (∑ j : Fin 128, x (ix2 r j) * w (ix2 j q))
      = ∑ j : Fin 128, X (ix2 (⟨(i 0).val, idx2_lt0 i⟩ : Fin 100000) j) * W (ix2 j (⟨(i 1).val, idx2_lt1 i⟩ : Fin 128)) :=
    Finset.sum_congr rfl fun j _ => by rw [hx j, hw j]
  rw [pay_apply, hb, hs]; rfl

/-! ## Where a block's entry sits in its array -/

/-- Decided over the 20 points: the input's and the result's block index at point t is (t, 0); the matrix's and the bias
    row's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r, lane j of the input's block at point t is the array at row 5000 t + r, lane j. -/
theorem iblk_x (c : Dev nD) (t : Fin cfg0.N) (r : Fin 5000) (j : Fin 128) (k : SNC.Idx)
    (hk0 : (k 0).val = t.val * 5000 + r.val) (hk1 : (k 1).val = j.val) :
    (iblk0 V c 0 t : Vec Ideal S5000x128 .f32) (ix2 r j) = (V c main_arg0 : SNC.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * r.val = (k 0).val; rw [e0, hk0]; omega
  | ⟨1, _⟩ => show win0_0.index t (1 : Fin 2) * 128 + 1 * j.val = (k 1).val; rw [e1, hk1]; omega

/-- The matrix's block at every point is the whole matrix. -/
theorem iblk_m (c : Dev nD) (t : Fin cfg0.N) (j q : Fin 128) (k : SCC.Idx)
    (hk0 : (k 0).val = j.val) (hk1 : (k 1).val = q.val) :
    (iblk0 V c 1 t : Vec Ideal S128x128 .bf16) (ix2 j q) = (V c main_v1 : SCC.Idx → EReal) k := by
  obtain ⟨-, -, e0, e1, -⟩ := idx_facts t
  unfold iblk0
  rw [View.read_apply]
  show V c main_v1 _ = V c main_v1 _
  congr 1
  funext a
  apply Fin.ext
  match a with
  | ⟨0, _⟩ => show win0_1.index t (0 : Fin 2) * 128 + 1 * j.val = (k 0).val; rw [e0, hk0]; omega
  | ⟨1, _⟩ => show win0_1.index t (1 : Fin 2) * 128 + 1 * q.val = (k 1).val; rw [e1, hk1]; omega

/-- The bias row's block at every point is the whole row. -/
theorem iblk_b (c : Dev nD) (t : Fin cfg0.N) (q : Fin 128) (k : S1C.Idx)
    (hk0 : (k 0).val = 0) (hk1 : (k 1).val = q.val) :
    (iblk0 V c 2 t : Vec Ideal S1x128 .f32) (ix2 (0 : Fin 1) q) = (V c main_v2 : S1C.Idx → EReal) k := by
  obtain ⟨-, -, -, -, e0, e1, -⟩ := idx_facts t
  unfold iblk0
  rw [View.read_apply]
  show V c main_v2 _ = V c main_v2 _
  congr 1
  funext a
  apply Fin.ext
  match a with
  | ⟨0, _⟩ => show win0_2.index t (0 : Fin 2) * 1 + 1 * 0 = (k 0).val; rw [e0, hk0]
  | ⟨1, _⟩ => show win0_2.index t (1 : Fin 2) * 128 + 1 * q.val = (k 1).val; rw [e1, hk1]; omega

/-! ## What each point writes back -/

/-- Point t writes back block t of the projection of the three arrays. -/
theorem flushed_eq (c : Dev nD) (t : Fin cfg0.N) :
    (dat0 (F := Ideal) V c).flushed 3 t
      = ((cfg0.win 3).blk t).view.read (Elt Ideal) (Cert.Appnp.linear (V c main_arg0) (V c main_v1) (V c main_v2)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg0.win 3).blk t).view.emb (ix2 r q) : SNC.Idx) 0).val = t.val * 5000 + r.val := by
    show win0_3.index t (0 : Fin 2) * 5000 + 1 * r.val = _; rw [e0]; omega
  have h1 : ((((cfg0.win 3).blk t).view.emb (ix2 r q) : SNC.Idx) 1).val = q.val := by
    show win0_3.index t (1 : Fin 2) * 128 + 1 * q.val = _; rw [e1]; omega
  exact blk_lin _ _ _ _ _ _ r q _ (fun j => iblk_x V c t r j _ h0 rfl) (fun j => iblk_m V c t j q _ rfl h1) (iblk_b V c t q _ rfl h1)

/-! ## The blocks tile the array -/

/-- An index of the result is in point t's block iff each coordinate is in the block's range on its axis. -/
theorem mem_blk (t : Fin cfg0.N) (i : SNC.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v3).slice (win0_3.rect t)).set ↔ _
  rw [View.set_slice_whole, Rect.mem_set_unit]
  exact Iff.rfl

/-- Row n of the result lies in the block of point n / 5000, which writes back. -/
theorem cover (i : SNC.Idx) : ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  refine ⟨⟨(i 0).val / 5000, by rw [hN]; omega⟩, flush0_3 _, ?_⟩
  rw [mem_blk]
  obtain ⟨-, -, -, -, -, -, e0, e1⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-! ## The result array after the step -/

/-- The result array after the step is the input projected by the matrix, plus the bias row. -/
theorem final (c : Dev nD) :
    (dat0 (F := Ideal) V c).arrAt 3 cfg0.N = Cert.Appnp.linear (V c main_arg0) (V c main_v1) (V c main_v2) :=
  (dat0 (F := Ideal) V c).arrAt_eq_of_cover 3 (Cert.Appnp.linear (V c main_arg0) (V c main_v1) (V c main_v2))
    (fun t _ => flushed_eq V c t) cover

end Cert.KernelIdeal.Linear0

end
-- ==== Proof.Scale1.lean ====
/-
  The scaling step, read as one array.

  The grid has 20 points.  Point t holds rows 5000 t … 5000 t + 4999 of the projection (128 lanes), of the weight column
  (one lane) and of the result.  At row r and lane q of its block the body multiplies the block's entry by the weight of
  row r, broadcast over the lanes.  Every point writes its block back and the 20 blocks tile the 100000 rows, so after
  the step the result array is, at every index, the array's entry times its row's weight.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Scale1

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 SCC S1C rowOf)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic at one row and lane -/

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's result at (r, q): the weight of row r times the block's entry. -/
theorem pay_apply (d : Vec Ideal S5000x1 .f32) (h : Vec Ideal S5000x128 .f32) (r : Fin 5000) (q : Fin 128) :
    k1_pay1 d h (ix2 r q) = d (ix2 r (0 : Fin 1)) * h (ix2 r q) := by
  unfold k1_pay1
  simp only [shapeCast_self, mulf_apply]
  rw [col_apply]

/-- The result at (r, q) of a block is the scaled array at an index i, once the two block entries read are the arrays'
    entries at i (the weight at i's row). -/
theorem blk_scale (d : Vec Ideal S5000x1 .f32) (h : Vec Ideal S5000x128 .f32) (H : SNC.Idx → EReal) (D : SN1.Idx → EReal)
    (r : Fin 5000) (q : Fin 128) (i : SNC.Idx)
    (hd : d (ix2 r (0 : Fin 1)) = D (rowOf i)) (hh : h (ix2 r q) = H i) :
    k1_pay1 d h (ix2 r q) = Cert.Appnp.scale H D i := by
  rw [pay_apply, hd, hh]; rfl

/-! ## Where a block's entry sits in its array -/

/-- Decided over the 20 points: every window's block index at point t is (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row r, lane q of the projection's block at point t is the array at row 5000 t + r, lane q. -/
theorem iblk_h (c : Dev nD) (t : Fin cfg1.N) (r : Fin 5000) (q : Fin 128) (i : SNC.Idx)
    (hi0 : (i 0).val = t.val * 5000 + r.val) (hi1 : (i 1).val = q.val) :
    (iblk1 V c 0 t : Vec Ideal S5000x128 .f32) (ix2 r q) = (V c main_v3 : SNC.Idx → EReal) i := by
  obtain ⟨e0, e1, -⟩ := idx_facts t
  unfold iblk1
  rw [View.read_apply]
  show V c main_v3 _ = V c main_v3 _
  congr 1
  funext a
  apply Fin.ext
  match a with
  | ⟨0, _⟩ => show win1_0.index t (0 : Fin 2) * 5000 + 1 * r.val = (i 0).val; rw [e0, hi0]; omega
  | ⟨1, _⟩ => show win1_0.index t (1 : Fin 2) * 128 + 1 * q.val = (i 1).val; rw [e1, hi1]; omega

/-- Row r of the weight column's block at point t is the column at row 5000 t + r. -/
theorem iblk_w (c : Dev nD) (t : Fin cfg1.N) (r : Fin 5000) (i : SNC.Idx)
    (hi0 : (i 0).val = t.val * 5000 + r.val) :
    (iblk1 V c 1 t : Vec Ideal S5000x1 .f32) (ix2 r (0 : Fin 1)) = (V c main_v19 : SN1.Idx → EReal) (rowOf i) := by
  obtain ⟨-, -, e0, e1, -⟩ := idx_facts t
  unfold iblk1
  rw [View.read_apply]
  show V c main_v19 _ = V c main_v19 _
  congr 1
  funext a
  apply Fin.ext
  match a with
  | ⟨0, _⟩ => show win1_1.index t (0 : Fin 2) * 5000 + 1 * r.val = (i 0).val; rw [e0, hi0]; omega
  | ⟨1, _⟩ => show win1_1.index t (1 : Fin 2) * 1 + 1 * 0 = 0; rw [e1]

/-! ## What each point writes back -/

/-- Point t writes back block t of the scaled array. -/
theorem flushed_eq (c : Dev nD) (t : Fin cfg1.N) :
    (dat1 (F := Ideal) V c).flushed 2 t
      = ((cfg1.win 2).blk t).view.read (Elt Ideal) (Cert.Appnp.scale (V c main_v3) (V c main_v19)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S5000x1) hz]
  obtain ⟨-, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg1.win 2).blk t).view.emb (ix2 r q) : SNC.Idx) 0).val = t.val * 5000 + r.val := by
    show win1_2.index t (0 : Fin 2) * 5000 + 1 * r.val = _; rw [e0]; omega
  have h1 : ((((cfg1.win 2).blk t).view.emb (ix2 r q) : SNC.Idx) 1).val = q.val := by
    show win1_2.index t (1 : Fin 2) * 128 + 1 * q.val = _; rw [e1]; omega
  exact blk_scale _ _ _ _ r q _ (iblk_w V c t r _ h0) (iblk_h V c t r q _ h0 h1)

/-! ## The blocks tile the array -/

/-- An index of the result is in point t's block iff each coordinate is in the block's range on its axis. -/
theorem mem_blk (t : Fin cfg1.N) (i : SNC.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v20).slice (win1_2.rect t)).set ↔ _
  rw [View.set_slice_whole, Rect.mem_set_unit]
  exact Iff.rfl

/-- Row n of the result lies in the block of point n / 5000, which writes back. -/
theorem cover (i : SNC.Idx) : ∃ t : Fin cfg1.N, (cfg1.win 2).flush t = true ∧ i ∈ ((cfg1.win 2).blk t).view.set := by
  have hN : cfg1.N = 20 := N_1
  have hi0 : (i 0).val < 100000 := idx2_lt0 i
  have hi1 : (i 1).val < 128 := idx2_lt1 i
  refine ⟨⟨(i 0).val / 5000, by rw [hN]; omega⟩, flush1_2 _, ?_⟩
  rw [mem_blk]
  obtain ⟨-, -, -, -, e0, e1⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e1]; omega

/-! ## The result array after the step -/

/-- The result array after the step is the projection with every row multiplied by its weight. -/
theorem final (c : Dev nD) :
    (dat1 (F := Ideal) V c).arrAt 2 cfg1.N = Cert.Appnp.scale (V c main_v3) (V c main_v19) :=
  (dat1 (F := Ideal) V c).arrAt_eq_of_cover 2 (Cert.Appnp.scale (V c main_v3) (V c main_v19))
    (fun t _ => flushed_eq V c t) cover

end Cert.KernelIdeal.Scale1

end
-- ==== Proof.Blend2.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend2

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k2_pay1 d (ix2 r q) = d (ix2 r (0 : Fin 1)) := by
  unfold k2_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k2_pay2 d g h0 (ix2 r q) = (Cert.Appnp.c9 * d (ix2 r (0 : Fin 1))) * g (ix2 r q) + Cert.Appnp.c1 * h0 (ix2 r q) := by
  unfold k2_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k2_pay3 d g h0 (ix2 r q) = d (ix2 r (0 : Fin 1)) * ((Cert.Appnp.c9 * d (ix2 r (0 : Fin 1))) * g (ix2 r q) + Cert.Appnp.c1 * h0 (ix2 r q)) := by
  unfold k2_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k2_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k2_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row r, lane q of the aggregate's block at point t is the array at row 5000 t + r, lane q. -/
theorem iblk_agg (c : Dev nD) (t : Fin cfg2.N) (r : Fin 5000) (q : Fin 128) (i : SNC.Idx)
    (hi0 : (i 0).val = t.val * 5000 + r.val) (hi1 : (i 1).val = q.val) :
    (iblk2 V c 0 t : Vec Ideal S5000x128 .f32) (ix2 r q) = (V c main_v30 : SNC.Idx → EReal) i := by
  obtain ⟨e0, e1, -⟩ := idx_facts t
  unfold iblk2
  rw [View.read_apply]
  show V c main_v30 _ = V c main_v30 _
  congr 1
  funext a
  apply Fin.ext
  match a with
  | ⟨0, _⟩ => show win2_0.index t (0 : Fin 2) * 5000 + 1 * r.val = (i 0).val; rw [e0, hi0]; omega
  | ⟨1, _⟩ => show win2_0.index t (1 : Fin 2) * 128 + 1 * q.val = (i 1).val; rw [e1, hi1]; omega

/-- The same for the projection's block. -/
theorem iblk_h0 (c : Dev nD) (t : Fin cfg2.N) (r : Fin 5000) (q : Fin 128) (i : SNC.Idx)
    (hi0 : (i 0).val = t.val * 5000 + r.val) (hi1 : (i 1).val = q.val) :
    (iblk2 V c 1 t : Vec Ideal S5000x128 .f32) (ix2 r q) = (V c main_v3 : SNC.Idx → EReal) i := by
  obtain ⟨-, -, e0, e1, -⟩ := idx_facts t
  unfold iblk2
  rw [View.read_apply]
  show V c main_v3 _ = V c main_v3 _
  congr 1
  funext a
  apply Fin.ext
  match a with
  | ⟨0, _⟩ => show win2_1.index t (0 : Fin 2) * 5000 + 1 * r.val = (i 0).val; rw [e0, hi0]; omega
  | ⟨1, _⟩ => show win2_1.index t (1 : Fin 2) * 128 + 1 * q.val = (i 1).val; rw [e1, hi1]; omega

/-- Row r of the weight column's block at point t is the column at row 5000 t + r. -/
theorem iblk_w (c : Dev nD) (t : Fin cfg2.N) (r : Fin 5000) (i : SNC.Idx)
    (hi0 : (i 0).val = t.val * 5000 + r.val) :
    (iblk2 V c 2 t : Vec Ideal S5000x1 .f32) (ix2 r (0 : Fin 1)) = (V c main_v19 : SN1.Idx → EReal) (rowOf i) := by
  obtain ⟨-, -, -, -, e0, e1, -⟩ := idx_facts t
  unfold iblk2
  rw [View.read_apply]
  show V c main_v19 _ = V c main_v19 _
  congr 1
  funext a
  apply Fin.ext
  match a with
  | ⟨0, _⟩ => show win2_2.index t (0 : Fin 2) * 5000 + 1 * r.val = (i 0).val; rw [e0, hi0]; omega
  | ⟨1, _⟩ => show win2_2.index t (1 : Fin 2) * 1 + 1 * 0 = 0; rw [e1]

/-! ## What each point writes back -/

/-- Point t writes back, into the first result, block t of the blend of the three arrays. -/
theorem flushed_h_eq (c : Dev nD) (t : Fin cfg2.N) :
    (dat2 (F := Ideal) V c).flushed 3 t
      = ((cfg2.win 3).blk t).view.read (Elt Ideal) (blendH (V c main_v30) (V c main_v3) (V c main_v19)) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg2.win 3).blk t).view.emb (ix2 r q) : SNC.Idx) 0).val = t.val * 5000 + r.val := by
    show win2_3.index t (0 : Fin 2) * 5000 + 1 * r.val = _; rw [e0]; omega
  have h1 : ((((cfg2.win 3).blk t).view.emb (ix2 r q) : SNC.Idx) 1).val = q.val := by
    show win2_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg2.N) :
    (dat2 (F := Ideal) V c).flushed 4 t
      = ((cfg2.win 4).blk t).view.read (Elt Ideal) (blendHS (V c main_v30) (V c main_v3) (V c main_v19)) := by
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg2.win 4).blk t).view.emb (ix2 r q) : SNC.Idx) 0).val = t.val * 5000 + r.val := by
    show win2_4.index t (0 : Fin 2) * 5000 + 1 * r.val = _; rw [e0]; omega
  have h1 : ((((cfg2.win 4).blk t).view.emb (ix2 r q) : SNC.Idx) 1).val = q.val := by
    show win2_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg2.N) (i : SNC.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v31_0).slice (win2_3.rect t)).set ↔ _
  rw [View.set_slice_whole, Rect.mem_set_unit]
  exact Iff.rfl

theorem mem_blk_hs (t : Fin cfg2.N) (i : SNC.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v31_1).slice (win2_4.rect t)).set ↔ _
  rw [View.set_slice_whole, Rect.mem_set_unit]
  exact Iff.rfl

/-- Row n of the first result lies in the block of point n / 5000, which writes back. -/
theorem cover_h (i : SNC.Idx) : ∃ t : Fin cfg2.N, (cfg2.win 3).flush t = true ∧ i ∈ ((cfg2.win 3).blk t).view.set := by
  have hN : cfg2.N = 20 := N_2
  have hi0 : (i 0).val < 100000 := idx2_lt0 i
  have hi1 : (i 1).val < 128 := idx2_lt1 i
  refine ⟨⟨(i 0).val / 5000, by rw [hN]; omega⟩, flush2_3 _, ?_⟩
  rw [mem_blk_h]
  obtain ⟨-, -, -, -, -, -, e0, e1, -⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e1]; omega

theorem cover_hs (i : SNC.Idx) : ∃ t : Fin cfg2.N, (cfg2.win 4).flush t = true ∧ i ∈ ((cfg2.win 4).blk t).view.set := by
  have hN : cfg2.N = 20 := N_2
  have hi0 : (i 0).val < 100000 := idx2_lt0 i
  have hi1 : (i 1).val < 128 := idx2_lt1 i
  refine ⟨⟨(i 0).val / 5000, by rw [hN]; omega⟩, flush2_4 _, ?_⟩
  rw [mem_blk_hs]
  obtain ⟨-, -, -, -, -, -, -, -, e0, e1⟩ := idx_facts ⟨(i 0).val / 5000, by rw [hN]; omega⟩
  intro a
  match a with
  | ⟨0, _⟩ => show win2_4.index _ (0 : Fin 2) * 5000 ≤ (i 0).val ∧ (i 0).val < win2_4.index _ (0 : Fin 2) * 5000 + 5000; rw [e0]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e1]; omega

/-! ## The two result arrays after the step -/

/-- The first result array after the step is the blend of the aggregate, the projection and the weight column. -/
theorem final_h (c : Dev nD) :
    (dat2 (F := Ideal) V c).arrAt 3 cfg2.N = Cert.Appnp.blendH (V c main_v30) (V c main_v3) (V c main_v19) :=
  (dat2 (F := Ideal) V c).arrAt_eq_of_cover 3 (blendH (V c main_v30) (V c main_v3) (V c main_v19))
    (fun t _ => flushed_h_eq V c t) cover_h

/-- The second result array after the step is the blend multiplied once more by the weight column. -/
theorem final_hs (c : Dev nD) :
    (dat2 (F := Ideal) V c).arrAt 4 cfg2.N = Cert.Appnp.blendHS (V c main_v30) (V c main_v3) (V c main_v19) :=
  (dat2 (F := Ideal) V c).arrAt_eq_of_cover 4 (blendHS (V c main_v30) (V c main_v3) (V c main_v19))
    (fun t _ => flushed_hs_eq V c t) cover_hs

end Cert.KernelIdeal.Blend2

end
-- ==== Proof.Blend3.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend3

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k3_pay1 d (ix2 r q) = d (ix2 r (0 : Fin 1)) := by
  unfold k3_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k3_pay2 d g h0 (ix2 r q) = (Cert.Appnp.c9 * d (ix2 r (0 : Fin 1))) * g (ix2 r q) + Cert.Appnp.c1 * h0 (ix2 r q) := by
  unfold k3_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k3_pay3 d g h0 (ix2 r q) = d (ix2 r (0 : Fin 1)) * ((Cert.Appnp.c9 * d (ix2 r (0 : Fin 1))) * g (ix2 r q) + Cert.Appnp.c1 * h0 (ix2 r q)) := by
  unfold k3_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k3_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k3_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row r, lane q of the aggregate's block at point t is the array at row 5000 t + r, lane q. -/
theorem iblk_agg (c : Dev nD) (t : Fin cfg3.N) (r : Fin 5000) (q : Fin 128) (i : SNC.Idx)
    (hi0 : (i 0).val = t.val * 5000 + r.val) (hi1 : (i 1).val = q.val) :
    (iblk3 V c 0 t : Vec Ideal S5000x128 .f32) (ix2 r q) = (V c main_v41 : SNC.Idx → EReal) i := by
  obtain ⟨e0, e1, -⟩ := idx_facts t
  unfold iblk3
  rw [View.read_apply]
  show V c main_v41 _ = V c main_v41 _
  congr 1
  funext a
  apply Fin.ext
  match a with
  | ⟨0, _⟩ => show win3_0.index t (0 : Fin 2) * 5000 + 1 * r.val = (i 0).val; rw [e0, hi0]; omega
  | ⟨1, _⟩ => show win3_0.index t (1 : Fin 2) * 128 + 1 * q.val = (i 1).val; rw [e1, hi1]; omega

/-- The same for the projection's block. -/
theorem iblk_h0 (c : Dev nD) (t : Fin cfg3.N) (r : Fin 5000) (q : Fin 128) (i : SNC.Idx)
    (hi0 : (i 0).val = t.val * 5000 + r.val) (hi1 : (i 1).val = q.val) :
    (iblk3 V c 1 t : Vec Ideal S5000x128 .f32) (ix2 r q) = (V c main_v3 : SNC.Idx → EReal) i := by
  obtain ⟨-, -, e0, e1, -⟩ := idx_facts t
  unfold iblk3
  rw [View.read_apply]
  show V c main_v3 _ = V c main_v3 _
  congr 1
  funext a
  apply Fin.ext
  match a with
  | ⟨0, _⟩ => show win3_1.index t (0 : Fin 2) * 5000 + 1 * r.val = (i 0).val; rw [e0, hi0]; omega
  | ⟨1, _⟩ => show win3_1.index t (1 : Fin 2) * 128 + 1 * q.val = (i 1).val; rw [e1, hi1]; omega

/-- Row r of the weight column's block at point t is the column at row 5000 t + r. -/
theorem iblk_w (c : Dev nD) (t : Fin cfg3.N) (r : Fin 5000) (i : SNC.Idx)
    (hi0 : (i 0).val = t.val * 5000 + r.val) :
    (iblk3 V c 2 t : Vec Ideal S5000x1 .f32) (ix2 r (0 : Fin 1)) = (V c main_v19 : SN1.Idx → EReal) (rowOf i) := by
  obtain ⟨-, -, -, -, e0, e1, -⟩ := idx_facts t
  unfold iblk3
  rw [View.read_apply]
  show V c main_v19 _ = V c main_v19 _
  congr 1
  funext a
  apply Fin.ext
  match a with
  | ⟨0, _⟩ => show win3_2.index t (0 : Fin 2) * 5000 + 1 * r.val = (i 0).val; rw [e0, hi0]; omega
  | ⟨1, _⟩ => show win3_2.index t (1 : Fin 2) * 1 + 1 * 0 = 0; rw [e1]

/-! ## What each point writes back -/

/-- Point t writes back, into the first result, block t of the blend of the three arrays. -/
theorem flushed_h_eq (c : Dev nD) (t : Fin cfg3.N) :
    (dat3 (F := Ideal) V c).flushed 3 t
      = ((cfg3.win 3).blk t).view.read (Elt Ideal) (blendH (V c main_v41) (V c main_v3) (V c main_v19)) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg3.win 3).blk t).view.emb (ix2 r q) : SNC.Idx) 0).val = t.val * 5000 + r.val := by
    show win3_3.index t (0 : Fin 2) * 5000 + 1 * r.val = _; rw [e0]; omega
  have h1 : ((((cfg3.win 3).blk t).view.emb (ix2 r q) : SNC.Idx) 1).val = q.val := by
    show win3_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg3.N) :
    (dat3 (F := Ideal) V c).flushed 4 t
      = ((cfg3.win 4).blk t).view.read (Elt Ideal) (blendHS (V c main_v41) (V c main_v3) (V c main_v19)) := by
  show (cfg3.win 4).cut (grid3.coords t) ((dat3 (F := Ideal) V c).after 4 t) = _
  rw [after3_4]
  unfold out3_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg3.win 4).blk t).view.emb (ix2 r q) : SNC.Idx) 0).val = t.val * 5000 + r.val := by
    show win3_4.index t (0 : Fin 2) * 5000 + 1 * r.val = _; rw [e0]; omega
  have h1 : ((((cfg3.win 4).blk t).view.emb (ix2 r q) : SNC.Idx) 1).val = q.val := by
    show win3_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg3.N) (i : SNC.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v42_0).slice (win3_3.rect t)).set ↔ _
  rw [View.set_slice_whole, Rect.mem_set_unit]
  exact Iff.rfl

theorem mem_blk_hs (t : Fin cfg3.N) (i : SNC.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v42_1).slice (win3_4.rect t)).set ↔ _
  rw [View.set_slice_whole, Rect.mem_set_unit]
  exact Iff.rfl

/-- Row n of the first result lies in the block of point n / 5000, which writes back. -/
theorem cover_h (i : SNC.Idx) : ∃ t : Fin cfg3.N, (cfg3.win 3).flush t = true ∧ i ∈ ((cfg3.win 3).blk t).view.set := by
  have hN : cfg3.N = 20 := N_3
  have hi0 : (i 0).val < 100000 := idx2_lt0 i
  have hi1 : (i 1).val < 128 := idx2_lt1 i
  refine ⟨⟨(i 0).val / 5000, by rw [hN]; omega⟩, flush3_3 _, ?_⟩
  rw [mem_blk_h]
  obtain ⟨-, -, -, -, -, -, e0, e1, -⟩ := idx_facts ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e0]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e1]; omega

theorem cover_hs (i : SNC.Idx) : ∃ t : Fin cfg3.N, (cfg3.win 4).flush t = true ∧ i ∈ ((cfg3.win 4).blk t).view.set := by
  have hN : cfg3.N = 20 := N_3
  have hi0 : (i 0).val < 100000 := idx2_lt0 i
  have hi1 : (i 1).val < 128 := idx2_lt1 i
  refine ⟨⟨(i 0).val / 5000, by rw [hN]; omega⟩, flush3_4 _, ?_⟩
  rw [mem_blk_hs]
  obtain ⟨-, -, -, -, -, -, -, -, e0, e1⟩ := idx_facts ⟨(i 0).val / 5000, by rw [hN]; omega⟩
  intro a
  match a with
  | ⟨0, _⟩ => show win3_4.index _ (0 : Fin 2) * 5000 ≤ (i 0).val ∧ (i 0).val < win3_4.index _ (0 : Fin 2) * 5000 + 5000; rw [e0]; show (i 0).val / 5000 * 5000 ≤ (i 0).val ∧ (i 0).val < (i 0).val / 5000 * 5000 + 5000; omega
  | ⟨1, _⟩ => show win3_4.index _ (1 : Fin 2) * 128 ≤ (i 1).val ∧ (i 1).val < win3_4.index _ (1 : Fin 2) * 128 + 128; rw [e1]; omega

/-! ## The two result arrays after the step -/

/-- The first result array after the step is the blend of the aggregate, the projection and the weight column. -/
theorem final_h (c : Dev nD) :
    (dat3 (F := Ideal) V c).arrAt 3 cfg3.N = Cert.Appnp.blendH (V c main_v41) (V c main_v3) (V c main_v19) :=
  (dat3 (F := Ideal) V c).arrAt_eq_of_cover 3 (blendH (V c main_v41) (V c main_v3) (V c main_v19))
    (fun t _ => flushed_h_eq V c t) cover_h

/-- The second result array after the step is the blend multiplied once more by the weight column. -/
theorem final_hs (c : Dev nD) :
    (dat3 (F := Ideal) V c).arrAt 4 cfg3.N = Cert.Appnp.blendHS (V c main_v41) (V c main_v3) (V c main_v19) :=
  (dat3 (F := Ideal) V c).arrAt_eq_of_cover 4 (blendHS (V c main_v41) (V c main_v3) (V c main_v19))
    (fun t _ => flushed_hs_eq V c t) cover_hs

end Cert.KernelIdeal.Blend3

end
-- ==== Proof.Blend4.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend4

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k4_pay1 d (ix2 r q) = d (ix2 r (0 : Fin 1)) := by
  unfold k4_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k4_pay2 d g h0 (ix2 r q) = (Cert.Appnp.c9 * d (ix2 r (0 : Fin 1))) * g (ix2 r q) + Cert.Appnp.c1 * h0 (ix2 r q) := by
  unfold k4_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k4_pay3 d g h0 (ix2 r q) = d (ix2 r (0 : Fin 1)) * ((Cert.Appnp.c9 * d (ix2 r (0 : Fin 1))) * g (ix2 r q) + Cert.Appnp.c1 * h0 (ix2 r q)) := by
  unfold k4_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k4_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k4_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Row r, lane q of the aggregate's block at point t is the array at row 5000 t + r, lane q. -/
theorem iblk_agg (c : Dev nD) (t : Fin cfg4.N) (r : Fin 5000) (q : Fin 128) (i : SNC.Idx)
    (hi0 : (i 0).val = t.val * 5000 + r.val) (hi1 : (i 1).val = q.val) :
    (iblk4 V c 0 t : Vec Ideal S5000x128 .f32) (ix2 r q) = (V c main_v52 : SNC.Idx → EReal) i := by
  obtain ⟨e0, e1, -⟩ := idx_facts t
  unfold iblk4
  rw [View.read_apply]
  show V c main_v52 _ = V c main_v52 _
  congr 1
  funext a
  apply Fin.ext
  match a with
  | ⟨0, _⟩ => show win4_0.index t (0 : Fin 2) * 5000 + 1 * r.val = (i 0).val; rw [e0, hi0]; omega
  | ⟨1, _⟩ => show win4_0.index t (1 : Fin 2) * 128 + 1 * q.val = (i 1).val; rw [e1, hi1]; omega

/-- The same for the projection's block. -/
theorem iblk_h0 (c : Dev nD) (t : Fin cfg4.N) (r : Fin 5000) (q : Fin 128) (i : SNC.Idx)
    (hi0 : (i 0).val = t.val * 5000 + r.val) (hi1 : (i 1).val = q.val) :
    (iblk4 V c 1 t : Vec Ideal S5000x128 .f32) (ix2 r q) = (V c main_v3 : SNC.Idx → EReal) i := by
  obtain ⟨-, -, e0, e1, -⟩ := idx_facts t
  unfold iblk4
  rw [View.read_apply]
  show V c main_v3 _ = V c main_v3 _
  congr 1
  funext a
  apply Fin.ext
  match a with
  | ⟨0, _⟩ => show win4_1.index t (0 : Fin 2) * 5000 + 1 * r.val = (i 0).val; rw [e0, hi0]; omega
  | ⟨1, _⟩ => show win4_1.index t (1 : Fin 2) * 128 + 1 * q.val = (i 1).val; rw [e1, hi1]; omega

/-- Row r of the weight column's block at point t is the column at row 5000 t + r. -/
theorem iblk_w (c : Dev nD) (t : Fin cfg4.N) (r : Fin 5000) (i : SNC.Idx)
    (hi0 : (i 0).val = t.val * 5000 + r.val) :
    (iblk4 V c 2 t : Vec Ideal S5000x1 .f32) (ix2 r (0 : Fin 1)) = (V c main_v19 : SN1.Idx → EReal) (rowOf i) := by
  obtain ⟨-, -, -, -, e0, e1, -⟩ := idx_facts t
  unfold iblk4
  rw [View.read_apply]
  show V c main_v19 _ = V c main_v19 _
  congr 1
  funext a
  apply Fin.ext
  match a with
  | ⟨0, _⟩ => show win4_2.index t (0 : Fin 2) * 5000 + 1 * r.val = (i 0).val; rw [e0, hi0]; omega
  | ⟨1, _⟩ => show win4_2.index t (1 : Fin 2) * 1 + 1 * 0 = 0; rw [e1]

/-! ## What each point writes back -/

/-- Point t writes back, into the first result, block t of the blend of the three arrays. -/
theorem flushed_h_eq (c : Dev nD) (t : Fin cfg4.N) :
    (dat4 (F := Ideal) V c).flushed 3 t
      = ((cfg4.win 3).blk t).view.read (Elt Ideal) (blendH (V c main_v52) (V c main_v3) (V c main_v19)) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg4.win 3).blk t).view.emb (ix2 r q) : SNC.Idx) 0).val = t.val * 5000 + r.val := by
    show win4_3.index t (0 : Fin 2) * 5000 + 1 * r.val = _; rw [e0]; omega
  have h1 : ((((cfg4.win 3).blk t).view.emb (ix2 r q) : SNC.Idx) 1).val = q.val := by
    show win4_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg4.N) :
    (dat4 (F := Ideal) V c).flushed 4 t
      = ((cfg4.win 4).blk t).view.read (Elt Ideal) (blendHS (V c main_v52) (V c main_v3) (V c main_v19)) := by
  show (cfg4.win 4).cut (grid4.coords t) ((dat4 (F := Ideal) V c).after 4 t) = _
  rw [after4_4]
  unfold out4_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg4.win 4).blk t).view.emb (ix2 r q) : SNC.Idx) 0).val = t.val * 5000 + r.val := by
    show win4_4.index t (0 : Fin 2) * 5000 + 1 * r.val = _; rw [e0]; omega
  have h1 : ((((cfg4.win 4).blk t).view.emb (ix2 r q) : SNC.Idx) 1).val = q.val := by
    show win4_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg4.N) (i : SNC.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v53_0).slice (win4_3.rect t)).set ↔ _
  rw [View.set_slice_whole, Rect.mem_set_unit]
  exact Iff.rfl

theorem mem_blk_hs (t : Fin cfg4.N) (i : SNC.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v53_1).slice (win4_4.rect t)).set ↔ _
  rw [View.set_slice_whole, Rect.mem_set_unit]
  exact Iff.rfl

/-- Row n of the first result lies in the block of point n / 5000, which writes back. -/
theorem cover_h (i : SNC.Idx) : ∃ t : Fin cfg4.N, (cfg4.win 3).flush t = true ∧ i ∈ ((cfg4.win 3).blk t).view.set := by
  have hN : cfg4.N = 20 := N_4
  have hi0 : (i 0).val < 100000 := idx2_lt0 i
  have hi1 : (i 1).val < 128 := idx2_lt1 i
  refine ⟨⟨(i 0).val / 5000, by rw [hN]; omega⟩, flush4_3 _, ?_⟩
  rw [mem_blk_h]
  obtain ⟨-, -, -, -, -, -, e0, e1, -⟩ := idx_facts ⟨(i 0).val / 5000, by rw [hN]; omega⟩
  intro a
  match a with
  | ⟨0, _⟩ => show win4_3.index _ (0 : Fin 2) * 5000 ≤ (i 0).val ∧ (i 0).val < win4_3.index _ (0 : Fin 2) * 5000 + 5000; rw [e0]; show (i 0).val / 5000 * 5000 ≤ (i 0).val ∧ (i 0).val < (i 0).val / 5000 * 5000 + 5000; omega
  | ⟨1, _⟩ => show win4_3.index _ (1 : Fin 2) * 128 ≤ (i 1).val ∧ (i 1).val < win4_3.index _ (1 : Fin 2) * 128 + 128; rw [e1]; omega

theorem cover_hs (i : SNC.Idx) : ∃ t : Fin cfg4.N, (cfg4.win 4).flush t = true ∧ i ∈ ((cfg4.win 4).blk t).view.set := by
  have hN : cfg4.N = 20 := N_4
  have hi0 : (i 0).val < 100000 := idx2_lt0 i
  have hi1 : (i 1).val < 128 := idx2_lt1 i
  refine ⟨⟨(i 0).val / 5000, by rw [hN]; omega⟩, flush4_4 _, ?_⟩
  rw [mem_blk_hs]
  obtain ⟨-, -, -, -, -, -, -, -, e0, e1⟩ := idx_facts ⟨(i 0).val / 5000, by rw [hN]; omega⟩
  intro a
  match a with
  | ⟨0, _⟩ => show win4_4.index _ (0 : Fin 2) * 5000 ≤ (i 0).val ∧ (i 0).val < win4_4.index _ (0 : Fin 2) * 5000 + 5000; rw [e0]; show (i 0).val / 5000 * 5000 ≤ (i 0).val ∧ (i 0).val < (i 0).val / 5000 * 5000 + 5000; omega
  | ⟨1, _⟩ => show win4_4.index _ (1 : Fin 2) * 128 ≤ (i 1).val ∧ (i 1).val < win4_4.index _ (1 : Fin 2) * 128 + 128; rw [e1]; omega

/-! ## The two result arrays after the step -/

/-- The first result array after the step is the blend of the aggregate, the projection and the weight column. -/
theorem final_h (c : Dev nD) :
    (dat4 (F := Ideal) V c).arrAt 3 cfg4.N = Cert.Appnp.blendH (V c main_v52) (V c main_v3) (V c main_v19) :=
  (dat4 (F := Ideal) V c).arrAt_eq_of_cover 3 (blendH (V c main_v52) (V c main_v3) (V c main_v19))
    (fun t _ => flushed_h_eq V c t) cover_h

/-- The second result array after the step is the blend multiplied once more by the weight column. -/
theorem final_hs (c : Dev nD) :
    (dat4 (F := Ideal) V c).arrAt 4 cfg4.N = Cert.Appnp.blendHS (V c main_v52) (V c main_v3) (V c main_v19) :=
  (dat4 (F := Ideal) V c).arrAt_eq_of_cover 4 (blendHS (V c main_v52) (V c main_v3) (V c main_v19))
    (fun t _ => flushed_hs_eq V c t) cover_hs

end Cert.KernelIdeal.Blend4

end
-- ==== Proof.Blend5.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend5

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k5_pay1 d (ix2 r q) = d (ix2 r (0 : Fin 1)) := by
  unfold k5_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k5_pay2 d g h0 (ix2 r q) = (Cert.Appnp.c9 * d (ix2 r (0 : Fin 1))) * g (ix2 r q) + Cert.Appnp.c1 * h0 (ix2 r q) := by
  unfold k5_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k5_pay3 d g h0 (ix2 r q) = d (ix2 r (0 : Fin 1)) * ((Cert.Appnp.c9 * d (ix2 r (0 : Fin 1))) * g (ix2 r q) + Cert.Appnp.c1 * h0 (ix2 r q)) := by
  unfold k5_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k5_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k5_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Row r, lane q of the aggregate's block at point t is the array at row 5000 t + r, lane q. -/
theorem iblk_agg (c : Dev nD) (t : Fin cfg5.N) (r : Fin 5000) (q : Fin 128) (i : SNC.Idx)
    (hi0 : (i 0).val = t.val * 5000 + r.val) (hi1 : (i 1).val = q.val) :
    (iblk5 V c 0 t : Vec Ideal S5000x128 .f32) (ix2 r q) = (V c main_v63 : SNC.Idx → EReal) i := by
  obtain ⟨e0, e1, -⟩ := idx_facts t
  unfold iblk5
  rw [View.read_apply]
  show V c main_v63 _ = V c main_v63 _
  congr 1
  funext a
  apply Fin.ext
  match a with
  | ⟨0, _⟩ => show win5_0.index t (0 : Fin 2) * 5000 + 1 * r.val = (i 0).val; rw [e0, hi0]; omega
  | ⟨1, _⟩ => show win5_0.index t (1 : Fin 2) * 128 + 1 * q.val = (i 1).val; rw [e1, hi1]; omega

/-- The same for the projection's block. -/
theorem iblk_h0 (c : Dev nD) (t : Fin cfg5.N) (r : Fin 5000) (q : Fin 128) (i : SNC.Idx)
    (hi0 : (i 0).val = t.val * 5000 + r.val) (hi1 : (i 1).val = q.val) :
    (iblk5 V c 1 t : Vec Ideal S5000x128 .f32) (ix2 r q) = (V c main_v3 : SNC.Idx → EReal) i := by
  obtain ⟨-, -, e0, e1, -⟩ := idx_facts t
  unfold iblk5
  rw [View.read_apply]
  show V c main_v3 _ = V c main_v3 _
  congr 1
  funext a
  apply Fin.ext
  match a with
  | ⟨0, _⟩ => show win5_1.index t (0 : Fin 2) * 5000 + 1 * r.val = (i 0).val; rw [e0, hi0]; omega
  | ⟨1, _⟩ => show win5_1.index t (1 : Fin 2) * 128 + 1 * q.val = (i 1).val; rw [e1, hi1]; omega

/-- Row r of the weight column's block at point t is the column at row 5000 t + r. -/
theorem iblk_w (c : Dev nD) (t : Fin cfg5.N) (r : Fin 5000) (i : SNC.Idx)
    (hi0 : (i 0).val = t.val * 5000 + r.val) :
    (iblk5 V c 2 t : Vec Ideal S5000x1 .f32) (ix2 r (0 : Fin 1)) = (V c main_v19 : SN1.Idx → EReal) (rowOf i) := by
  obtain ⟨-, -, -, -, e0, e1, -⟩ := idx_facts t
  unfold iblk5
  rw [View.read_apply]
  show V c main_v19 _ = V c main_v19 _
  congr 1
  funext a
  apply Fin.ext
  match a with
  | ⟨0, _⟩ => show win5_2.index t (0 : Fin 2) * 5000 + 1 * r.val = (i 0).val; rw [e0, hi0]; omega
  | ⟨1, _⟩ => show win5_2.index t (1 : Fin 2) * 1 + 1 * 0 = 0; rw [e1]

/-! ## What each point writes back -/

/-- Point t writes back, into the first result, block t of the blend of the three arrays. -/
theorem flushed_h_eq (c : Dev nD) (t : Fin cfg5.N) :
    (dat5 (F := Ideal) V c).flushed 3 t
      = ((cfg5.win 3).blk t).view.read (Elt Ideal) (blendH (V c main_v63) (V c main_v3) (V c main_v19)) := by
  show (cfg5.win 3).cut (grid5.coords t) ((dat5 (F := Ideal) V c).after 3 t) = _
  rw [after5_3]
  unfold out5_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg5.win 3).blk t).view.emb (ix2 r q) : SNC.Idx) 0).val = t.val * 5000 + r.val := by
    show win5_3.index t (0 : Fin 2) * 5000 + 1 * r.val = _; rw [e0]; omega
  have h1 : ((((cfg5.win 3).blk t).view.emb (ix2 r q) : SNC.Idx) 1).val = q.val := by
    show win5_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg5.N) :
    (dat5 (F := Ideal) V c).flushed 4 t
      = ((cfg5.win 4).blk t).view.read (Elt Ideal) (blendHS (V c main_v63) (V c main_v3) (V c main_v19)) := by
  show (cfg5.win 4).cut (grid5.coords t) ((dat5 (F := Ideal) V c).after 4 t) = _
  rw [after5_4]
  unfold out5_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg5.win 4).blk t).view.emb (ix2 r q) : SNC.Idx) 0).val = t.val * 5000 + r.val := by
    show win5_4.index t (0 : Fin 2) * 5000 + 1 * r.val = _; rw [e0]; omega
  have h1 : ((((cfg5.win 4).blk t).view.emb (ix2 r q) : SNC.Idx) 1).val = q.val := by
    show win5_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg5.N) (i : SNC.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v64_0).slice (win5_3.rect t)).set ↔ _
  rw [View.set_slice_whole, Rect.mem_set_unit]
  exact Iff.rfl

theorem mem_blk_hs (t : Fin cfg5.N) (i : SNC.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v64_1).slice (win5_4.rect t)).set ↔ _
  rw [View.set_slice_whole, Rect.mem_set_unit]
  exact Iff.rfl

/-- Row n of the first result lies in the block of point n / 5000, which writes back. -/
theorem cover_h (i : SNC.Idx) : ∃ t : Fin cfg5.N, (cfg5.win 3).flush t = true ∧ i ∈ ((cfg5.win 3).blk t).view.set := by
  have hN : cfg5.N = 20 := N_5
  have hi0 : (i 0).val < 100000 := idx2_lt0 i
  have hi1 : (i 1).val < 128 := idx2_lt1 i
  refine ⟨⟨(i 0).val / 5000, by rw [hN]; omega⟩, flush5_3 _, ?_⟩
  rw [mem_blk_h]
  obtain ⟨-, -, -, -, -, -, e0, e1, -⟩ := idx_facts ⟨(i 0).val / 5000, by rw [hN]; omega⟩
  intro a
  match a with
  | ⟨0, _⟩ => show win5_3.index _ (0 : Fin 2) * 5000 ≤ (i 0).val ∧ (i 0).val < win5_3.index _ (0 : Fin 2) * 5000 + 5000; rw [e0]; show (i 0).val / 5000 * 5000 ≤ (i 0).val ∧ (i 0).val < (i 0).val / 5000 * 5000 + 5000; omega
  | ⟨1, _⟩ => show win5_3.index _ (1 : Fin 2) * 128 ≤ (i 1).val ∧ (i 1).val < win5_3.index _ (1 : Fin 2) * 128 + 128; rw [e1]; omega

theorem cover_hs (i : SNC.Idx) : ∃ t : Fin cfg5.N, (cfg5.win 4).flush t = true ∧ i ∈ ((cfg5.win 4).blk t).view.set := by
  have hN : cfg5.N = 20 := N_5
  have hi0 : (i 0).val < 100000 := idx2_lt0 i
  have hi1 : (i 1).val < 128 := idx2_lt1 i
  refine ⟨⟨(i 0).val / 5000, by rw [hN]; omega⟩, flush5_4 _, ?_⟩
  rw [mem_blk_hs]
  obtain ⟨-, -, -, -, -, -, -, -, e0, e1⟩ := idx_facts ⟨(i 0).val / 5000, by rw [hN]; omega⟩
  intro a
  match a with
  | ⟨0, _⟩ => show win5_4.index _ (0 : Fin 2) * 5000 ≤ (i 0).val ∧ (i 0).val < win5_4.index _ (0 : Fin 2) * 5000 + 5000; rw [e0]; show (i 0).val / 5000 * 5000 ≤ (i 0).val ∧ (i 0).val < (i 0).val / 5000 * 5000 + 5000; omega
  | ⟨1, _⟩ => show win5_4.index _ (1 : Fin 2) * 128 ≤ (i 1).val ∧ (i 1).val < win5_4.index _ (1 : Fin 2) * 128 + 128; rw [e1]; omega

/-! ## The two result arrays after the step -/

/-- The first result array after the step is the blend of the aggregate, the projection and the weight column. -/
theorem final_h (c : Dev nD) :
    (dat5 (F := Ideal) V c).arrAt 3 cfg5.N = Cert.Appnp.blendH (V c main_v63) (V c main_v3) (V c main_v19) :=
  (dat5 (F := Ideal) V c).arrAt_eq_of_cover 3 (blendH (V c main_v63) (V c main_v3) (V c main_v19))
    (fun t _ => flushed_h_eq V c t) cover_h

/-- The second result array after the step is the blend multiplied once more by the weight column. -/
theorem final_hs (c : Dev nD) :
    (dat5 (F := Ideal) V c).arrAt 4 cfg5.N = Cert.Appnp.blendHS (V c main_v63) (V c main_v3) (V c main_v19) :=
  (dat5 (F := Ideal) V c).arrAt_eq_of_cover 4 (blendHS (V c main_v63) (V c main_v3) (V c main_v19))
    (fun t _ => flushed_hs_eq V c t) cover_hs

end Cert.KernelIdeal.Blend5

end
-- ==== Proof.Blend6.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend6

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k6_pay1 d (ix2 r q) = d (ix2 r (0 : Fin 1)) := by
  unfold k6_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k6_pay2 d g h0 (ix2 r q) = (Cert.Appnp.c9 * d (ix2 r (0 : Fin 1))) * g (ix2 r q) + Cert.Appnp.c1 * h0 (ix2 r q) := by
  unfold k6_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k6_pay3 d g h0 (ix2 r q) = d (ix2 r (0 : Fin 1)) * ((Cert.Appnp.c9 * d (ix2 r (0 : Fin 1))) * g (ix2 r q) + Cert.Appnp.c1 * h0 (ix2 r q)) := by
  unfold k6_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k6_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k6_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Row r, lane q of the aggregate's block at point t is the array at row 5000 t + r, lane q. -/
theorem iblk_agg (c : Dev nD) (t : Fin cfg6.N) (r : Fin 5000) (q : Fin 128) (i : SNC.Idx)
    (hi0 : (i 0).val = t.val * 5000 + r.val) (hi1 : (i 1).val = q.val) :
    (iblk6 V c 0 t : Vec Ideal S5000x128 .f32) (ix2 r q) = (V c main_v74 : SNC.Idx → EReal) i := by
  obtain ⟨e0, e1, -⟩ := idx_facts t
  unfold iblk6
  rw [View.read_apply]
  show V c main_v74 _ = V c main_v74 _
  congr 1
  funext a
  apply Fin.ext
  match a with
  | ⟨0, _⟩ => show win6_0.index t (0 : Fin 2) * 5000 + 1 * r.val = (i 0).val; rw [e0, hi0]; omega
  | ⟨1, _⟩ => show win6_0.index t (1 : Fin 2) * 128 + 1 * q.val = (i 1).val; rw [e1, hi1]; omega

/-- The same for the projection's block. -/
theorem iblk_h0 (c : Dev nD) (t : Fin cfg6.N) (r : Fin 5000) (q : Fin 128) (i : SNC.Idx)
    (hi0 : (i 0).val = t.val * 5000 + r.val) (hi1 : (i 1).val = q.val) :
    (iblk6 V c 1 t : Vec Ideal S5000x128 .f32) (ix2 r q) = (V c main_v3 : SNC.Idx → EReal) i := by
  obtain ⟨-, -, e0, e1, -⟩ := idx_facts t
  unfold iblk6
  rw [View.read_apply]
  show V c main_v3 _ = V c main_v3 _
  congr 1
  funext a
  apply Fin.ext
  match a with
  | ⟨0, _⟩ => show win6_1.index t (0 : Fin 2) * 5000 + 1 * r.val = (i 0).val; rw [e0, hi0]; omega
  | ⟨1, _⟩ => show win6_1.index t (1 : Fin 2) * 128 + 1 * q.val = (i 1).val; rw [e1, hi1]; omega

/-- Row r of the weight column's block at point t is the column at row 5000 t + r. -/
theorem iblk_w (c : Dev nD) (t : Fin cfg6.N) (r : Fin 5000) (i : SNC.Idx)
    (hi0 : (i 0).val = t.val * 5000 + r.val) :
    (iblk6 V c 2 t : Vec Ideal S5000x1 .f32) (ix2 r (0 : Fin 1)) = (V c main_v19 : SN1.Idx → EReal) (rowOf i) := by
  obtain ⟨-, -, -, -, e0, e1, -⟩ := idx_facts t
  unfold iblk6
  rw [View.read_apply]
  show V c main_v19 _ = V c main_v19 _
  congr 1
  funext a
  apply Fin.ext
  match a with
  | ⟨0, _⟩ => show win6_2.index t (0 : Fin 2) * 5000 + 1 * r.val = (i 0).val; rw [e0, hi0]; omega
  | ⟨1, _⟩ => show win6_2.index t (1 : Fin 2) * 1 + 1 * 0 = 0; rw [e1]

/-! ## What each point writes back -/

/-- Point t writes back, into the first result, block t of the blend of the three arrays. -/
theorem flushed_h_eq (c : Dev nD) (t : Fin cfg6.N) :
    (dat6 (F := Ideal) V c).flushed 3 t
      = ((cfg6.win 3).blk t).view.read (Elt Ideal) (blendH (V c main_v74) (V c main_v3) (V c main_v19)) := by
  show (cfg6.win 3).cut (grid6.coords t) ((dat6 (F := Ideal) V c).after 3 t) = _
  rw [after6_3]
  unfold out6_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg6.win 3).blk t).view.emb (ix2 r q) : SNC.Idx) 0).val = t.val * 5000 + r.val := by
    show win6_3.index t (0 : Fin 2) * 5000 + 1 * r.val = _; rw [e0]; omega
  have h1 : ((((cfg6.win 3).blk t).view.emb (ix2 r q) : SNC.Idx) 1).val = q.val := by
    show win6_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg6.N) :
    (dat6 (F := Ideal) V c).flushed 4 t
      = ((cfg6.win 4).blk t).view.read (Elt Ideal) (blendHS (V c main_v74) (V c main_v3) (V c main_v19)) := by
  show (cfg6.win 4).cut (grid6.coords t) ((dat6 (F := Ideal) V c).after 4 t) = _
  rw [after6_4]
  unfold out6_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg6.win 4).blk t).view.emb (ix2 r q) : SNC.Idx) 0).val = t.val * 5000 + r.val := by
    show win6_4.index t (0 : Fin 2) * 5000 + 1 * r.val = _; rw [e0]; omega
  have h1 : ((((cfg6.win 4).blk t).view.emb (ix2 r q) : SNC.Idx) 1).val = q.val := by
    show win6_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg6.N) (i : SNC.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v75_0).slice (win6_3.rect t)).set ↔ _
  rw [View.set_slice_whole, Rect.mem_set_unit]
  exact Iff.rfl

theorem mem_blk_hs (t : Fin cfg6.N) (i : SNC.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v75_1).slice (win6_4.rect t)).set ↔ _
  rw [View.set_slice_whole, Rect.mem_set_unit]
  exact Iff.rfl

/-- Row n of the first result lies in the block of point n / 5000, which writes back. -/
theorem cover_h (i : SNC.Idx) : ∃ t : Fin cfg6.N, (cfg6.win 3).flush t = true ∧ i ∈ ((cfg6.win 3).blk t).view.set := by
  have hN : cfg6.N = 20 := N_6
  have hi0 : (i 0).val < 100000 := idx2_lt0 i
  have hi1 : (i 1).val < 128 := idx2_lt1 i
  refine ⟨⟨(i 0).val / 5000, by rw [hN]; omega⟩, flush6_3 _, ?_⟩
  rw [mem_blk_h]
  obtain ⟨-, -, -, -, -, -, e0, e1, -⟩ := idx_facts ⟨(i 0).val / 5000, by rw [hN]; omega⟩
  intro a
  match a with
  | ⟨0, _⟩ => show win6_3.index _ (0 : Fin 2) * 5000 ≤ (i 0).val ∧ (i 0).val < win6_3.index _ (0 : Fin 2) * 5000 + 5000; rw [e0]; show (i 0).val / 5000 * 5000 ≤ (i 0).val ∧ (i 0).val < (i 0).val / 5000 * 5000 + 5000; omega
  | ⟨1, _⟩ => show win6_3.index _ (1 : Fin 2) * 128 ≤ (i 1).val ∧ (i 1).val < win6_3.index _ (1 : Fin 2) * 128 + 128; rw [e1]; omega

theorem cover_hs (i : SNC.Idx) : ∃ t : Fin cfg6.N, (cfg6.win 4).flush t = true ∧ i ∈ ((cfg6.win 4).blk t).view.set := by
  have hN : cfg6.N = 20 := N_6
  have hi0 : (i 0).val < 100000 := idx2_lt0 i
  have hi1 : (i 1).val < 128 := idx2_lt1 i
  refine ⟨⟨(i 0).val / 5000, by rw [hN]; omega⟩, flush6_4 _, ?_⟩
  rw [mem_blk_hs]
  obtain ⟨-, -, -, -, -, -, -, -, e0, e1⟩ := idx_facts ⟨(i 0).val / 5000, by rw [hN]; omega⟩
  intro a
  match a with
  | ⟨0, _⟩ => show win6_4.index _ (0 : Fin 2) * 5000 ≤ (i 0).val ∧ (i 0).val < win6_4.index _ (0 : Fin 2) * 5000 + 5000; rw [e0]; show (i 0).val / 5000 * 5000 ≤ (i 0).val ∧ (i 0).val < (i 0).val / 5000 * 5000 + 5000; omega
  | ⟨1, _⟩ => show win6_4.index _ (1 : Fin 2) * 128 ≤ (i 1).val ∧ (i 1).val < win6_4.index _ (1 : Fin 2) * 128 + 128; rw [e1]; omega

/-! ## The two result arrays after the step -/

/-- The first result array after the step is the blend of the aggregate, the projection and the weight column. -/
theorem final_h (c : Dev nD) :
    (dat6 (F := Ideal) V c).arrAt 3 cfg6.N = Cert.Appnp.blendH (V c main_v74) (V c main_v3) (V c main_v19) :=
  (dat6 (F := Ideal) V c).arrAt_eq_of_cover 3 (blendH (V c main_v74) (V c main_v3) (V c main_v19))
    (fun t _ => flushed_h_eq V c t) cover_h

/-- The second result array after the step is the blend multiplied once more by the weight column. -/
theorem final_hs (c : Dev nD) :
    (dat6 (F := Ideal) V c).arrAt 4 cfg6.N = Cert.Appnp.blendHS (V c main_v74) (V c main_v3) (V c main_v19) :=
  (dat6 (F := Ideal) V c).arrAt_eq_of_cover 4 (blendHS (V c main_v74) (V c main_v3) (V c main_v19))
    (fun t _ => flushed_hs_eq V c t) cover_hs

end Cert.KernelIdeal.Blend6

end
-- ==== Proof.Blend7.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend7

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k7_pay1 d (ix2 r q) = d (ix2 r (0 : Fin 1)) := by
  unfold k7_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k7_pay2 d g h0 (ix2 r q) = (Cert.Appnp.c9 * d (ix2 r (0 : Fin 1))) * g (ix2 r q) + Cert.Appnp.c1 * h0 (ix2 r q) := by
  unfold k7_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k7_pay3 d g h0 (ix2 r q) = d (ix2 r (0 : Fin 1)) * ((Cert.Appnp.c9 * d (ix2 r (0 : Fin 1))) * g (ix2 r q) + Cert.Appnp.c1 * h0 (ix2 r q)) := by
  unfold k7_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k7_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k7_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Row r, lane q of the aggregate's block at point t is the array at row 5000 t + r, lane q. -/
theorem iblk_agg (c : Dev nD) (t : Fin cfg7.N) (r : Fin 5000) (q : Fin 128) (i : SNC.Idx)
    (hi0 : (i 0).val = t.val * 5000 + r.val) (hi1 : (i 1).val = q.val) :
    (iblk7 V c 0 t : Vec Ideal S5000x128 .f32) (ix2 r q) = (V c main_v85 : SNC.Idx → EReal) i := by
  obtain ⟨e0, e1, -⟩ := idx_facts t
  unfold iblk7
  rw [View.read_apply]
  show V c main_v85 _ = V c main_v85 _
  congr 1
  funext a
  apply Fin.ext
  match a with
  | ⟨0, _⟩ => show win7_0.index t (0 : Fin 2) * 5000 + 1 * r.val = (i 0).val; rw [e0, hi0]; omega
  | ⟨1, _⟩ => show win7_0.index t (1 : Fin 2) * 128 + 1 * q.val = (i 1).val; rw [e1, hi1]; omega

/-- The same for the projection's block. -/
theorem iblk_h0 (c : Dev nD) (t : Fin cfg7.N) (r : Fin 5000) (q : Fin 128) (i : SNC.Idx)
    (hi0 : (i 0).val = t.val * 5000 + r.val) (hi1 : (i 1).val = q.val) :
    (iblk7 V c 1 t : Vec Ideal S5000x128 .f32) (ix2 r q) = (V c main_v3 : SNC.Idx → EReal) i := by
  obtain ⟨-, -, e0, e1, -⟩ := idx_facts t
  unfold iblk7
  rw [View.read_apply]
  show V c main_v3 _ = V c main_v3 _
  congr 1
  funext a
  apply Fin.ext
  match a with
  | ⟨0, _⟩ => show win7_1.index t (0 : Fin 2) * 5000 + 1 * r.val = (i 0).val; rw [e0, hi0]; omega
  | ⟨1, _⟩ => show win7_1.index t (1 : Fin 2) * 128 + 1 * q.val = (i 1).val; rw [e1, hi1]; omega

/-- Row r of the weight column's block at point t is the column at row 5000 t + r. -/
theorem iblk_w (c : Dev nD) (t : Fin cfg7.N) (r : Fin 5000) (i : SNC.Idx)
    (hi0 : (i 0).val = t.val * 5000 + r.val) :
    (iblk7 V c 2 t : Vec Ideal S5000x1 .f32) (ix2 r (0 : Fin 1)) = (V c main_v19 : SN1.Idx → EReal) (rowOf i) := by
  obtain ⟨-, -, -, -, e0, e1, -⟩ := idx_facts t
  unfold iblk7
  rw [View.read_apply]
  show V c main_v19 _ = V c main_v19 _
  congr 1
  funext a
  apply Fin.ext
  match a with
  | ⟨0, _⟩ => show win7_2.index t (0 : Fin 2) * 5000 + 1 * r.val = (i 0).val; rw [e0, hi0]; omega
  | ⟨1, _⟩ => show win7_2.index t (1 : Fin 2) * 1 + 1 * 0 = 0; rw [e1]

/-! ## What each point writes back -/

/-- Point t writes back, into the first result, block t of the blend of the three arrays. -/
theorem flushed_h_eq (c : Dev nD) (t : Fin cfg7.N) :
    (dat7 (F := Ideal) V c).flushed 3 t
      = ((cfg7.win 3).blk t).view.read (Elt Ideal) (blendH (V c main_v85) (V c main_v3) (V c main_v19)) := by
  show (cfg7.win 3).cut (grid7.coords t) ((dat7 (F := Ideal) V c).after 3 t) = _
  rw [after7_3]
  unfold out7_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg7.win 3).blk t).view.emb (ix2 r q) : SNC.Idx) 0).val = t.val * 5000 + r.val := by
    show win7_3.index t (0 : Fin 2) * 5000 + 1 * r.val = _; rw [e0]; omega
  have h1 : ((((cfg7.win 3).blk t).view.emb (ix2 r q) : SNC.Idx) 1).val = q.val := by
    show win7_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg7.N) :
    (dat7 (F := Ideal) V c).flushed 4 t
      = ((cfg7.win 4).blk t).view.read (Elt Ideal) (blendHS (V c main_v85) (V c main_v3) (V c main_v19)) := by
  show (cfg7.win 4).cut (grid7.coords t) ((dat7 (F := Ideal) V c).after 4 t) = _
  rw [after7_4]
  unfold out7_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg7.win 4).blk t).view.emb (ix2 r q) : SNC.Idx) 0).val = t.val * 5000 + r.val := by
    show win7_4.index t (0 : Fin 2) * 5000 + 1 * r.val = _; rw [e0]; omega
  have h1 : ((((cfg7.win 4).blk t).view.emb (ix2 r q) : SNC.Idx) 1).val = q.val := by
    show win7_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg7.N) (i : SNC.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v86_0).slice (win7_3.rect t)).set ↔ _
  rw [View.set_slice_whole, Rect.mem_set_unit]
  exact Iff.rfl

theorem mem_blk_hs (t : Fin cfg7.N) (i : SNC.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v86_1).slice (win7_4.rect t)).set ↔ _
  rw [View.set_slice_whole, Rect.mem_set_unit]
  exact Iff.rfl

/-- Row n of the first result lies in the block of point n / 5000, which writes back. -/
theorem cover_h (i : SNC.Idx) : ∃ t : Fin cfg7.N, (cfg7.win 3).flush t = true ∧ i ∈ ((cfg7.win 3).blk t).view.set := by
  have hN : cfg7.N = 20 := N_7
  have hi0 : (i 0).val < 100000 := idx2_lt0 i
  have hi1 : (i 1).val < 128 := idx2_lt1 i
  refine ⟨⟨(i 0).val / 5000, by rw [hN]; omega⟩, flush7_3 _, ?_⟩
  rw [mem_blk_h]
  obtain ⟨-, -, -, -, -, -, e0, e1, -⟩ := idx_facts ⟨(i 0).val / 5000, by rw [hN]; omega⟩
  intro a
  match a with
  | ⟨0, _⟩ => show win7_3.index _ (0 : Fin 2) * 5000 ≤ (i 0).val ∧ (i 0).val < win7_3.index _ (0 : Fin 2) * 5000 + 5000; rw [e0]; show (i 0).val / 5000 * 5000 ≤ (i 0).val ∧ (i 0).val < (i 0).val / 5000 * 5000 + 5000; omega
  | ⟨1, _⟩ => show win7_3.index _ (1 : Fin 2) * 128 ≤ (i 1).val ∧ (i 1).val < win7_3.index _ (1 : Fin 2) * 128 + 128; rw [e1]; omega

theorem cover_hs (i : SNC.Idx) : ∃ t : Fin cfg7.N, (cfg7.win 4).flush t = true ∧ i ∈ ((cfg7.win 4).blk t).view.set := by
  have hN : cfg7.N = 20 := N_7
  have hi0 : (i 0).val < 100000 := idx2_lt0 i
  have hi1 : (i 1).val < 128 := idx2_lt1 i
  refine ⟨⟨(i 0).val / 5000, by rw [hN]; omega⟩, flush7_4 _, ?_⟩
  rw [mem_blk_hs]
  obtain ⟨-, -, -, -, -, -, -, -, e0, e1⟩ := idx_facts ⟨(i 0).val / 5000, by rw [hN]; omega⟩
  intro a
  match a with
  | ⟨0, _⟩ => show win7_4.index _ (0 : Fin 2) * 5000 ≤ (i 0).val ∧ (i 0).val < win7_4.index _ (0 : Fin 2) * 5000 + 5000; rw [e0]; show (i 0).val / 5000 * 5000 ≤ (i 0).val ∧ (i 0).val < (i 0).val / 5000 * 5000 + 5000; omega
  | ⟨1, _⟩ => show win7_4.index _ (1 : Fin 2) * 128 ≤ (i 1).val ∧ (i 1).val < win7_4.index _ (1 : Fin 2) * 128 + 128; rw [e1]; omega

/-! ## The two result arrays after the step -/

/-- The first result array after the step is the blend of the aggregate, the projection and the weight column. -/
theorem final_h (c : Dev nD) :
    (dat7 (F := Ideal) V c).arrAt 3 cfg7.N = Cert.Appnp.blendH (V c main_v85) (V c main_v3) (V c main_v19) :=
  (dat7 (F := Ideal) V c).arrAt_eq_of_cover 3 (blendH (V c main_v85) (V c main_v3) (V c main_v19))
    (fun t _ => flushed_h_eq V c t) cover_h

/-- The second result array after the step is the blend multiplied once more by the weight column. -/
theorem final_hs (c : Dev nD) :
    (dat7 (F := Ideal) V c).arrAt 4 cfg7.N = Cert.Appnp.blendHS (V c main_v85) (V c main_v3) (V c main_v19) :=
  (dat7 (F := Ideal) V c).arrAt_eq_of_cover 4 (blendHS (V c main_v85) (V c main_v3) (V c main_v19))
    (fun t _ => flushed_hs_eq V c t) cover_hs

end Cert.KernelIdeal.Blend7

end
-- ==== Proof.Blend8.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend8

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k8_pay1 d (ix2 r q) = d (ix2 r (0 : Fin 1)) := by
  unfold k8_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k8_pay2 d g h0 (ix2 r q) = (Cert.Appnp.c9 * d (ix2 r (0 : Fin 1))) * g (ix2 r q) + Cert.Appnp.c1 * h0 (ix2 r q) := by
  unfold k8_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k8_pay3 d g h0 (ix2 r q) = d (ix2 r (0 : Fin 1)) * ((Cert.Appnp.c9 * d (ix2 r (0 : Fin 1))) * g (ix2 r q) + Cert.Appnp.c1 * h0 (ix2 r q)) := by
  unfold k8_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k8_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k8_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- Row r, lane q of the aggregate's block at point t is the array at row 5000 t + r, lane q. -/
theorem iblk_agg (c : Dev nD) (t : Fin cfg8.N) (r : Fin 5000) (q : Fin 128) (i : SNC.Idx)
    (hi0 : (i 0).val = t.val * 5000 + r.val) (hi1 : (i 1).val = q.val) :
    (iblk8 V c 0 t : Vec Ideal S5000x128 .f32) (ix2 r q) = (V c main_v96 : SNC.Idx → EReal) i := by
  obtain ⟨e0, e1, -⟩ := idx_facts t
  unfold iblk8
  rw [View.read_apply]
  show V c main_v96 _ = V c main_v96 _
  congr 1
  funext a
  apply Fin.ext
  match a with
  | ⟨0, _⟩ => show win8_0.index t (0 : Fin 2) * 5000 + 1 * r.val = (i 0).val; rw [e0, hi0]; omega
  | ⟨1, _⟩ => show win8_0.index t (1 : Fin 2) * 128 + 1 * q.val = (i 1).val; rw [e1, hi1]; omega

/-- The same for the projection's block. -/
theorem iblk_h0 (c : Dev nD) (t : Fin cfg8.N) (r : Fin 5000) (q : Fin 128) (i : SNC.Idx)
    (hi0 : (i 0).val = t.val * 5000 + r.val) (hi1 : (i 1).val = q.val) :
    (iblk8 V c 1 t : Vec Ideal S5000x128 .f32) (ix2 r q) = (V c main_v3 : SNC.Idx → EReal) i := by
  obtain ⟨-, -, e0, e1, -⟩ := idx_facts t
  unfold iblk8
  rw [View.read_apply]
  show V c main_v3 _ = V c main_v3 _
  congr 1
  funext a
  apply Fin.ext
  match a with
  | ⟨0, _⟩ => show win8_1.index t (0 : Fin 2) * 5000 + 1 * r.val = (i 0).val; rw [e0, hi0]; omega
  | ⟨1, _⟩ => show win8_1.index t (1 : Fin 2) * 128 + 1 * q.val = (i 1).val; rw [e1, hi1]; omega

/-- Row r of the weight column's block at point t is the column at row 5000 t + r. -/
theorem iblk_w (c : Dev nD) (t : Fin cfg8.N) (r : Fin 5000) (i : SNC.Idx)
    (hi0 : (i 0).val = t.val * 5000 + r.val) :
    (iblk8 V c 2 t : Vec Ideal S5000x1 .f32) (ix2 r (0 : Fin 1)) = (V c main_v19 : SN1.Idx → EReal) (rowOf i) := by
  obtain ⟨-, -, -, -, e0, e1, -⟩ := idx_facts t
  unfold iblk8
  rw [View.read_apply]
  show V c main_v19 _ = V c main_v19 _
  congr 1
  funext a
  apply Fin.ext
  match a with
  | ⟨0, _⟩ => show win8_2.index t (0 : Fin 2) * 5000 + 1 * r.val = (i 0).val; rw [e0, hi0]; omega
  | ⟨1, _⟩ => show win8_2.index t (1 : Fin 2) * 1 + 1 * 0 = 0; rw [e1]

/-! ## What each point writes back -/

/-- Point t writes back, into the first result, block t of the blend of the three arrays. -/
theorem flushed_h_eq (c : Dev nD) (t : Fin cfg8.N) :
    (dat8 (F := Ideal) V c).flushed 3 t
      = ((cfg8.win 3).blk t).view.read (Elt Ideal) (blendH (V c main_v96) (V c main_v3) (V c main_v19)) := by
  show (cfg8.win 3).cut (grid8.coords t) ((dat8 (F := Ideal) V c).after 3 t) = _
  rw [after8_3]
  unfold out8_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg8.win 3).blk t).view.emb (ix2 r q) : SNC.Idx) 0).val = t.val * 5000 + r.val := by
    show win8_3.index t (0 : Fin 2) * 5000 + 1 * r.val = _; rw [e0]; omega
  have h1 : ((((cfg8.win 3).blk t).view.emb (ix2 r q) : SNC.Idx) 1).val = q.val := by
    show win8_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg8.N) :
    (dat8 (F := Ideal) V c).flushed 4 t
      = ((cfg8.win 4).blk t).view.read (Elt Ideal) (blendHS (V c main_v96) (V c main_v3) (V c main_v19)) := by
  show (cfg8.win 4).cut (grid8.coords t) ((dat8 (F := Ideal) V c).after 4 t) = _
  rw [after8_4]
  unfold out8_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg8.win 4).blk t).view.emb (ix2 r q) : SNC.Idx) 0).val = t.val * 5000 + r.val := by
    show win8_4.index t (0 : Fin 2) * 5000 + 1 * r.val = _; rw [e0]; omega
  have h1 : ((((cfg8.win 4).blk t).view.emb (ix2 r q) : SNC.Idx) 1).val = q.val := by
    show win8_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg8.N) (i : SNC.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v97_0).slice (win8_3.rect t)).set ↔ _
  rw [View.set_slice_whole, Rect.mem_set_unit]
  exact Iff.rfl

theorem mem_blk_hs (t : Fin cfg8.N) (i : SNC.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v97_1).slice (win8_4.rect t)).set ↔ _
  rw [View.set_slice_whole, Rect.mem_set_unit]
  exact Iff.rfl

/-- Row n of the first result lies in the block of point n / 5000, which writes back. -/
theorem cover_h (i : SNC.Idx) : ∃ t : Fin cfg8.N, (cfg8.win 3).flush t = true ∧ i ∈ ((cfg8.win 3).blk t).view.set := by
  have hN : cfg8.N = 20 := N_8
  have hi0 : (i 0).val < 100000 := idx2_lt0 i
  have hi1 : (i 1).val < 128 := idx2_lt1 i
  refine ⟨⟨(i 0).val / 5000, by rw [hN]; omega⟩, flush8_3 _, ?_⟩
  rw [mem_blk_h]
  obtain ⟨-, -, -, -, -, -, e0, e1, -⟩ := idx_facts ⟨(i 0).val / 5000, by rw [hN]; omega⟩
  intro a
  match a with
  | ⟨0, _⟩ => show win8_3.index _ (0 : Fin 2) * 5000 ≤ (i 0).val ∧ (i 0).val < win8_3.index _ (0 : Fin 2) * 5000 + 5000; rw [e0]; show (i 0).val / 5000 * 5000 ≤ (i 0).val ∧ (i 0).val < (i 0).val / 5000 * 5000 + 5000; omega
  | ⟨1, _⟩ => show win8_3.index _ (1 : Fin 2) * 128 ≤ (i 1).val ∧ (i 1).val < win8_3.index _ (1 : Fin 2) * 128 + 128; rw [e1]; omega

theorem cover_hs (i : SNC.Idx) : ∃ t : Fin cfg8.N, (cfg8.win 4).flush t = true ∧ i ∈ ((cfg8.win 4).blk t).view.set := by
  have hN : cfg8.N = 20 := N_8
  have hi0 : (i 0).val < 100000 := idx2_lt0 i
  have hi1 : (i 1).val < 128 := idx2_lt1 i
  refine ⟨⟨(i 0).val / 5000, by rw [hN]; omega⟩, flush8_4 _, ?_⟩
  rw [mem_blk_hs]
  obtain ⟨-, -, -, -, -, -, -, -, e0, e1⟩ := idx_facts ⟨(i 0).val / 5000, by rw [hN]; omega⟩
  intro a
  match a with
  | ⟨0, _⟩ => show win8_4.index _ (0 : Fin 2) * 5000 ≤ (i 0).val ∧ (i 0).val < win8_4.index _ (0 : Fin 2) * 5000 + 5000; rw [e0]; show (i 0).val / 5000 * 5000 ≤ (i 0).val ∧ (i 0).val < (i 0).val / 5000 * 5000 + 5000; omega
  | ⟨1, _⟩ => show win8_4.index _ (1 : Fin 2) * 128 ≤ (i 1).val ∧ (i 1).val < win8_4.index _ (1 : Fin 2) * 128 + 128; rw [e1]; omega

/-! ## The two result arrays after the step -/

/-- The first result array after the step is the blend of the aggregate, the projection and the weight column. -/
theorem final_h (c : Dev nD) :
    (dat8 (F := Ideal) V c).arrAt 3 cfg8.N = Cert.Appnp.blendH (V c main_v96) (V c main_v3) (V c main_v19) :=
  (dat8 (F := Ideal) V c).arrAt_eq_of_cover 3 (blendH (V c main_v96) (V c main_v3) (V c main_v19))
    (fun t _ => flushed_h_eq V c t) cover_h

/-- The second result array after the step is the blend multiplied once more by the weight column. -/
theorem final_hs (c : Dev nD) :
    (dat8 (F := Ideal) V c).arrAt 4 cfg8.N = Cert.Appnp.blendHS (V c main_v96) (V c main_v3) (V c main_v19) :=
  (dat8 (F := Ideal) V c).arrAt_eq_of_cover 4 (blendHS (V c main_v96) (V c main_v3) (V c main_v19))
    (fun t _ => flushed_hs_eq V c t) cover_hs

end Cert.KernelIdeal.Blend8

end
-- ==== Proof.Blend9.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend9

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k9_pay1 d (ix2 r q) = d (ix2 r (0 : Fin 1)) := by
  unfold k9_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k9_pay2 d g h0 (ix2 r q) = (Cert.Appnp.c9 * d (ix2 r (0 : Fin 1))) * g (ix2 r q) + Cert.Appnp.c1 * h0 (ix2 r q) := by
  unfold k9_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k9_pay3 d g h0 (ix2 r q) = d (ix2 r (0 : Fin 1)) * ((Cert.Appnp.c9 * d (ix2 r (0 : Fin 1))) * g (ix2 r q) + Cert.Appnp.c1 * h0 (ix2 r q)) := by
  unfold k9_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k9_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k9_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- Row r, lane q of the aggregate's block at point t is the array at row 5000 t + r, lane q. -/
theorem iblk_agg (c : Dev nD) (t : Fin cfg9.N) (r : Fin 5000) (q : Fin 128) (i : SNC.Idx)
    (hi0 : (i 0).val = t.val * 5000 + r.val) (hi1 : (i 1).val = q.val) :
    (iblk9 V c 0 t : Vec Ideal S5000x128 .f32) (ix2 r q) = (V c main_v107 : SNC.Idx → EReal) i := by
  obtain ⟨e0, e1, -⟩ := idx_facts t
  unfold iblk9
  rw [View.read_apply]
  show V c main_v107 _ = V c main_v107 _
  congr 1
  funext a
  apply Fin.ext
  match a with
  | ⟨0, _⟩ => show win9_0.index t (0 : Fin 2) * 5000 + 1 * r.val = (i 0).val; rw [e0, hi0]; omega
  | ⟨1, _⟩ => show win9_0.index t (1 : Fin 2) * 128 + 1 * q.val = (i 1).val; rw [e1, hi1]; omega

/-- The same for the projection's block. -/
theorem iblk_h0 (c : Dev nD) (t : Fin cfg9.N) (r : Fin 5000) (q : Fin 128) (i : SNC.Idx)
    (hi0 : (i 0).val = t.val * 5000 + r.val) (hi1 : (i 1).val = q.val) :
    (iblk9 V c 1 t : Vec Ideal S5000x128 .f32) (ix2 r q) = (V c main_v3 : SNC.Idx → EReal) i := by
  obtain ⟨-, -, e0, e1, -⟩ := idx_facts t
  unfold iblk9
  rw [View.read_apply]
  show V c main_v3 _ = V c main_v3 _
  congr 1
  funext a
  apply Fin.ext
  match a with
  | ⟨0, _⟩ => show win9_1.index t (0 : Fin 2) * 5000 + 1 * r.val = (i 0).val; rw [e0, hi0]; omega
  | ⟨1, _⟩ => show win9_1.index t (1 : Fin 2) * 128 + 1 * q.val = (i 1).val; rw [e1, hi1]; omega

/-- Row r of the weight column's block at point t is the column at row 5000 t + r. -/
theorem iblk_w (c : Dev nD) (t : Fin cfg9.N) (r : Fin 5000) (i : SNC.Idx)
    (hi0 : (i 0).val = t.val * 5000 + r.val) :
    (iblk9 V c 2 t : Vec Ideal S5000x1 .f32) (ix2 r (0 : Fin 1)) = (V c main_v19 : SN1.Idx → EReal) (rowOf i) := by
  obtain ⟨-, -, -, -, e0, e1, -⟩ := idx_facts t
  unfold iblk9
  rw [View.read_apply]
  show V c main_v19 _ = V c main_v19 _
  congr 1
  funext a
  apply Fin.ext
  match a with
  | ⟨0, _⟩ => show win9_2.index t (0 : Fin 2) * 5000 + 1 * r.val = (i 0).val; rw [e0, hi0]; omega
  | ⟨1, _⟩ => show win9_2.index t (1 : Fin 2) * 1 + 1 * 0 = 0; rw [e1]

/-! ## What each point writes back -/

/-- Point t writes back, into the first result, block t of the blend of the three arrays. -/
theorem flushed_h_eq (c : Dev nD) (t : Fin cfg9.N) :
    (dat9 (F := Ideal) V c).flushed 3 t
      = ((cfg9.win 3).blk t).view.read (Elt Ideal) (blendH (V c main_v107) (V c main_v3) (V c main_v19)) := by
  show (cfg9.win 3).cut (grid9.coords t) ((dat9 (F := Ideal) V c).after 3 t) = _
  rw [after9_3]
  unfold out9_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg9.win 3).blk t).view.emb (ix2 r q) : SNC.Idx) 0).val = t.val * 5000 + r.val := by
    show win9_3.index t (0 : Fin 2) * 5000 + 1 * r.val = _; rw [e0]; omega
  have h1 : ((((cfg9.win 3).blk t).view.emb (ix2 r q) : SNC.Idx) 1).val = q.val := by
    show win9_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg9.N) :
    (dat9 (F := Ideal) V c).flushed 4 t
      = ((cfg9.win 4).blk t).view.read (Elt Ideal) (blendHS (V c main_v107) (V c main_v3) (V c main_v19)) := by
  show (cfg9.win 4).cut (grid9.coords t) ((dat9 (F := Ideal) V c).after 4 t) = _
  rw [after9_4]
  unfold out9_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg9.win 4).blk t).view.emb (ix2 r q) : SNC.Idx) 0).val = t.val * 5000 + r.val := by
    show win9_4.index t (0 : Fin 2) * 5000 + 1 * r.val = _; rw [e0]; omega
  have h1 : ((((cfg9.win 4).blk t).view.emb (ix2 r q) : SNC.Idx) 1).val = q.val := by
    show win9_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg9.N) (i : SNC.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v108_0).slice (win9_3.rect t)).set ↔ _
  rw [View.set_slice_whole, Rect.mem_set_unit]
  exact Iff.rfl

theorem mem_blk_hs (t : Fin cfg9.N) (i : SNC.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v108_1).slice (win9_4.rect t)).set ↔ _
  rw [View.set_slice_whole, Rect.mem_set_unit]
  exact Iff.rfl

/-- Row n of the first result lies in the block of point n / 5000, which writes back. -/
theorem cover_h (i : SNC.Idx) : ∃ t : Fin cfg9.N, (cfg9.win 3).flush t = true ∧ i ∈ ((cfg9.win 3).blk t).view.set := by
  have hN : cfg9.N = 20 := N_9
  have hi0 : (i 0).val < 100000 := idx2_lt0 i
  have hi1 : (i 1).val < 128 := idx2_lt1 i
  refine ⟨⟨(i 0).val / 5000, by rw [hN]; omega⟩, flush9_3 _, ?_⟩
  rw [mem_blk_h]
  obtain ⟨-, -, -, -, -, -, e0, e1, -⟩ := idx_facts ⟨(i 0).val / 5000, by rw [hN]; omega⟩
  intro a
  match a with
  | ⟨0, _⟩ => show win9_3.index _ (0 : Fin 2) * 5000 ≤ (i 0).val ∧ (i 0).val < win9_3.index _ (0 : Fin 2) * 5000 + 5000; rw [e0]; show (i 0).val / 5000 * 5000 ≤ (i 0).val ∧ (i 0).val < (i 0).val / 5000 * 5000 + 5000; omega
  | ⟨1, _⟩ => show win9_3.index _ (1 : Fin 2) * 128 ≤ (i 1).val ∧ (i 1).val < win9_3.index _ (1 : Fin 2) * 128 + 128; rw [e1]; omega

theorem cover_hs (i : SNC.Idx) : ∃ t : Fin cfg9.N, (cfg9.win 4).flush t = true ∧ i ∈ ((cfg9.win 4).blk t).view.set := by
  have hN : cfg9.N = 20 := N_9
  have hi0 : (i 0).val < 100000 := idx2_lt0 i
  have hi1 : (i 1).val < 128 := idx2_lt1 i
  refine ⟨⟨(i 0).val / 5000, by rw [hN]; omega⟩, flush9_4 _, ?_⟩
  rw [mem_blk_hs]
  obtain ⟨-, -, -, -, -, -, -, -, e0, e1⟩ := idx_facts ⟨(i 0).val / 5000, by rw [hN]; omega⟩
  intro a
  match a with
  | ⟨0, _⟩ => show win9_4.index _ (0 : Fin 2) * 5000 ≤ (i 0).val ∧ (i 0).val < win9_4.index _ (0 : Fin 2) * 5000 + 5000; rw [e0]; show (i 0).val / 5000 * 5000 ≤ (i 0).val ∧ (i 0).val < (i 0).val / 5000 * 5000 + 5000; omega
  | ⟨1, _⟩ => show win9_4.index _ (1 : Fin 2) * 128 ≤ (i 1).val ∧ (i 1).val < win9_4.index _ (1 : Fin 2) * 128 + 128; rw [e1]; omega

/-! ## The two result arrays after the step -/

/-- The first result array after the step is the blend of the aggregate, the projection and the weight column. -/
theorem final_h (c : Dev nD) :
    (dat9 (F := Ideal) V c).arrAt 3 cfg9.N = Cert.Appnp.blendH (V c main_v107) (V c main_v3) (V c main_v19) :=
  (dat9 (F := Ideal) V c).arrAt_eq_of_cover 3 (blendH (V c main_v107) (V c main_v3) (V c main_v19))
    (fun t _ => flushed_h_eq V c t) cover_h

/-- The second result array after the step is the blend multiplied once more by the weight column. -/
theorem final_hs (c : Dev nD) :
    (dat9 (F := Ideal) V c).arrAt 4 cfg9.N = Cert.Appnp.blendHS (V c main_v107) (V c main_v3) (V c main_v19) :=
  (dat9 (F := Ideal) V c).arrAt_eq_of_cover 4 (blendHS (V c main_v107) (V c main_v3) (V c main_v19))
    (fun t _ => flushed_hs_eq V c t) cover_hs

end Cert.KernelIdeal.Blend9

end
-- ==== Proof.Blend10.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend10

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k10_pay1 d (ix2 r q) = d (ix2 r (0 : Fin 1)) := by
  unfold k10_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k10_pay2 d g h0 (ix2 r q) = (Cert.Appnp.c9 * d (ix2 r (0 : Fin 1))) * g (ix2 r q) + Cert.Appnp.c1 * h0 (ix2 r q) := by
  unfold k10_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k10_pay3 d g h0 (ix2 r q) = d (ix2 r (0 : Fin 1)) * ((Cert.Appnp.c9 * d (ix2 r (0 : Fin 1))) * g (ix2 r q) + Cert.Appnp.c1 * h0 (ix2 r q)) := by
  unfold k10_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k10_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k10_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- Row r, lane q of the aggregate's block at point t is the array at row 5000 t + r, lane q. -/
theorem iblk_agg (c : Dev nD) (t : Fin cfg10.N) (r : Fin 5000) (q : Fin 128) (i : SNC.Idx)
    (hi0 : (i 0).val = t.val * 5000 + r.val) (hi1 : (i 1).val = q.val) :
    (iblk10 V c 0 t : Vec Ideal S5000x128 .f32) (ix2 r q) = (V c main_v118 : SNC.Idx → EReal) i := by
  obtain ⟨e0, e1, -⟩ := idx_facts t
  unfold iblk10
  rw [View.read_apply]
  show V c main_v118 _ = V c main_v118 _
  congr 1
  funext a
  apply Fin.ext
  match a with
  | ⟨0, _⟩ => show win10_0.index t (0 : Fin 2) * 5000 + 1 * r.val = (i 0).val; rw [e0, hi0]; omega
  | ⟨1, _⟩ => show win10_0.index t (1 : Fin 2) * 128 + 1 * q.val = (i 1).val; rw [e1, hi1]; omega

/-- The same for the projection's block. -/
theorem iblk_h0 (c : Dev nD) (t : Fin cfg10.N) (r : Fin 5000) (q : Fin 128) (i : SNC.Idx)
    (hi0 : (i 0).val = t.val * 5000 + r.val) (hi1 : (i 1).val = q.val) :
    (iblk10 V c 1 t : Vec Ideal S5000x128 .f32) (ix2 r q) = (V c main_v3 : SNC.Idx → EReal) i := by
  obtain ⟨-, -, e0, e1, -⟩ := idx_facts t
  unfold iblk10
  rw [View.read_apply]
  show V c main_v3 _ = V c main_v3 _
  congr 1
  funext a
  apply Fin.ext
  match a with
  | ⟨0, _⟩ => show win10_1.index t (0 : Fin 2) * 5000 + 1 * r.val = (i 0).val; rw [e0, hi0]; omega
  | ⟨1, _⟩ => show win10_1.index t (1 : Fin 2) * 128 + 1 * q.val = (i 1).val; rw [e1, hi1]; omega

/-- Row r of the weight column's block at point t is the column at row 5000 t + r. -/
theorem iblk_w (c : Dev nD) (t : Fin cfg10.N) (r : Fin 5000) (i : SNC.Idx)
    (hi0 : (i 0).val = t.val * 5000 + r.val) :
    (iblk10 V c 2 t : Vec Ideal S5000x1 .f32) (ix2 r (0 : Fin 1)) = (V c main_v19 : SN1.Idx → EReal) (rowOf i) := by
  obtain ⟨-, -, -, -, e0, e1, -⟩ := idx_facts t
  unfold iblk10
  rw [View.read_apply]
  show V c main_v19 _ = V c main_v19 _
  congr 1
  funext a
  apply Fin.ext
  match a with
  | ⟨0, _⟩ => show win10_2.index t (0 : Fin 2) * 5000 + 1 * r.val = (i 0).val; rw [e0, hi0]; omega
  | ⟨1, _⟩ => show win10_2.index t (1 : Fin 2) * 1 + 1 * 0 = 0; rw [e1]

/-! ## What each point writes back -/

/-- Point t writes back, into the first result, block t of the blend of the three arrays. -/
theorem flushed_h_eq (c : Dev nD) (t : Fin cfg10.N) :
    (dat10 (F := Ideal) V c).flushed 3 t
      = ((cfg10.win 3).blk t).view.read (Elt Ideal) (blendH (V c main_v118) (V c main_v3) (V c main_v19)) := by
  show (cfg10.win 3).cut (grid10.coords t) ((dat10 (F := Ideal) V c).after 3 t) = _
  rw [after10_3]
  unfold out10_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg10.win 3).blk t).view.emb (ix2 r q) : SNC.Idx) 0).val = t.val * 5000 + r.val := by
    show win10_3.index t (0 : Fin 2) * 5000 + 1 * r.val = _; rw [e0]; omega
  have h1 : ((((cfg10.win 3).blk t).view.emb (ix2 r q) : SNC.Idx) 1).val = q.val := by
    show win10_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg10.N) :
    (dat10 (F := Ideal) V c).flushed 4 t
      = ((cfg10.win 4).blk t).view.read (Elt Ideal) (blendHS (V c main_v118) (V c main_v3) (V c main_v19)) := by
  show (cfg10.win 4).cut (grid10.coords t) ((dat10 (F := Ideal) V c).after 4 t) = _
  rw [after10_4]
  unfold out10_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg10.win 4).blk t).view.emb (ix2 r q) : SNC.Idx) 0).val = t.val * 5000 + r.val := by
    show win10_4.index t (0 : Fin 2) * 5000 + 1 * r.val = _; rw [e0]; omega
  have h1 : ((((cfg10.win 4).blk t).view.emb (ix2 r q) : SNC.Idx) 1).val = q.val := by
    show win10_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg10.N) (i : SNC.Idx) :
    i ∈ ((cfg10.win 3).blk t).view.set ↔ ∀ a : Fin 2, win10_3.index t a * S5000x128.size a ≤ (i a).val ∧ (i a).val < win10_3.index t a * S5000x128.size a + S5000x128.size a := by
  show i ∈ ((View.whole main_v119_0).slice (win10_3.rect t)).set ↔ _
  rw [View.set_slice_whole, Rect.mem_set_unit]
  exact Iff.rfl

theorem mem_blk_hs (t : Fin cfg10.N) (i : SNC.Idx) :
    i ∈ ((cfg10.win 4).blk t).view.set ↔ ∀ a : Fin 2, win10_4.index t a * S5000x128.size a ≤ (i a).val ∧ (i a).val < win10_4.index t a * S5000x128.size a + S5000x128.size a := by
  show i ∈ ((View.whole main_v119_1).slice (win10_4.rect t)).set ↔ _
  rw [View.set_slice_whole, Rect.mem_set_unit]
  exact Iff.rfl

/-- Row n of the first result lies in the block of point n / 5000, which writes back. -/
theorem cover_h (i : SNC.Idx) : ∃ t : Fin cfg10.N, (cfg10.win 3).flush t = true ∧ i ∈ ((cfg10.win 3).blk t).view.set := by
  have hN : cfg10.N = 20 := N_10
  have hi0 : (i 0).val < 100000 := idx2_lt0 i
  have hi1 : (i 1).val < 128 := idx2_lt1 i
  refine ⟨⟨(i 0).val / 5000, by rw [hN]; omega⟩, flush10_3 _, ?_⟩
  rw [mem_blk_h]
  obtain ⟨-, -, -, -, -, -, e0, e1, -⟩ := idx_facts ⟨(i 0).val / 5000, by rw [hN]; omega⟩
  intro a
  match a with
  | ⟨0, _⟩ => show win10_3.index _ (0 : Fin 2) * 5000 ≤ (i 0).val ∧ (i 0).val < win10_3.index _ (0 : Fin 2) * 5000 + 5000; rw [e0]; show (i 0).val / 5000 * 5000 ≤ (i 0).val ∧ (i 0).val < (i 0).val / 5000 * 5000 + 5000; omega
  | ⟨1, _⟩ => show win10_3.index _ (1 : Fin 2) * 128 ≤ (i 1).val ∧ (i 1).val < win10_3.index _ (1 : Fin 2) * 128 + 128; rw [e1]; omega

theorem cover_hs (i : SNC.Idx) : ∃ t : Fin cfg10.N, (cfg10.win 4).flush t = true ∧ i ∈ ((cfg10.win 4).blk t).view.set := by
  have hN : cfg10.N = 20 := N_10
  have hi0 : (i 0).val < 100000 := idx2_lt0 i
  have hi1 : (i 1).val < 128 := idx2_lt1 i
  refine ⟨⟨(i 0).val / 5000, by rw [hN]; omega⟩, flush10_4 _, ?_⟩
  rw [mem_blk_hs]
  obtain ⟨-, -, -, -, -, -, -, -, e0, e1⟩ := idx_facts ⟨(i 0).val / 5000, by rw [hN]; omega⟩
  intro a
  match a with
  | ⟨0, _⟩ => show win10_4.index _ (0 : Fin 2) * 5000 ≤ (i 0).val ∧ (i 0).val < win10_4.index _ (0 : Fin 2) * 5000 + 5000; rw [e0]; show (i 0).val / 5000 * 5000 ≤ (i 0).val ∧ (i 0).val < (i 0).val / 5000 * 5000 + 5000; omega
  | ⟨1, _⟩ => show win10_4.index _ (1 : Fin 2) * 128 ≤ (i 1).val ∧ (i 1).val < win10_4.index _ (1 : Fin 2) * 128 + 128; rw [e1]; omega

/-! ## The two result arrays after the step -/

/-- The first result array after the step is the blend of the aggregate, the projection and the weight column. -/
theorem final_h (c : Dev nD) :
    (dat10 (F := Ideal) V c).arrAt 3 cfg10.N = Cert.Appnp.blendH (V c main_v118) (V c main_v3) (V c main_v19) :=
  (dat10 (F := Ideal) V c).arrAt_eq_of_cover 3 (blendH (V c main_v118) (V c main_v3) (V c main_v19))
    (fun t _ => flushed_h_eq V c t) cover_h

/-- The second result array after the step is the blend multiplied once more by the weight column. -/
theorem final_hs (c : Dev nD) :
    (dat10 (F := Ideal) V c).arrAt 4 cfg10.N = Cert.Appnp.blendHS (V c main_v118) (V c main_v3) (V c main_v19) :=
  (dat10 (F := Ideal) V c).arrAt_eq_of_cover 4 (blendHS (V c main_v118) (V c main_v3) (V c main_v19))
    (fun t _ => flushed_hs_eq V c t) cover_hs

end Cert.KernelIdeal.Blend10

end
-- ==== Proof.Blend11.lean ====
/-
  One blend step of the propagation, read array by array.

  The step's grid has 20 points.  Point t holds rows 5000 t … 5000 t + 4999 of each array it touches: all 128 lanes of the
  aggregate, of the projection and of the two results, and the one lane of the weight column.  At row r and lane q of
  its block the body computes (0.9 * d r) * agg (r, q) + 0.1 * h0 (r, q), with d r the row's weight broadcast over
  the lanes, and stores that value in the first result and d r times it in the second.  Every point writes its two
  blocks back and the 20 blocks tile the 100000 rows, so after the step each result array is, at every index, the
  blend of the three arrays at that index.
-/
import proofs.«176388_j37022618092150_2_alg».proof.Proof.Gen.KernelIdeal.Frame
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blend11

open Cert.KernelIdeal Cert.KernelIdeal.Gen Idealize.ShloMosaic Idealize.ShloMosaic.TcCoe Idealize.SL.Sem Idealize.ShloMosaic.ValueIdx
open Idealize.ShloMosaic.Pipeline (Dat)
open Cert.Appnp (SNC SN1 rowOf blendH blendHS)

variable (V : (c : Dev nD) → (b : Ref sig .tc) → Buf (Elt Ideal) ((c : Thread nD τ).loc b))

/-! ## The body's arithmetic at one row and lane -/

theorem hz : (![0, 0] : Fin 2 → Nat) = fun _ => 0 := funext fun a => by fin_cases a <;> rfl

/-- A column [a, 1] broadcast over b lanes reads, at (p, q), the column's entry of row p. -/
theorem col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight column spread over the lanes: at (r, q) it is the weight of row r. -/
theorem pay_w_apply (d : Vec Ideal S5000x1 .f32) (r : Fin 5000) (q : Fin 128) :
    k11_pay1 d (ix2 r q) = d (ix2 r (0 : Fin 1)) := by
  unfold k11_pay1
  simp only [shapeCast_self]
  exact col_apply d _ r q

/-- The first result at (r, q): (0.9 * weight) * aggregate + 0.1 * projection. -/
theorem pay_h_apply (d : Vec Ideal S5000x1 .f32) (g h0 : Vec Ideal S5000x128 .f32) (r : Fin 5000) (q : Fin 128) :
    k11_pay2 d g h0 (ix2 r q) = (Cert.Appnp.c9 * d (ix2 r (0 : Fin 1))) * g (ix2 r q) + Cert.Appnp.c1 * h0 (ix2 r q) := by
  unfold k11_pay2
  simp only [shapeCast_self, addf_apply, mulf_apply, broadcast_apply, pay_w_apply]
  rfl

/-- The second result at (r, q): the weight times the first. -/
theorem pay_hs_apply (d : Vec Ideal S5000x1 .f32) (g h0 : Vec Ideal S5000x128 .f32) (r : Fin 5000) (q : Fin 128) :
    k11_pay3 d g h0 (ix2 r q) = d (ix2 r (0 : Fin 1)) * ((Cert.Appnp.c9 * d (ix2 r (0 : Fin 1))) * g (ix2 r q) + Cert.Appnp.c1 * h0 (ix2 r q)) := by
  unfold k11_pay3
  simp only [mulf_apply, pay_w_apply, pay_h_apply]

/-- The two results at (r, q) of a block are the blend functions at an index i of the arrays, once the three block entries
    read are the arrays' entries at i (the weight at i's row). -/
theorem blk_h (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k11_pay2 d g h0 (ix2 r q) = blendH A H D i := by
  rw [pay_h_apply, hd, hg, hh]; rfl

theorem blk_hs (d : Vec Ideal S5000x1 .f32) (g h0 : Vec Ideal S5000x128 .f32) (A H : SNC.Idx → EReal) (D : SN1.Idx → EReal)
    (r : Fin 5000) (q : Fin 128) (i : SNC.Idx)
    (hd : d (ix2 r (0 : Fin 1)) = D (rowOf i)) (hg : g (ix2 r q) = A i) (hh : h0 (ix2 r q) = H i) :
    k11_pay3 d g h0 (ix2 r q) = blendHS A H D i := by
  rw [pay_hs_apply, hd, hg, hh]; rfl

/-! ## Where a block's entry sits in its array -/

/-- Decided over the 20 points: every window's block index at point t is (t, 0). -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- Row r, lane q of the aggregate's block at point t is the array at row 5000 t + r, lane q. -/
theorem iblk_agg (c : Dev nD) (t : Fin cfg11.N) (r : Fin 5000) (q : Fin 128) (i : SNC.Idx)
    (hi0 : (i 0).val = t.val * 5000 + r.val) (hi1 : (i 1).val = q.val) :
    (iblk11 V c 0 t : Vec Ideal S5000x128 .f32) (ix2 r q) = (V c main_v129 : SNC.Idx → EReal) i := by
  obtain ⟨e0, e1, -⟩ := idx_facts t
  unfold iblk11
  rw [View.read_apply]
  show V c main_v129 _ = V c main_v129 _
  congr 1
  funext a
  apply Fin.ext
  match a with
  | ⟨0, _⟩ => show win11_0.index t (0 : Fin 2) * 5000 + 1 * r.val = (i 0).val; rw [e0, hi0]; omega
  | ⟨1, _⟩ => show win11_0.index t (1 : Fin 2) * 128 + 1 * q.val = (i 1).val; rw [e1, hi1]; omega

/-- The same for the projection's block. -/
theorem iblk_h0 (c : Dev nD) (t : Fin cfg11.N) (r : Fin 5000) (q : Fin 128) (i : SNC.Idx)
    (hi0 : (i 0).val = t.val * 5000 + r.val) (hi1 : (i 1).val = q.val) :
    (iblk11 V c 1 t : Vec Ideal S5000x128 .f32) (ix2 r q) = (V c main_v3 : SNC.Idx → EReal) i := by
  obtain ⟨-, -, e0, e1, -⟩ := idx_facts t
  unfold iblk11
  rw [View.read_apply]
  show V c main_v3 _ = V c main_v3 _
  congr 1
  funext a
  apply Fin.ext
  match a with
  | ⟨0, _⟩ => show win11_1.index t (0 : Fin 2) * 5000 + 1 * r.val = (i 0).val; rw [e0, hi0]; omega
  | ⟨1, _⟩ => show win11_1.index t (1 : Fin 2) * 128 + 1 * q.val = (i 1).val; rw [e1, hi1]; omega

/-- Row r of the weight column's block at point t is the column at row 5000 t + r. -/
theorem iblk_w (c : Dev nD) (t : Fin cfg11.N) (r : Fin 5000) (i : SNC.Idx)
    (hi0 : (i 0).val = t.val * 5000 + r.val) :
    (iblk11 V c 2 t : Vec Ideal S5000x1 .f32) (ix2 r (0 : Fin 1)) = (V c main_v19 : SN1.Idx → EReal) (rowOf i) := by
  obtain ⟨-, -, -, -, e0, e1, -⟩ := idx_facts t
  unfold iblk11
  rw [View.read_apply]
  show V c main_v19 _ = V c main_v19 _
  congr 1
  funext a
  apply Fin.ext
  match a with
  | ⟨0, _⟩ => show win11_2.index t (0 : Fin 2) * 5000 + 1 * r.val = (i 0).val; rw [e0, hi0]; omega
  | ⟨1, _⟩ => show win11_2.index t (1 : Fin 2) * 1 + 1 * 0 = 0; rw [e1]

/-! ## What each point writes back -/

/-- Point t writes back, into the first result, block t of the blend of the three arrays. -/
theorem flushed_h_eq (c : Dev nD) (t : Fin cfg11.N) :
    (dat11 (F := Ideal) V c).flushed 3 t
      = ((cfg11.win 3).blk t).view.read (Elt Ideal) (blendH (V c main_v129) (V c main_v3) (V c main_v19)) := by
  show (cfg11.win 3).cut (grid11.coords t) ((dat11 (F := Ideal) V c).after 3 t) = _
  rw [after11_3]
  unfold out11_3
  rw [View.canon_unit_zero hz]
  simp only [View.ld_unit_zero (S := S5000x128) hz, View.ld_unit_zero (S := S5000x1) hz]
  obtain ⟨-, -, -, -, -, -, e0, e1, -⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg11.win 3).blk t).view.emb (ix2 r q) : SNC.Idx) 0).val = t.val * 5000 + r.val := by
    show win11_3.index t (0 : Fin 2) * 5000 + 1 * r.val = _; rw [e0]; omega
  have h1 : ((((cfg11.win 3).blk t).view.emb (ix2 r q) : SNC.Idx) 1).val = q.val := by
    show win11_3.index t (1 : Fin 2) * 128 + 1 * q.val = _; rw [e1]; omega
  exact blk_h _ _ _ _ _ _ r q _ (iblk_w V c t r _ h0) (iblk_agg V c t r q _ h0 h1) (iblk_h0 V c t r q _ h0 h1)

/-- Point t writes back, into the second result, block t of the weighted blend. -/
theorem flushed_hs_eq (c : Dev nD) (t : Fin cfg11.N) :
    (dat11 (F := Ideal) V c).flushed 4 t
      = ((cfg11.win 4).blk t).view.read (Elt Ideal) (blendHS (V c main_v129) (V c main_v3) (V c main_v19)) := by
  show (cfg11.win 4).cut (grid11.coords t) ((dat11 (F := Ideal) V c).after 4 t) = _
  rw [after11_4]
  unfold out11_4
  rw [View.canon_unit_zero hz]
  simp only [View.ld_unit_zero (S := S5000x128) hz, View.ld_unit_zero (S := S5000x1) hz]
  obtain ⟨-, -, -, -, -, -, -, -, e0, e1⟩ := idx_facts t
  refine funext fun (j : S5000x128.Idx) => ?_
  obtain ⟨r, q, rfl⟩ : ∃ (r : Fin 5000) (q : Fin 128), j = ix2 r q := ⟨j 0, j 1, eq_ix2 j⟩
  rw [View.read_apply]
  have h0 : ((((cfg11.win 4).blk t).view.emb (ix2 r q) : SNC.Idx) 0).val = t.val * 5000 + r.val := by
    show win11_4.index t (0 : Fin 2) * 5000 + 1 * r.val = _; rw [e0]; omega
  have h1 : ((((cfg11.win 4).blk t).view.emb (ix2 r q) : SNC.Idx) 1).val = q.val := by
    show win11_4.index t (1 : Fin 2) * 128 + 1 * q.val = _; rw [e1]; omega
  exact blk_hs _ _ _ _ _ _ r q _ (iblk_w V c t r _ h0) (iblk_agg V c t r q _ h0 h1) (iblk_h0 V c t r q _ h0 h1)

/-! ## The blocks tile the arrays -/

/-- An index of the first result is in point t's block iff each coordinate is in the block's range on its axis. -/
theorem mem_blk_h (t : Fin cfg11.N) (i : SNC.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_v130_0).slice (win11_3.rect t)).set ↔ _
  rw [View.set_slice_whole, Rect.mem_set_unit]
  exact Iff.rfl

theorem mem_blk_hs (t : Fin cfg11.N) (i : SNC.Idx) :
    i ∈ ((cfg11.win 4).blk t).view.set ↔ ∀ a : Fin 2, win11_4.index t a * S5000x128.size a ≤ (i a).val ∧ (i a).val < win11_4.index t a * S5000x128.size a + S5000x128.size a := by
  show i ∈ ((View.whole main_v130_1).slice (win11_4.rect t)).set ↔ _
  rw [View.set_slice_whole, Rect.mem_set_unit]
  exact Iff.rfl

/-- Row n of the first result lies in the block of point n / 5000, which writes back. -/
theorem cover_h (i : SNC.Idx) : ∃ t : Fin cfg11.N, (cfg11.win 3).flush t = true ∧ i ∈ ((cfg11.win 3).blk t).view.set := by
  have hN : cfg11.N = 20 := N_11
  have hi0 : (i 0).val < 100000 := idx2_lt0 i
  have hi1 : (i 1).val < 128 := idx2_lt1 i
  refine ⟨⟨(i 0).val / 5000, by rw [hN]; omega⟩, flush11_3 _, ?_⟩
  rw [mem_blk_h]
  obtain ⟨-, -, -, -, -, -, e0, e1, -⟩ := idx_facts ⟨(i 0).val / 5000, by rw [hN]; omega⟩
  intro a
  match a with
  | ⟨0, _⟩ => show win11_3.index _ (0 : Fin 2) * 5000 ≤ (i 0).val ∧ (i 0).val < win11_3.index _ (0 : Fin 2) * 5000 + 5000; rw [e0]; show (i 0).val / 5000 * 5000 ≤ (i 0).val ∧ (i 0).val < (i 0).val / 5000 * 5000 + 5000; omega
  | ⟨1, _⟩ => show win11_3.index _ (1 : Fin 2) * 128 ≤ (i 1).val ∧ (i 1).val < win11_3.index _ (1 : Fin 2) * 128 + 128; rw [e1]; omega

theorem cover_hs (i : SNC.Idx) : ∃ t : Fin cfg11.N, (cfg11.win 4).flush t = true ∧ i ∈ ((cfg11.win 4).blk t).view.set := by
  have hN : cfg11.N = 20 := N_11
  have hi0 : (i 0).val < 100000 := idx2_lt0 i
  have hi1 : (i 1).val < 128 := idx2_lt1 i
  refine ⟨⟨(i 0).val / 5000, by rw [hN]; omega⟩, flush11_4 _, ?_⟩
  rw [mem_blk_hs]
  obtain ⟨-, -, -, -, -, -, -, -, e0, e1⟩ := idx_facts ⟨(i 0).val / 5000, by rw [hN]; omega⟩
  intro a
  match a with
  | ⟨0, _⟩ => show win11_4.index _ (0 : Fin 2) * 5000 ≤ (i 0).val ∧ (i 0).val < win11_4.index _ (0 : Fin 2) * 5000 + 5000; rw [e0]; show (i 0).val / 5000 * 5000 ≤ (i 0).val ∧ (i 0).val < (i 0).val / 5000 * 5000 + 5000; omega
  | ⟨1, _⟩ => show win11_4.index _ (1 : Fin 2) * 128 ≤ (i 1).val ∧ (i 1).val < win11_4.index _ (1 : Fin 2) * 128 + 128; rw [e1]; omega

/-! ## The two result arrays after the step -/

/-- The first result array after the step is the blend of the aggregate, the projection and the weight column. -/
theorem final_h (c : Dev nD) :
    (dat11 (F := Ideal) V c).arrAt 3 cfg11.N = Cert.Appnp.blendH (V c main_v129) (V c main_v3) (V c main_v19) :=
  (dat11 (F := Ideal) V c).arrAt_eq_of_cover 3 (blendH (V c main_v129) (V c main_v3) (V c main_v19))
    (fun t _ => flushed_h_eq V c t) cover_h

/-- The second result array after the step is the blend multiplied once more by the weight column. -/
theorem final_hs (c : Dev nD) :
    (dat11 (F := Ideal) V c).arrAt 4 cfg11.N = Cert.Appnp.blendHS (V c main_v129) (V c main_v3) (V c main_v19) :=
  (dat11 (F := Ideal) V c).arrAt_eq_of_cover 4 (blendHS (V c main_v129) (V c main_v3) (V c main_v19))
    (fun t _ => flushed_hs_eq V c t) cover_hs

end Cert.KernelIdeal.Blend11

end
-- ==== Proof.KernelChain.lean ====
/-
  The idealized kernel program's result, read through its twelve regions.

  The program's buffers at the boundary after each region are a fold of the host stretches and of the regions'
  write-backs from the launch memory.  Walking the fold forward: the first region leaves the projection
  `h0 = x W^T + b`; the stretch after it builds the edge lists and the node weights; the second region leaves the
  rows of `h0` multiplied by their nodes' weights; and each of the ten propagation regions takes the aggregation of
  the previous region's weighted rows, the projection and the weights, and leaves the next rows and the next weighted
  rows.  Through all of it the projection, the weight column and the two edge lists stay where they are.  The pair
  (rows, weighted rows) after `k` propagation regions is `hopK … k`, and the program's result is the rows after ten.
-/
import proofs.«176388_j37022618092150_2_alg».proof.Proof.Gen.KernelIdeal.Frame
import proofs.«176388_j37022618092150_2_alg».proof.Proof.KHost
import proofs.«176388_j37022618092150_2_alg».proof.Proof.KSpec
import proofs.«176388_j37022618092150_2_alg».proof.Proof.KHop
import proofs.«176388_j37022618092150_2_alg».proof.Proof.Linear0
import proofs.«176388_j37022618092150_2_alg».proof.Proof.Scale1
import proofs.«176388_j37022618092150_2_alg».proof.Proof.Blend2
import proofs.«176388_j37022618092150_2_alg».proof.Proof.Blend3
import proofs.«176388_j37022618092150_2_alg».proof.Proof.Blend4
import proofs.«176388_j37022618092150_2_alg».proof.Proof.Blend5
import proofs.«176388_j37022618092150_2_alg».proof.Proof.Blend6
import proofs.«176388_j37022618092150_2_alg».proof.Proof.Blend7
import proofs.«176388_j37022618092150_2_alg».proof.Proof.Blend8
import proofs.«176388_j37022618092150_2_alg».proof.Proof.Blend9
import proofs.«176388_j37022618092150_2_alg».proof.Proof.Blend10
import proofs.«176388_j37022618092150_2_alg».proof.Proof.Blend11

set_option maxRecDepth 16384

noncomputable section

namespace Cert.KernelIdeal.Chain

open Cert.KernelIdeal Cert.KernelIdeal.Gen Cert.KernelIdeal.Host Idealize.ShloMosaic Idealize.ShloMosaic.TcCoe Idealize.SL.Sem

variable (m : (ℓ : Loc nD τ sig) → Buf (Elt Ideal) ℓ) (ρ : Dev nD → PrngReg) (c : Dev nD)

/-- The projection of the launch arrays. -/
def h0K : TNC :=
  Cert.Appnp.linear (m ((c : Thread nD τ).loc main_arg0)) (wtOf (m ((c : Thread nD τ).loc main_arg2))) (biasRow (m ((c : Thread nD τ).loc main_arg3)))

/-! ## Up to the first region's exit -/

theorem w1_arg0 : W1 m ρ c (Proc.devRef .tc main_arg0) = m ((c : Thread nD τ).loc main_arg0) := (pre0_arg0 (W0 m ρ c)).trans rfl
theorem w1_arg1 : W1 m ρ c (Proc.devRef .tc main_arg1) = m ((c : Thread nD τ).loc main_arg1) := (pre0_arg1 (W0 m ρ c)).trans rfl
theorem w1_v1 : W1 m ρ c (Proc.devRef .tc main_v1) = wtOf (m ((c : Thread nD τ).loc main_arg2)) := (pre0_v1 (W0 m ρ c)).trans rfl
theorem w1_v2 : W1 m ρ c (Proc.devRef .tc main_v2) = biasRow (m ((c : Thread nD τ).loc main_arg3)) := (pre0_v2 (W0 m ρ c)).trans rfl

theorem w2_v3 : W2 m ρ c (Proc.devRef .tc main_v3) = h0K m c := by
  refine (W2_arr m ρ c 3).trans ((Linear0.final (V1 m ρ) c).trans ?_)
  show Cert.Appnp.linear (W1 m ρ c (Proc.devRef .tc main_arg0)) (W1 m ρ c (Proc.devRef .tc main_v1)) (W1 m ρ c (Proc.devRef .tc main_v2)) = _
  rw [w1_arg0, w1_v1, w1_v2]; rfl
theorem w2_arg1 : W2 m ρ c (Proc.devRef .tc main_arg1) = m ((c : Thread nD τ).loc main_arg1) :=
  (W2_of_ne m ρ c main_arg1 (by decide)).trans (w1_arg1 m ρ c)

/-! ## The edge lists and the weights, and the second region -/

theorem w5_v19 : W5 m ρ c (Proc.devRef .tc main_v19) = dinvCol (dstOf (m ((c : Thread nD τ).loc main_arg1))) :=
  (pre1_v19 (W2 m ρ c)).trans (by rw [w2_arg1])
theorem w5_v7 : W5 m ρ c (Proc.devRef .tc main_v7) = srcOf (m ((c : Thread nD τ).loc main_arg1)) :=
  (pre1_v7 (W2 m ρ c)).trans (by rw [w2_arg1])
theorem w5_v10 : W5 m ρ c (Proc.devRef .tc main_v10) = dstOf (m ((c : Thread nD τ).loc main_arg1)) :=
  (pre1_v10 (W2 m ρ c)).trans (by rw [w2_arg1])
theorem w5_v3 : W5 m ρ c (Proc.devRef .tc main_v3) = h0K m c := (pre1_v3 (W2 m ρ c)).trans (w2_v3 m ρ c)

/-- After the second region: the projection, the weight column and the edge lists in place, and the weighted rows. -/
theorem inv1 : W6 m ρ c (Proc.devRef .tc main_v3) = h0K m c
    ∧ W6 m ρ c (Proc.devRef .tc main_v19) = dinvCol (dstOf (m ((c : Thread nD τ).loc main_arg1)))
    ∧ W6 m ρ c (Proc.devRef .tc main_v7) = srcOf (m ((c : Thread nD τ).loc main_arg1))
    ∧ W6 m ρ c (Proc.devRef .tc main_v10) = dstOf (m ((c : Thread nD τ).loc main_arg1))
    ∧ W6 m ρ c (Proc.devRef .tc main_v20) = (hopK (m ((c : Thread nD τ).loc main_arg1)) (h0K m c) 0).2 := by
  refine ⟨?_, ?_, ?_, ?_, ?_⟩
  · exact (W6_arr m ρ c 0).trans (((dat1 (V5 m ρ) c).arrAt_in 0 rfl _).trans ((A_eq1 (V5 m ρ) c 0).trans (w5_v3 m ρ c)))
  · exact (W6_arr m ρ c 1).trans (((dat1 (V5 m ρ) c).arrAt_in 1 rfl _).trans ((A_eq1 (V5 m ρ) c 1).trans (w5_v19 m ρ c)))
  · exact (W6_of_ne m ρ c main_v7 (by decide)).trans (w5_v7 m ρ c)
  · exact (W6_of_ne m ρ c main_v10 (by decide)).trans (w5_v10 m ρ c)
  · refine (W6_arr m ρ c 2).trans ((Scale1.final (V5 m ρ) c).trans ?_)
    show Cert.Appnp.scale (W5 m ρ c (Proc.devRef .tc main_v3)) (W5 m ρ c (Proc.devRef .tc main_v19)) = _
    rw [w5_v3, w5_v19]; rfl

/-! ## The ten propagation regions -/

/-- After propagation region 1: the same four in place, and the pair after 1 step. -/
theorem inv2 : W8 m ρ c (Proc.devRef .tc main_v3) = h0K m c
    ∧ W8 m ρ c (Proc.devRef .tc main_v19) = dinvCol (dstOf (m ((c : Thread nD τ).loc main_arg1)))
    ∧ W8 m ρ c (Proc.devRef .tc main_v7) = srcOf (m ((c : Thread nD τ).loc main_arg1))
    ∧ W8 m ρ c (Proc.devRef .tc main_v10) = dstOf (m ((c : Thread nD τ).loc main_arg1))
    ∧ W8 m ρ c (Proc.devRef .tc main_v31_1) = (hopK (m ((c : Thread nD τ).loc main_arg1)) (h0K m c) 1).2
    ∧ W8 m ρ c (Proc.devRef .tc main_v31_0) = (hopK (m ((c : Thread nD τ).loc main_arg1)) (h0K m c) 1).1 := by
  obtain ⟨h3, h19, h7, h10, hs⟩ := inv1 m ρ c
  have b3 : W7 m ρ c (Proc.devRef .tc main_v3) = h0K m c := (kept2_v3 (W6 m ρ c)).trans h3
  have b19 : W7 m ρ c (Proc.devRef .tc main_v19) = dinvCol (dstOf (m ((c : Thread nD τ).loc main_arg1))) := (kept2_v19 (W6 m ρ c)).trans h19
  have b7 : W7 m ρ c (Proc.devRef .tc main_v7) = srcOf (m ((c : Thread nD τ).loc main_arg1)) := (kept2_v7 (W6 m ρ c)).trans h7
  have b10 : W7 m ρ c (Proc.devRef .tc main_v10) = dstOf (m ((c : Thread nD τ).loc main_arg1)) := (kept2_v10 (W6 m ρ c)).trans h10
  have bagg : W7 m ρ c (Proc.devRef .tc main_v30)
      = aggOf (srcOf (m ((c : Thread nD τ).loc main_arg1))) (dstOf (m ((c : Thread nD τ).loc main_arg1))) (hopK (m ((c : Thread nD τ).loc main_arg1)) (h0K m c) 0).2 :=
    (agg2 (W6 m ρ c)).trans (by rw [h7, h10, hs])
  refine ⟨?_, ?_, ?_, ?_, ?_, ?_⟩
  · exact (W8_arr m ρ c 1).trans (((dat2 (V7 m ρ) c).arrAt_in 1 rfl _).trans ((A_eq2 (V7 m ρ) c 1).trans b3))
  · exact (W8_arr m ρ c 2).trans (((dat2 (V7 m ρ) c).arrAt_in 2 rfl _).trans ((A_eq2 (V7 m ρ) c 2).trans b19))
  · exact (W8_of_ne m ρ c main_v7 (by decide)).trans b7
  · exact (W8_of_ne m ρ c main_v10 (by decide)).trans b10
  · refine (W8_arr m ρ c 4).trans ((Blend2.final_hs (V7 m ρ) c).trans ?_)
    show Cert.Appnp.blendHS (W7 m ρ c (Proc.devRef .tc main_v30)) (W7 m ρ c (Proc.devRef .tc main_v3)) (W7 m ρ c (Proc.devRef .tc main_v19)) = _
    rw [bagg, b3, b19]; rfl
  · refine (W8_arr m ρ c 3).trans ((Blend2.final_h (V7 m ρ) c).trans ?_)
    show Cert.Appnp.blendH (W7 m ρ c (Proc.devRef .tc main_v30)) (W7 m ρ c (Proc.devRef .tc main_v3)) (W7 m ρ c (Proc.devRef .tc main_v19)) = _
    rw [bagg, b3, b19]; rfl

/-- After propagation region 2: the same four in place, and the pair after 2 steps. -/
theorem inv3 : W10 m ρ c (Proc.devRef .tc main_v3) = h0K m c
    ∧ W10 m ρ c (Proc.devRef .tc main_v19) = dinvCol (dstOf (m ((c : Thread nD τ).loc main_arg1)))
    ∧ W10 m ρ c (Proc.devRef .tc main_v7) = srcOf (m ((c : Thread nD τ).loc main_arg1))
    ∧ W10 m ρ c (Proc.devRef .tc main_v10) = dstOf (m ((c : Thread nD τ).loc main_arg1))
    ∧ W10 m ρ c (Proc.devRef .tc main_v42_1) = (hopK (m ((c : Thread nD τ).loc main_arg1)) (h0K m c) 2).2
    ∧ W10 m ρ c (Proc.devRef .tc main_v42_0) = (hopK (m ((c : Thread nD τ).loc main_arg1)) (h0K m c) 2).1 := by
  obtain ⟨h3, h19, h7, h10, hs, -⟩ := inv2 m ρ c
  have b3 : W9 m ρ c (Proc.devRef .tc main_v3) = h0K m c := (kept3_v3 (W8 m ρ c)).trans h3
  have b19 : W9 m ρ c (Proc.devRef .tc main_v19) = dinvCol (dstOf (m ((c : Thread nD τ).loc main_arg1))) := (kept3_v19 (W8 m ρ c)).trans h19
  have b7 : W9 m ρ c (Proc.devRef .tc main_v7) = srcOf (m ((c : Thread nD τ).loc main_arg1)) := (kept3_v7 (W8 m ρ c)).trans h7
  have b10 : W9 m ρ c (Proc.devRef .tc main_v10) = dstOf (m ((c : Thread nD τ).loc main_arg1)) := (kept3_v10 (W8 m ρ c)).trans h10
  have bagg : W9 m ρ c (Proc.devRef .tc main_v41)
      = aggOf (srcOf (m ((c : Thread nD τ).loc main_arg1))) (dstOf (m ((c : Thread nD τ).loc main_arg1))) (hopK (m ((c : Thread nD τ).loc main_arg1)) (h0K m c) 1).2 :=
    (agg3 (W8 m ρ c)).trans (by rw [h7, h10, hs])
  refine ⟨?_, ?_, ?_, ?_, ?_, ?_⟩
  · exact (W10_arr m ρ c 1).trans (((dat3 (V9 m ρ) c).arrAt_in 1 rfl _).trans ((A_eq3 (V9 m ρ) c 1).trans b3))
  · exact (W10_arr m ρ c 2).trans (((dat3 (V9 m ρ) c).arrAt_in 2 rfl _).trans ((A_eq3 (V9 m ρ) c 2).trans b19))
  · exact (W10_of_ne m ρ c main_v7 (by decide)).trans b7
  · exact (W10_of_ne m ρ c main_v10 (by decide)).trans b10
  · refine (W10_arr m ρ c 4).trans ((Blend3.final_hs (V9 m ρ) c).trans ?_)
    show Cert.Appnp.blendHS (W9 m ρ c (Proc.devRef .tc main_v41)) (W9 m ρ c (Proc.devRef .tc main_v3)) (W9 m ρ c (Proc.devRef .tc main_v19)) = _
    rw [bagg, b3, b19]; rfl
  · refine (W10_arr m ρ c 3).trans ((Blend3.final_h (V9 m ρ) c).trans ?_)
    show Cert.Appnp.blendH (W9 m ρ c (Proc.devRef .tc main_v41)) (W9 m ρ c (Proc.devRef .tc main_v3)) (W9 m ρ c (Proc.devRef .tc main_v19)) = _
    rw [bagg, b3, b19]; rfl

/-- After propagation region 3: the same four in place, and the pair after 3 steps. -/
theorem inv4 : W12 m ρ c (Proc.devRef .tc main_v3) = h0K m c
    ∧ W12 m ρ c (Proc.devRef .tc main_v19) = dinvCol (dstOf (m ((c : Thread nD τ).loc main_arg1)))
    ∧ W12 m ρ c (Proc.devRef .tc main_v7) = srcOf (m ((c : Thread nD τ).loc main_arg1))
    ∧ W12 m ρ c (Proc.devRef .tc main_v10) = dstOf (m ((c : Thread nD τ).loc main_arg1))
    ∧ W12 m ρ c (Proc.devRef .tc main_v53_1) = (hopK (m ((c : Thread nD τ).loc main_arg1)) (h0K m c) 3).2
    ∧ W12 m ρ c (Proc.devRef .tc main_v53_0) = (hopK (m ((c : Thread nD τ).loc main_arg1)) (h0K m c) 3).1 := by
  obtain ⟨h3, h19, h7, h10, hs, -⟩ := inv3 m ρ c
  have b3 : W11 m ρ c (Proc.devRef .tc main_v3) = h0K m c := (kept4_v3 (W10 m ρ c)).trans h3
  have b19 : W11 m ρ c (Proc.devRef .tc main_v19) = dinvCol (dstOf (m ((c : Thread nD τ).loc main_arg1))) := (kept4_v19 (W10 m ρ c)).trans h19
  have b7 : W11 m ρ c (Proc.devRef .tc main_v7) = srcOf (m ((c : Thread nD τ).loc main_arg1)) := (kept4_v7 (W10 m ρ c)).trans h7
  have b10 : W11 m ρ c (Proc.devRef .tc main_v10) = dstOf (m ((c : Thread nD τ).loc main_arg1)) := (kept4_v10 (W10 m ρ c)).trans h10
  have bagg : W11 m ρ c (Proc.devRef .tc main_v52)
      = aggOf (srcOf (m ((c : Thread nD τ).loc main_arg1))) (dstOf (m ((c : Thread nD τ).loc main_arg1))) (hopK (m ((c : Thread nD τ).loc main_arg1)) (h0K m c) 2).2 :=
    (agg4 (W10 m ρ c)).trans (by rw [h7, h10, hs])
  refine ⟨?_, ?_, ?_, ?_, ?_, ?_⟩
  · exact (W12_arr m ρ c 1).trans (((dat4 (V11 m ρ) c).arrAt_in 1 rfl _).trans ((A_eq4 (V11 m ρ) c 1).trans b3))
  · exact (W12_arr m ρ c 2).trans (((dat4 (V11 m ρ) c).arrAt_in 2 rfl _).trans ((A_eq4 (V11 m ρ) c 2).trans b19))
  · exact (W12_of_ne m ρ c main_v7 (by decide)).trans b7
  · exact (W12_of_ne m ρ c main_v10 (by decide)).trans b10
  · refine (W12_arr m ρ c 4).trans ((Blend4.final_hs (V11 m ρ) c).trans ?_)
    show Cert.Appnp.blendHS (W11 m ρ c (Proc.devRef .tc main_v52)) (W11 m ρ c (Proc.devRef .tc main_v3)) (W11 m ρ c (Proc.devRef .tc main_v19)) = _
    rw [bagg, b3, b19]; rfl
  · refine (W12_arr m ρ c 3).trans ((Blend4.final_h (V11 m ρ) c).trans ?_)
    show Cert.Appnp.blendH (W11 m ρ c (Proc.devRef .tc main_v52)) (W11 m ρ c (Proc.devRef .tc main_v3)) (W11 m ρ c (Proc.devRef .tc main_v19)) = _
    rw [bagg, b3, b19]; rfl

/-- After propagation region 4: the same four in place, and the pair after 4 steps. -/
theorem inv5 : W14 m ρ c (Proc.devRef .tc main_v3) = h0K m c
    ∧ W14 m ρ c (Proc.devRef .tc main_v19) = dinvCol (dstOf (m ((c : Thread nD τ).loc main_arg1)))
    ∧ W14 m ρ c (Proc.devRef .tc main_v7) = srcOf (m ((c : Thread nD τ).loc main_arg1))
    ∧ W14 m ρ c (Proc.devRef .tc main_v10) = dstOf (m ((c : Thread nD τ).loc main_arg1))
    ∧ W14 m ρ c (Proc.devRef .tc main_v64_1) = (hopK (m ((c : Thread nD τ).loc main_arg1)) (h0K m c) 4).2
    ∧ W14 m ρ c (Proc.devRef .tc main_v64_0) = (hopK (m ((c : Thread nD τ).loc main_arg1)) (h0K m c) 4).1 := by
  obtain ⟨h3, h19, h7, h10, hs, -⟩ := inv4 m ρ c
  have b3 : W13 m ρ c (Proc.devRef .tc main_v3) = h0K m c := (kept5_v3 (W12 m ρ c)).trans h3
  have b19 : W13 m ρ c (Proc.devRef .tc main_v19) = dinvCol (dstOf (m ((c : Thread nD τ).loc main_arg1))) := (kept5_v19 (W12 m ρ c)).trans h19
  have b7 : W13 m ρ c (Proc.devRef .tc main_v7) = srcOf (m ((c : Thread nD τ).loc main_arg1)) := (kept5_v7 (W12 m ρ c)).trans h7
  have b10 : W13 m ρ c (Proc.devRef .tc main_v10) = dstOf (m ((c : Thread nD τ).loc main_arg1)) := (kept5_v10 (W12 m ρ c)).trans h10
  have bagg : W13 m ρ c (Proc.devRef .tc main_v63)
      = aggOf (srcOf (m ((c : Thread nD τ).loc main_arg1))) (dstOf (m ((c : Thread nD τ).loc main_arg1))) (hopK (m ((c : Thread nD τ).loc main_arg1)) (h0K m c) 3).2 :=
    (agg5 (W12 m ρ c)).trans (by rw [h7, h10, hs])
  refine ⟨?_, ?_, ?_, ?_, ?_, ?_⟩
  · exact (W14_arr m ρ c 1).trans (((dat5 (V13 m ρ) c).arrAt_in 1 rfl _).trans ((A_eq5 (V13 m ρ) c 1).trans b3))
  · exact (W14_arr m ρ c 2).trans (((dat5 (V13 m ρ) c).arrAt_in 2 rfl _).trans ((A_eq5 (V13 m ρ) c 2).trans b19))
  · exact (W14_of_ne m ρ c main_v7 (by decide)).trans b7
  · exact (W14_of_ne m ρ c main_v10 (by decide)).trans b10
  · refine (W14_arr m ρ c 4).trans ((Blend5.final_hs (V13 m ρ) c).trans ?_)
    show Cert.Appnp.blendHS (W13 m ρ c (Proc.devRef .tc main_v63)) (W13 m ρ c (Proc.devRef .tc main_v3)) (W13 m ρ c (Proc.devRef .tc main_v19)) = _
    rw [bagg, b3, b19]; rfl
  · refine (W14_arr m ρ c 3).trans ((Blend5.final_h (V13 m ρ) c).trans ?_)
    show Cert.Appnp.blendH (W13 m ρ c (Proc.devRef .tc main_v63)) (W13 m ρ c (Proc.devRef .tc main_v3)) (W13 m ρ c (Proc.devRef .tc main_v19)) = _
    rw [bagg, b3, b19]; rfl

/-- After propagation region 5: the same four in place, and the pair after 5 steps. -/
theorem inv6 : W16 m ρ c (Proc.devRef .tc main_v3) = h0K m c
    ∧ W16 m ρ c (Proc.devRef .tc main_v19) = dinvCol (dstOf (m ((c : Thread nD τ).loc main_arg1)))
    ∧ W16 m ρ c (Proc.devRef .tc main_v7) = srcOf (m ((c : Thread nD τ).loc main_arg1))
    ∧ W16 m ρ c (Proc.devRef .tc main_v10) = dstOf (m ((c : Thread nD τ).loc main_arg1))
    ∧ W16 m ρ c (Proc.devRef .tc main_v75_1) = (hopK (m ((c : Thread nD τ).loc main_arg1)) (h0K m c) 5).2
    ∧ W16 m ρ c (Proc.devRef .tc main_v75_0) = (hopK (m ((c : Thread nD τ).loc main_arg1)) (h0K m c) 5).1 := by
  obtain ⟨h3, h19, h7, h10, hs, -⟩ := inv5 m ρ c
  have b3 : W15 m ρ c (Proc.devRef .tc main_v3) = h0K m c := (kept6_v3 (W14 m ρ c)).trans h3
  have b19 : W15 m ρ c (Proc.devRef .tc main_v19) = dinvCol (dstOf (m ((c : Thread nD τ).loc main_arg1))) := (kept6_v19 (W14 m ρ c)).trans h19
  have b7 : W15 m ρ c (Proc.devRef .tc main_v7) = srcOf (m ((c : Thread nD τ).loc main_arg1)) := (kept6_v7 (W14 m ρ c)).trans h7
  have b10 : W15 m ρ c (Proc.devRef .tc main_v10) = dstOf (m ((c : Thread nD τ).loc main_arg1)) := (kept6_v10 (W14 m ρ c)).trans h10
  have bagg : W15 m ρ c (Proc.devRef .tc main_v74)
      = aggOf (srcOf (m ((c : Thread nD τ).loc main_arg1))) (dstOf (m ((c : Thread nD τ).loc main_arg1))) (hopK (m ((c : Thread nD τ).loc main_arg1)) (h0K m c) 4).2 :=
    (agg6 (W14 m ρ c)).trans (by rw [h7, h10, hs])
  refine ⟨?_, ?_, ?_, ?_, ?_, ?_⟩
  · exact (W16_arr m ρ c 1).trans (((dat6 (V15 m ρ) c).arrAt_in 1 rfl _).trans ((A_eq6 (V15 m ρ) c 1).trans b3))
  · exact (W16_arr m ρ c 2).trans (((dat6 (V15 m ρ) c).arrAt_in 2 rfl _).trans ((A_eq6 (V15 m ρ) c 2).trans b19))
  · exact (W16_of_ne m ρ c main_v7 (by decide)).trans b7
  · exact (W16_of_ne m ρ c main_v10 (by decide)).trans b10
  · refine (W16_arr m ρ c 4).trans ((Blend6.final_hs (V15 m ρ) c).trans ?_)
    show Cert.Appnp.blendHS (W15 m ρ c (Proc.devRef .tc main_v74)) (W15 m ρ c (Proc.devRef .tc main_v3)) (W15 m ρ c (Proc.devRef .tc main_v19)) = _
    rw [bagg, b3, b19]; rfl
  · refine (W16_arr m ρ c 3).trans ((Blend6.final_h (V15 m ρ) c).trans ?_)
    show Cert.Appnp.blendH (W15 m ρ c (Proc.devRef .tc main_v74)) (W15 m ρ c (Proc.devRef .tc main_v3)) (W15 m ρ c (Proc.devRef .tc main_v19)) = _
    rw [bagg, b3, b19]; rfl

/-- After propagation region 6: the same four in place, and the pair after 6 steps. -/
theorem inv7 : W18 m ρ c (Proc.devRef .tc main_v3) = h0K m c
    ∧ W18 m ρ c (Proc.devRef .tc main_v19) = dinvCol (dstOf (m ((c : Thread nD τ).loc main_arg1)))
    ∧ W18 m ρ c (Proc.devRef .tc main_v7) = srcOf (m ((c : Thread nD τ).loc main_arg1))
    ∧ W18 m ρ c (Proc.devRef .tc main_v10) = dstOf (m ((c : Thread nD τ).loc main_arg1))
    ∧ W18 m ρ c (Proc.devRef .tc main_v86_1) = (hopK (m ((c : Thread nD τ).loc main_arg1)) (h0K m c) 6).2
    ∧ W18 m ρ c (Proc.devRef .tc main_v86_0) = (hopK (m ((c : Thread nD τ).loc main_arg1)) (h0K m c) 6).1 := by
  obtain ⟨h3, h19, h7, h10, hs, -⟩ := inv6 m ρ c
  have b3 : W17 m ρ c (Proc.devRef .tc main_v3) = h0K m c := (kept7_v3 (W16 m ρ c)).trans h3
  have b19 : W17 m ρ c (Proc.devRef .tc main_v19) = dinvCol (dstOf (m ((c : Thread nD τ).loc main_arg1))) := (kept7_v19 (W16 m ρ c)).trans h19
  have b7 : W17 m ρ c (Proc.devRef .tc main_v7) = srcOf (m ((c : Thread nD τ).loc main_arg1)) := (kept7_v7 (W16 m ρ c)).trans h7
  have b10 : W17 m ρ c (Proc.devRef .tc main_v10) = dstOf (m ((c : Thread nD τ).loc main_arg1)) := (kept7_v10 (W16 m ρ c)).trans h10
  have bagg : W17 m ρ c (Proc.devRef .tc main_v85)
      = aggOf (srcOf (m ((c : Thread nD τ).loc main_arg1))) (dstOf (m ((c : Thread nD τ).loc main_arg1))) (hopK (m ((c : Thread nD τ).loc main_arg1)) (h0K m c) 5).2 :=
    (agg7 (W16 m ρ c)).trans (by rw [h7, h10, hs])
  refine ⟨?_, ?_, ?_, ?_, ?_, ?_⟩
  · exact (W18_arr m ρ c 1).trans (((dat7 (V17 m ρ) c).arrAt_in 1 rfl _).trans ((A_eq7 (V17 m ρ) c 1).trans b3))
  · exact (W18_arr m ρ c 2).trans (((dat7 (V17 m ρ) c).arrAt_in 2 rfl _).trans ((A_eq7 (V17 m ρ) c 2).trans b19))
  · exact (W18_of_ne m ρ c main_v7 (by decide)).trans b7
  · exact (W18_of_ne m ρ c main_v10 (by decide)).trans b10
  · refine (W18_arr m ρ c 4).trans ((Blend7.final_hs (V17 m ρ) c).trans ?_)
    show Cert.Appnp.blendHS (W17 m ρ c (Proc.devRef .tc main_v85)) (W17 m ρ c (Proc.devRef .tc main_v3)) (W17 m ρ c (Proc.devRef .tc main_v19)) = _
    rw [bagg, b3, b19]; rfl
  · refine (W18_arr m ρ c 3).trans ((Blend7.final_h (V17 m ρ) c).trans ?_)
    show Cert.Appnp.blendH (W17 m ρ c (Proc.devRef .tc main_v85)) (W17 m ρ c (Proc.devRef .tc main_v3)) (W17 m ρ c (Proc.devRef .tc main_v19)) = _
    rw [bagg, b3, b19]; rfl

/-- After propagation region 7: the same four in place, and the pair after 7 steps. -/
theorem inv8 : W20 m ρ c (Proc.devRef .tc main_v3) = h0K m c
    ∧ W20 m ρ c (Proc.devRef .tc main_v19) = dinvCol (dstOf (m ((c : Thread nD τ).loc main_arg1)))
    ∧ W20 m ρ c (Proc.devRef .tc main_v7) = srcOf (m ((c : Thread nD τ).loc main_arg1))
    ∧ W20 m ρ c (Proc.devRef .tc main_v10) = dstOf (m ((c : Thread nD τ).loc main_arg1))
    ∧ W20 m ρ c (Proc.devRef .tc main_v97_1) = (hopK (m ((c : Thread nD τ).loc main_arg1)) (h0K m c) 7).2
    ∧ W20 m ρ c (Proc.devRef .tc main_v97_0) = (hopK (m ((c : Thread nD τ).loc main_arg1)) (h0K m c) 7).1 := by
  obtain ⟨h3, h19, h7, h10, hs, -⟩ := inv7 m ρ c
  have b3 : W19 m ρ c (Proc.devRef .tc main_v3) = h0K m c := (kept8_v3 (W18 m ρ c)).trans h3
  have b19 : W19 m ρ c (Proc.devRef .tc main_v19) = dinvCol (dstOf (m ((c : Thread nD τ).loc main_arg1))) := (kept8_v19 (W18 m ρ c)).trans h19
  have b7 : W19 m ρ c (Proc.devRef .tc main_v7) = srcOf (m ((c : Thread nD τ).loc main_arg1)) := (kept8_v7 (W18 m ρ c)).trans h7
  have b10 : W19 m ρ c (Proc.devRef .tc main_v10) = dstOf (m ((c : Thread nD τ).loc main_arg1)) := (kept8_v10 (W18 m ρ c)).trans h10
  have bagg : W19 m ρ c (Proc.devRef .tc main_v96)
      = aggOf (srcOf (m ((c : Thread nD τ).loc main_arg1))) (dstOf (m ((c : Thread nD τ).loc main_arg1))) (hopK (m ((c : Thread nD τ).loc main_arg1)) (h0K m c) 6).2 :=
    (agg8 (W18 m ρ c)).trans (by rw [h7, h10, hs])
  refine ⟨?_, ?_, ?_, ?_, ?_, ?_⟩
  · exact (W20_arr m ρ c 1).trans (((dat8 (V19 m ρ) c).arrAt_in 1 rfl _).trans ((A_eq8 (V19 m ρ) c 1).trans b3))
  · exact (W20_arr m ρ c 2).trans (((dat8 (V19 m ρ) c).arrAt_in 2 rfl _).trans ((A_eq8 (V19 m ρ) c 2).trans b19))
  · exact (W20_of_ne m ρ c main_v7 (by decide)).trans b7
  · exact (W20_of_ne m ρ c main_v10 (by decide)).trans b10
  · refine (W20_arr m ρ c 4).trans ((Blend8.final_hs (V19 m ρ) c).trans ?_)
    show Cert.Appnp.blendHS (W19 m ρ c (Proc.devRef .tc main_v96)) (W19 m ρ c (Proc.devRef .tc main_v3)) (W19 m ρ c (Proc.devRef .tc main_v19)) = _
    rw [bagg, b3, b19]; rfl
  · refine (W20_arr m ρ c 3).trans ((Blend8.final_h (V19 m ρ) c).trans ?_)
    show Cert.Appnp.blendH (W19 m ρ c (Proc.devRef .tc main_v96)) (W19 m ρ c (Proc.devRef .tc main_v3)) (W19 m ρ c (Proc.devRef .tc main_v19)) = _
    rw [bagg, b3, b19]; rfl

/-- After propagation region 8: the same four in place, and the pair after 8 steps. -/
theorem inv9 : W22 m ρ c (Proc.devRef .tc main_v3) = h0K m c
    ∧ W22 m ρ c (Proc.devRef .tc main_v19) = dinvCol (dstOf (m ((c : Thread nD τ).loc main_arg1)))
    ∧ W22 m ρ c (Proc.devRef .tc main_v7) = srcOf (m ((c : Thread nD τ).loc main_arg1))
    ∧ W22 m ρ c (Proc.devRef .tc main_v10) = dstOf (m ((c : Thread nD τ).loc main_arg1))
    ∧ W22 m ρ c (Proc.devRef .tc main_v108_1) = (hopK (m ((c : Thread nD τ).loc main_arg1)) (h0K m c) 8).2
    ∧ W22 m ρ c (Proc.devRef .tc main_v108_0) = (hopK (m ((c : Thread nD τ).loc main_arg1)) (h0K m c) 8).1 := by
  obtain ⟨h3, h19, h7, h10, hs, -⟩ := inv8 m ρ c
  have b3 : W21 m ρ c (Proc.devRef .tc main_v3) = h0K m c := (kept9_v3 (W20 m ρ c)).trans h3
  have b19 : W21 m ρ c (Proc.devRef .tc main_v19) = dinvCol (dstOf (m ((c : Thread nD τ).loc main_arg1))) := (kept9_v19 (W20 m ρ c)).trans h19
  have b7 : W21 m ρ c (Proc.devRef .tc main_v7) = srcOf (m ((c : Thread nD τ).loc main_arg1)) := (kept9_v7 (W20 m ρ c)).trans h7
  have b10 : W21 m ρ c (Proc.devRef .tc main_v10) = dstOf (m ((c : Thread nD τ).loc main_arg1)) := (kept9_v10 (W20 m ρ c)).trans h10
  have bagg : W21 m ρ c (Proc.devRef .tc main_v107)
      = aggOf (srcOf (m ((c : Thread nD τ).loc main_arg1))) (dstOf (m ((c : Thread nD τ).loc main_arg1))) (hopK (m ((c : Thread nD τ).loc main_arg1)) (h0K m c) 7).2 :=
    (agg9 (W20 m ρ c)).trans (by rw [h7, h10, hs])
  refine ⟨?_, ?_, ?_, ?_, ?_, ?_⟩
  · exact (W22_arr m ρ c 1).trans (((dat9 (V21 m ρ) c).arrAt_in 1 rfl _).trans ((A_eq9 (V21 m ρ) c 1).trans b3))
  · exact (W22_arr m ρ c 2).trans (((dat9 (V21 m ρ) c).arrAt_in 2 rfl _).trans ((A_eq9 (V21 m ρ) c 2).trans b19))
  · exact (W22_of_ne m ρ c main_v7 (by decide)).trans b7
  · exact (W22_of_ne m ρ c main_v10 (by decide)).trans b10
  · refine (W22_arr m ρ c 4).trans ((Blend9.final_hs (V21 m ρ) c).trans ?_)
    show Cert.Appnp.blendHS (W21 m ρ c (Proc.devRef .tc main_v107)) (W21 m ρ c (Proc.devRef .tc main_v3)) (W21 m ρ c (Proc.devRef .tc main_v19)) = _
    rw [bagg, b3, b19]; rfl
  · refine (W22_arr m ρ c 3).trans ((Blend9.final_h (V21 m ρ) c).trans ?_)
    show Cert.Appnp.blendH (W21 m ρ c (Proc.devRef .tc main_v107)) (W21 m ρ c (Proc.devRef .tc main_v3)) (W21 m ρ c (Proc.devRef .tc main_v19)) = _
    rw [bagg, b3, b19]; rfl

/-- After propagation region 9: the same four in place, and the pair after 9 steps. -/
theorem inv10 : W24 m ρ c (Proc.devRef .tc main_v3) = h0K m c
    ∧ W24 m ρ c (Proc.devRef .tc main_v19) = dinvCol (dstOf (m ((c : Thread nD τ).loc main_arg1)))
    ∧ W24 m ρ c (Proc.devRef .tc main_v7) = srcOf (m ((c : Thread nD τ).loc main_arg1))
    ∧ W24 m ρ c (Proc.devRef .tc main_v10) = dstOf (m ((c : Thread nD τ).loc main_arg1))
    ∧ W24 m ρ c (Proc.devRef .tc main_v119_1) = (hopK (m ((c : Thread nD τ).loc main_arg1)) (h0K m c) 9).2
    ∧ W24 m ρ c (Proc.devRef .tc main_v119_0) = (hopK (m ((c : Thread nD τ).loc main_arg1)) (h0K m c) 9).1 := by
  obtain ⟨h3, h19, h7, h10, hs, -⟩ := inv9 m ρ c
  have b3 : W23 m ρ c (Proc.devRef .tc main_v3) = h0K m c := (kept10_v3 (W22 m ρ c)).trans h3
  have b19 : W23 m ρ c (Proc.devRef .tc main_v19) = dinvCol (dstOf (m ((c : Thread nD τ).loc main_arg1))) := (kept10_v19 (W22 m ρ c)).trans h19
  have b7 : W23 m ρ c (Proc.devRef .tc main_v7) = srcOf (m ((c : Thread nD τ).loc main_arg1)) := (kept10_v7 (W22 m ρ c)).trans h7
  have b10 : W23 m ρ c (Proc.devRef .tc main_v10) = dstOf (m ((c : Thread nD τ).loc main_arg1)) := (kept10_v10 (W22 m ρ c)).trans h10
  have bagg : W23 m ρ c (Proc.devRef .tc main_v118)
      = aggOf (srcOf (m ((c : Thread nD τ).loc main_arg1))) (dstOf (m ((c : Thread nD τ).loc main_arg1))) (hopK (m ((c : Thread nD τ).loc main_arg1)) (h0K m c) 8).2 :=
    (agg10 (W22 m ρ c)).trans (by rw [h7, h10, hs])
  refine ⟨?_, ?_, ?_, ?_, ?_, ?_⟩
  · exact (W24_arr m ρ c 1).trans (((dat10 (V23 m ρ) c).arrAt_in 1 rfl _).trans ((A_eq10 (V23 m ρ) c 1).trans b3))
  · exact (W24_arr m ρ c 2).trans (((dat10 (V23 m ρ) c).arrAt_in 2 rfl _).trans ((A_eq10 (V23 m ρ) c 2).trans b19))
  · exact (W24_of_ne m ρ c main_v7 (by decide)).trans b7
  · exact (W24_of_ne m ρ c main_v10 (by decide)).trans b10
  · refine (W24_arr m ρ c 4).trans ((Blend10.final_hs (V23 m ρ) c).trans ?_)
    show Cert.Appnp.blendHS (W23 m ρ c (Proc.devRef .tc main_v118)) (W23 m ρ c (Proc.devRef .tc main_v3)) (W23 m ρ c (Proc.devRef .tc main_v19)) = _
    rw [bagg, b3, b19]; rfl
  · refine (W24_arr m ρ c 3).trans ((Blend10.final_h (V23 m ρ) c).trans ?_)
    show Cert.Appnp.blendH (W23 m ρ c (Proc.devRef .tc main_v118)) (W23 m ρ c (Proc.devRef .tc main_v3)) (W23 m ρ c (Proc.devRef .tc main_v19)) = _
    rw [bagg, b3, b19]; rfl

/-- After propagation region 10: the same four in place, and the pair after 10 steps. -/
theorem inv11 : W26 m ρ c (Proc.devRef .tc main_v3) = h0K m c
    ∧ W26 m ρ c (Proc.devRef .tc main_v19) = dinvCol (dstOf (m ((c : Thread nD τ).loc main_arg1)))
    ∧ W26 m ρ c (Proc.devRef .tc main_v7) = srcOf (m ((c : Thread nD τ).loc main_arg1))
    ∧ W26 m ρ c (Proc.devRef .tc main_v10) = dstOf (m ((c : Thread nD τ).loc main_arg1))
    ∧ W26 m ρ c (Proc.devRef .tc main_v130_1) = (hopK (m ((c : Thread nD τ).loc main_arg1)) (h0K m c) 10).2
    ∧ W26 m ρ c (Proc.devRef .tc main_v130_0) = (hopK (m ((c : Thread nD τ).loc main_arg1)) (h0K m c) 10).1 := by
  obtain ⟨h3, h19, h7, h10, hs, -⟩ := inv10 m ρ c
  have b3 : W25 m ρ c (Proc.devRef .tc main_v3) = h0K m c := (kept11_v3 (W24 m ρ c)).trans h3
  have b19 : W25 m ρ c (Proc.devRef .tc main_v19) = dinvCol (dstOf (m ((c : Thread nD τ).loc main_arg1))) := (kept11_v19 (W24 m ρ c)).trans h19
  have b7 : W25 m ρ c (Proc.devRef .tc main_v7) = srcOf (m ((c : Thread nD τ).loc main_arg1)) := (kept11_v7 (W24 m ρ c)).trans h7
  have b10 : W25 m ρ c (Proc.devRef .tc main_v10) = dstOf (m ((c : Thread nD τ).loc main_arg1)) := (kept11_v10 (W24 m ρ c)).trans h10
  have bagg : W25 m ρ c (Proc.devRef .tc main_v129)
      = aggOf (srcOf (m ((c : Thread nD τ).loc main_arg1))) (dstOf (m ((c : Thread nD τ).loc main_arg1))) (hopK (m ((c : Thread nD τ).loc main_arg1)) (h0K m c) 9).2 :=
    (agg11 (W24 m ρ c)).trans (by rw [h7, h10, hs])
  refine ⟨?_, ?_, ?_, ?_, ?_, ?_⟩
  · exact (W26_arr m ρ c 1).trans (((dat11 (V25 m ρ) c).arrAt_in 1 rfl _).trans ((A_eq11 (V25 m ρ) c 1).trans b3))
  · exact (W26_arr m ρ c 2).trans (((dat11 (V25 m ρ) c).arrAt_in 2 rfl _).trans ((A_eq11 (V25 m ρ) c 2).trans b19))
  · exact (W26_of_ne m ρ c main_v7 (by decide)).trans b7
  · exact (W26_of_ne m ρ c main_v10 (by decide)).trans b10
  · refine (W26_arr m ρ c 4).trans ((Blend11.final_hs (V25 m ρ) c).trans ?_)
    show Cert.Appnp.blendHS (W25 m ρ c (Proc.devRef .tc main_v129)) (W25 m ρ c (Proc.devRef .tc main_v3)) (W25 m ρ c (Proc.devRef .tc main_v19)) = _
    rw [bagg, b3, b19]; rfl
  · refine (W26_arr m ρ c 3).trans ((Blend11.final_h (V25 m ρ) c).trans ?_)
    show Cert.Appnp.blendH (W25 m ρ c (Proc.devRef .tc main_v129)) (W25 m ρ c (Proc.devRef .tc main_v3)) (W25 m ρ c (Proc.devRef .tc main_v19)) = _
    rw [bagg, b3, b19]; rfl

/-- The result buffer at the last boundary holds the rows after ten propagation steps. -/
theorem result : W26 m ρ c (Proc.devRef .tc main_v130_0) = (hopK (m ((c : Thread nD τ).loc main_arg1)) (h0K m c) 10).1 :=
  (inv11 m ρ c).2.2.2.2.2

end Cert.KernelIdeal.Chain

end
-- ==== Proof.RefChain.lean ====
/-
  The reference as ten identical propagation steps.

  After the projection `h0 = x W^T + b`, the edge lists (each followed by one self-loop per node), the node weights
  `where(deg > 0, deg^(-1/2), 0)` and the edge normalisation (the product of the two ends' weights), the reference
  repeats one step ten times: gather the source's row for every edge, multiply it by the edge's normalisation,
  accumulate the products into the destinations, and blend: `0.9 * aggregate + 0.1 * h0`.  The step is stated once,
  as a function of the current rows, and the program's result is its tenth iterate from `h0`.
-/
import proofs.«176388_j37022618092150_2_alg».proof.Proof.RefRunP
import Idealize.ShloMosaic.PureOps.Ideal
import Idealize.ShloMosaic.PureOps.Ideal.Laws

set_option maxRecDepth 16384

noncomputable section

namespace Cert.ReferenceIdeal.Chain

open Cert.ReferenceIdeal Cert.ReferenceIdeal.Gen Idealize.ShloMosaic Idealize.ShloMosaic.TcCoe Idealize.SL.Sem

abbrev TNC : Type := (⟨S100000x128, .f32⟩ : BufTy).Contents (Elt Ideal)
abbrev TE : Type := (⟨S2x600000, .i32⟩ : BufTy).Contents (Elt Ideal)
abbrev TL : Type := (⟨S700000, .i32⟩ : BufTy).Contents (Elt Ideal)

/-- The source list: row 0 of the [2, 600000] edge array, followed by one self-loop per node. -/
def srcR (e : TE) : TL :=
  concatenate S700000 0 [⟨S600000, (shapeCast _ (extractStridedSlice S1x600000 ![0, 0] e slices_S2x600000_S1x600000_0_0) shapeCasts_S1x600000_S600000 : (⟨S600000, .i32⟩ : BufTy).Contents (Elt Ideal))⟩, ⟨S100000, iotaInDim S100000 32 0⟩] concatenates_S600000_S100000_S700000_d0

/-- The destination list: row 1 of the edge array, followed by one self-loop per node. -/
def dstR (e : TE) : TL :=
  concatenate S700000 0 [⟨S600000, (shapeCast _ (extractStridedSlice S1x600000 ![1, 0] e slices_S2x600000_S1x600000_1_0) shapeCasts_S1x600000_S600000 : (⟨S600000, .i32⟩ : BufTy).Contents (Elt Ideal))⟩, ⟨S100000, iotaInDim S100000 32 0⟩] concatenates_S600000_S100000_S700000_d0

/-- A list of node indices with the negative entries wrapped by the number of nodes. -/
def wrap (l : TL) : TL :=
  select (cmpi .slt l (broadcastInDim S700000 ![] bcast_S_S700000 (constantI S_ 32 0#32)))
    (addi l (broadcastInDim S700000 ![] bcast_S_S700000 (constantI S_ 32 100000#32))) l

/-- A list as an index column [700000, 1]. -/
def colOf (l : TL) : (⟨S700000x1, .i32⟩ : BufTy).Contents (Elt Ideal) :=
  broadcastInDim S700000x1 ![0] bcast_S700000_S700000x1_0 l

/-- The number of edges into every node. -/
def degR (e : TE) : (⟨S100000, .f32⟩ : BufTy).Contents (Elt Ideal) :=
  Host.scatterAdd (F := Ideal) (φ := .f32) scatter_S100000_S700000x1_S700000_n_0_0_1 (broadcastInDim S100000 ![] bcast_S_S100000 (constant (F := Ideal) S_ .f32 0x00000000#32))
    (colOf (dstR e)) (broadcastInDim S700000 ![] bcast_S_S700000 (constant (F := Ideal) S_ .f32 0x3F800000#32))

/-- The node weights `where(deg > 0, deg^(-1/2), 0)`. -/
def dinvR (e : TE) : (⟨S100000, .f32⟩ : BufTy).Contents (Elt Ideal) :=
  select (cmpf (F := Ideal) (φ := .f32) .ogt (degR e) (broadcastInDim S100000 ![] bcast_S_S100000 (constant (F := Ideal) S_ .f32 0x00000000#32)))
    (Host.rsqrt (F := Ideal) (φ := .f32) (degR e)) (broadcastInDim S100000 ![] bcast_S_S100000 (id (constant (F := Ideal) S_ .f32 0x00000000#32)))

/-- Every edge's normalisation: its source's weight times its destination's weight. -/
def normR (e : TE) : (⟨S700000, .f32⟩ : BufTy).Contents (Elt Ideal) :=
  mulf (F := Ideal) (φ := .f32) (Host.gather gather_S100000_S700000x1_S700000_n_0_n_n_0_1_1 (dinvR e) (colOf (wrap (srcR e))))
    (Host.gather gather_S100000_S700000x1_S700000_n_0_n_n_0_1_1 (dinvR e) (colOf (wrap (dstR e))))

/-- The normalisation laid over the 128 lanes of every edge's row. -/
def normEC (e : TE) : (⟨S700000x128, .f32⟩ : BufTy).Contents (Elt Ideal) :=
  broadcastInDim S700000x128 ![0, 1] bcast_S700000x1_S700000x128_0_1 (broadcastInDim S700000x1 ![0] bcast_S700000_S700000x1_0 (normR e))

/-- The projection `x W^T + b`. -/
def h0R (x0 : TNC) (x2 : (⟨S128x128, .f32⟩ : BufTy).Contents (Elt Ideal)) (x3 : (⟨S128, .f32⟩ : BufTy).Contents (Elt Ideal)) : TNC :=
  addf (F := Ideal) (φ := .f32) (Host.dotGeneral (F := Ideal) (φ₁ := .f32) (φ₂ := .f32) dot_S100000x128_S128x128_S100000x128_1_0_0_1_n_n none x0 (transpose S128x128 [1, 0] x2 transposes_S128x128_S128x128_1_0))
    (broadcastInDim S100000x128 ![0, 1] bcast_S1x128_S100000x128_0_1 (broadcastInDim S1x128 ![1] bcast_S128_S1x128_1 x3))

/-- One propagation step: from the rows `h` to `0.9 * (sum over the edges into a node of normalisation * h(source)) + 0.1 * h0`. -/
def refStep (e : TE) (h0 h : TNC) : TNC :=
  addf (F := Ideal) (φ := .f32) (mulf (broadcastInDim S100000x128 ![] bcast_S_S100000x128 (constant (F := Ideal) S_ .f32 0x3F666666#32))
      (Host.scatterAdd (F := Ideal) (φ := .f32) scatter_S100000x128_S700000x1_S700000x128_1_0_0_1
        (broadcastInDim S100000x128 ![] bcast_S_S100000x128 (constant (F := Ideal) S_ .f32 0x00000000#32))
        (colOf (dstR e))
        (mulf (normEC e)
          (Host.gather gather_S100000x128_S700000x1_S700000x128_1_0_n_n_0_1_1128 h (colOf (wrap (srcR e)))))))
    (mulf (broadcastInDim S100000x128 ![] bcast_S_S100000x128 (constant (F := Ideal) S_ .f32 0x3DCCCCCD#32)) h0)

/-- The rows after `k` steps. -/
def refIter (e : TE) (h0 : TNC) : ℕ → TNC
  | 0 => h0
  | k + 1 => refStep e h0 (refIter e h0 k)

/-- A step's term, spelt with any arrays in the places of the zero rows, the two index columns, the normalisation, the
    projection and the current rows, is the step as soon as each of them is the named one. -/
theorem step_congr (e : TE) (h0 h : TNC) (z' : TNC) (d' s' : (⟨S700000x1, .i32⟩ : BufTy).Contents (Elt Ideal)) (n' : (⟨S700000x128, .f32⟩ : BufTy).Contents (Elt Ideal)) (h0' h' : TNC)
    (hz : z' = broadcastInDim S100000x128 ![] bcast_S_S100000x128 (constant (F := Ideal) S_ .f32 0x00000000#32))
    (hd : d' = colOf (dstR e)) (hs : s' = colOf (wrap (srcR e))) (hn : n' = normEC e) (hh0 : h0' = h0) (hh : h' = h) :
    addf (F := Ideal) (φ := .f32) (mulf (broadcastInDim S100000x128 ![] bcast_S_S100000x128 (constant (F := Ideal) S_ .f32 0x3F666666#32))
        (Host.scatterAdd (F := Ideal) (φ := .f32) scatter_S100000x128_S700000x1_S700000x128_1_0_0_1 z' d'
          (mulf n' (Host.gather gather_S100000x128_S700000x1_S700000x128_1_0_n_n_0_1_1128 h' s'))))
      (mulf (broadcastInDim S100000x128 ![] bcast_S_S100000x128 (constant (F := Ideal) S_ .f32 0x3DCCCCCD#32)) h0')
    = refStep e h0 h := by
  subst hz hd hs hn hh0 hh
  rfl

set_option maxHeartbeats 4000000 in
/-- The reference's result is the tenth iterate of the step from the projection: the program's term is peeled one step
    at a time, each step's index columns, normalisation and projection being the named ones. -/
theorem result_eq (m : (ℓ : Loc nD τ sig) → Buf (Elt Ideal) ℓ) (c : Dev nD) :
    Cert.ReferenceIdeal.ValueP.res_main_v214 (F := Ideal) m c
      = refIter (m ((c.tc : Thread nD τ).loc main_arg1))
          (h0R (m ((c.tc : Thread nD τ).loc main_arg0)) (m ((c.tc : Thread nD τ).loc main_arg2)) (m ((c.tc : Thread nD τ).loc main_arg3))) 10 := by
  unfold Cert.ReferenceIdeal.ValueP.res_main_v214
  show _ = refStep _ _ (refStep _ _ (refStep _ _ (refStep _ _ (refStep _ _ (refStep _ _ (refStep _ _ (refStep _ _ (refStep _ _ (refStep _ _ _)))))))))
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  refine (step_congr _ _ _ _ _ _ _ _ _ rfl rfl rfl rfl rfl ?_)
  rfl

/-- A step read at an entry. -/
theorem refStep_apply (e : TE) (h0 h : TNC) (i : S100000x128.Idx) :
    refStep e h0 h i = (Ideal.ofBits .f32 0x3F666666#32 : EReal)
        * Host.scatterAdd (F := Ideal) (φ := .f32) scatter_S100000x128_S700000x1_S700000x128_1_0_0_1
            (broadcastInDim S100000x128 ![] bcast_S_S100000x128 (constant (F := Ideal) S_ .f32 0x00000000#32))
            (colOf (dstR e))
            (fun j => (normEC e j * Host.gather gather_S100000x128_S700000x1_S700000x128_1_0_n_n_0_1_1128 h (colOf (wrap (srcR e))) j : EReal)) i
      + (Ideal.ofBits .f32 0x3DCCCCCD#32 : EReal) * h0 i := rfl

end Cert.ReferenceIdeal.Chain

end
-- ==== Proof.LibDegreeWeight.lean ====
/-
  The two facts about extended reals that join the two arrangements of a degree-normalised neighbourhood sum.

  With `δ = where(deg > 0, deg^(-1/2), 0)` the weight of a node, one program scales every message by the product
  `δ(src) · δ(dst)` before summing the messages of a destination, the other scales messages by `δ(src)` only and
  multiplies the destination's sum by `δ(dst)` afterwards.  Multiplication distributes over a sum of extended reals
  when the factor is nonnegative and finite — whatever the summands are, infinities of both signs included — and the
  weight `δ` is nonnegative and finite for every extended real `deg`.
-/
import Idealize.ShloMosaic.PureOps.Ideal
import Idealize.ShloMosaic.PureOps.Ideal.Laws

noncomputable section

namespace Idealize.ShloMosaic.DegreeWeight

open Idealize.ShloMosaic

/-- The weight `where(x > 0, x^(-1/2), 0)` is nonnegative and finite, for every extended real `x`: at `⊥` and at a
    real `x ≤ 0` it is `0`, at `⊤` it is `⊤^(-1/2) = 0`, at a real `x > 0` it is the real `(√x)⁻¹`. -/
theorem weight_nonneg_ne_top (x : EReal) :
    0 ≤ Scalar.select (Ideal.cmp .ogt x 0) (Ideal.rsqrt x) 0
      ∧ Scalar.select (Ideal.cmp .ogt x 0) (Ideal.rsqrt x) 0 ≠ ⊤ := by
  unfold Scalar.select Ideal.cmp
  induction x using EReal.rec with
  | bot => simp
  | top => simp [Ideal.rsqrt_top]
  | coe r =>
    by_cases hr : 0 < r
    · have h1 : ((0 : EReal) < (r : EReal)) := by exact_mod_cast hr
      have h2 : ¬ r < 0 := not_lt.mpr hr.le
      have h3 : r ≠ 0 := hr.ne'
      simp only [h1, decide_true, BitVec.ofBool_true, if_true, Ideal.rsqrt_coe, h2, h3, if_false]
      refine ⟨?_, EReal.coe_ne_top _⟩
      exact_mod_cast inv_nonneg.mpr (Real.sqrt_nonneg r)
    · have h1 : ¬ ((0 : EReal) < (r : EReal)) := by exact_mod_cast hr
      simp [h1]

/-- A nonnegative finite factor distributes over a finite sum of extended reals. -/
theorem mul_sum {ι : Type*} (s : Finset ι) (a : EReal) (h0 : 0 ≤ a) (ht : a ≠ ⊤) (f : ι → EReal) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- Scaling a destination's sum of source-weighted messages by the destination's weight `a`, and adding the bias,
    is summing the messages weighted by the product of the two weights: `v j` is message `j`'s payload, `w j` its
    source's weight and `wd j` its destination's weight, which is `a` for every message of this destination. -/
theorem scaled_sum_eq {ι : Type*} (s : Finset ι) (a : EReal) (h0 : 0 ≤ a) (ht : a ≠ ⊤) (v w wd : ι → EReal)
    (hwd : ∀ j ∈ s, wd j = a) (b : EReal) :
    a * (0 + ∑ j ∈ s, v j * w j) + b = (0 + ∑ j ∈ s, (w j * wd j) * v j) + b := by
  rw [zero_add, zero_add, mul_sum s a h0 ht]
  congr 1
  refine Finset.sum_congr rfl fun j hj => ?_
  rw [hwd j hj, mul_comm (w j) a, mul_assoc, mul_comm (w j) (v j)]

end Idealize.ShloMosaic.DegreeWeight

end
-- ==== Proof.HopAlgebra.lean ====
/-
  The one law that joins the two arrangements of a propagation step.

  A step gathers a row per edge, accumulates the edges' rows into their destination nodes, and normalises by the
  node weights `D` of the edge's two ends.  One arrangement scales every node's row by its weight BEFORE the gather
  and the destination's sum by `a * D(destination)` afterwards; the other multiplies every edge's row by the product
  of the two weights before the accumulation and the sum by `a` afterwards.  The two agree on the extended reals for
  ANY rows `h`, infinite entries included, as soon as the weights are nonnegative and finite: that is what lets
  the destination's weight move across the sum.
-/
import Idealize.ShloMosaic.Lib.ValueIdx
import Idealize.ShloMosaic.PureOps.Ideal.Laws
import proofs.«176388_j37022618092150_2_alg».proof.Proof.LibDegreeWeight

noncomputable section

namespace Cert.Appnp

open Idealize.ShloMosaic

/-- Scaling by the source's weight before the gather and by `a` times the destination's weight after the
    accumulation, against scaling every gathered row by the product `nrm` of its two ends' weights: `nrm j` need
    only be that product for the updates `j` that land somewhere. -/
theorem hop_eq {s si su gi : Shape} {w : Nat} (dS : ScatterDims s si su) (dG : GatherDims s gi su)
    (z : FVec Ideal s .f32) (hz : ∀ i, z i = 0) (dstB : IVec si w) (srcB : IVec gi w)
    (D h : FVec Ideal s .f32) (hD0 : ∀ i, (0 : EReal) ≤ D i) (hDt : ∀ i, D i ≠ (⊤ : EReal))
    (nrm : FVec Ideal su .f32)
    (hn : ∀ j i, dS.resultIdx? j dstB = some i → nrm j = (D (dG.operandIdx j srcB) * D i : EReal))
    (a b0 : EReal) (i : s.Idx) :
    (a * D i) * Host.scatterAdd dS z dstB (Host.gather dG (fun k => (D k * h k : EReal)) srcB) i + b0
      = a * Host.scatterAdd dS z dstB (fun j => (nrm j * Host.gather dG h srcB j : EReal)) i + b0 := by
  unfold Host.scatterAdd Host.gather
  simp only [Ideal.hostScatterAdd_def]
  unfold Ideal.hostScatterAdd
  rw [hz i, zero_add, zero_add, mul_assoc, Idealize.ShloMosaic.DegreeWeight.mul_sum _ (D i) (hD0 i) (hDt i)]
  refine congrArg (fun t : EReal => a * t + b0) (Finset.sum_congr rfl fun j hj => ?_)
  show (D i * (D (dG.operandIdx j srcB) * h (dG.operandIdx j srcB)) : EReal) = nrm j * h (dG.operandIdx j srcB)
  rw [hn j i (Finset.mem_filter.mp hj).2, mul_comm (D (dG.operandIdx j srcB)) (D i), mul_assoc]

end Cert.Appnp

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.Bridge.lean ====
/-
  The kernel program's recurrence and the reference's step are one function.

  Write `D(n)` for node n's weight `where(deg > 0, deg^(-1/2), 0)`.  The kernel program keeps the rows `h` and the
  weighted rows `D · h`, aggregates the weighted rows over the edges and multiplies node n's sum by `0.9 · D(n)`; the
  reference multiplies every edge's gathered row by `D(source) · D(destination)`, aggregates, and multiplies by
  `0.9`.  An edge's row lands on node n exactly when the edge's destination entry, read signed, is n — then its
  wrapped and clamped destination is n too, so the reference's second factor is `D(n)` for every row that lands on
  n — and `D(n)` is nonnegative and finite, so it moves across the sum over the edges, whatever the rows hold.
  By induction on the number of steps the two programs' rows agree, and the kernel's second array is `D · h`.
-/
import proofs.«176388_j37022618092150_2_alg».proof.Proof.KHop
import proofs.«176388_j37022618092150_2_alg».proof.Proof.RefChain
import proofs.«176388_j37022618092150_2_alg».proof.Proof.HopAlgebra
import proofs.«176388_j37022618092150_2_alg».proof.Proof.LibRowTake
import proofs.«176388_j37022618092150_2_alg».proof.Proof.LibDegreeWeight
import Idealize.ShloMosaic.Lib.Pipeline.Value
import Idealize.ShloMosaic.Lib.ValueIdx

set_option maxRecDepth 16384

noncomputable section

namespace Cert.Appnp.Bridge

open Idealize.ShloMosaic Idealize.ShloMosaic.ValueIdx Idealize.ShloMosaic.RowTake
open Cert.KernelIdeal.Host Cert.ReferenceIdeal.Chain Cert.Appnp

/-! ## The two programs' edge columns and weights are the same arrays -/

theorem src_eq (e : TE) : srcCol (srcOf e) = colOf (wrap (srcR e)) := rfl
theorem dst_eq (e : TE) : dstCol (dstOf e) = colOf (dstR e) := rfl
theorem dinv_eq (e : TE) : dinvOf (dstOf e) = dinvR e := rfl

/-- Node weights over the rows' entries: entry (n, c) carries node n's weight. -/
def D (e : TE) : SNC.Idx → EReal := fun i => dinvR e (ix1 (⟨(i 0).val, idx2_lt0 i⟩ : Fin 100000))

/-- The weight `where(deg > 0, deg^(-1/2), 0)` is nonnegative and finite, whatever the degree array holds. -/
theorem weight_facts (deg : (⟨Cert.ReferenceIdeal.S100000, .f32⟩ : BufTy).Contents (Elt Ideal)) (j : Cert.ReferenceIdeal.S100000.Idx) :
    (0 : EReal) ≤ select (cmpf (F := Ideal) (φ := .f32) .ogt deg (broadcastInDim Cert.ReferenceIdeal.S100000 ![] Cert.ReferenceIdeal.Gen.bcast_S_S100000 (constant (F := Ideal) Cert.ReferenceIdeal.S_ .f32 0x00000000#32)))
        (Host.rsqrt (F := Ideal) (φ := .f32) deg) (broadcastInDim Cert.ReferenceIdeal.S100000 ![] Cert.ReferenceIdeal.Gen.bcast_S_S100000 (id (constant (F := Ideal) Cert.ReferenceIdeal.S_ .f32 0x00000000#32))) j
      ∧ select (cmpf (F := Ideal) (φ := .f32) .ogt deg (broadcastInDim Cert.ReferenceIdeal.S100000 ![] Cert.ReferenceIdeal.Gen.bcast_S_S100000 (constant (F := Ideal) Cert.ReferenceIdeal.S_ .f32 0x00000000#32)))
        (Host.rsqrt (F := Ideal) (φ := .f32) deg) (broadcastInDim Cert.ReferenceIdeal.S100000 ![] Cert.ReferenceIdeal.Gen.bcast_S_S100000 (id (constant (F := Ideal) Cert.ReferenceIdeal.S_ .f32 0x00000000#32))) j ≠ (⊤ : EReal) := by
  have h := Idealize.ShloMosaic.DegreeWeight.weight_nonneg_ne_top (deg j)
  rw [select_apply, cmpf_apply]
  show (0 : EReal) ≤ Scalar.select (Ideal.cmp .ogt (deg j) (Ideal.ofBits .f32 0x00000000#32)) (Ideal.rsqrt (deg j)) (Ideal.ofBits .f32 0x00000000#32)
    ∧ Scalar.select (Ideal.cmp .ogt (deg j) (Ideal.ofBits .f32 0x00000000#32)) (Ideal.rsqrt (deg j)) (Ideal.ofBits .f32 0x00000000#32) ≠ (⊤ : EReal)
  rw [Ideal.ofBits_zero_f32]
  exact h

/-- The weight is nonnegative and finite. -/
theorem D_facts (e : TE) (i : SNC.Idx) : (0 : EReal) ≤ D e i ∧ D e i ≠ (⊤ : EReal) :=
  weight_facts (degR e) (ix1 (⟨(i 0).val, idx2_lt0 i⟩ : Fin 100000))

/-- The kernel's weight column at a row is the weight. -/
theorem dinvCol_row (e : TE) (i : SNC.Idx) : dinvCol (dstOf e) (rowOf i) = D e i := by
  unfold dinvCol
  refine (shapeCast_apply (dinvOf (dstOf e)) Cert.KernelIdeal.Gen.shapeCasts_S100000_S100000x1 (rowOf i)
    (ix1 (⟨(i 0).val, idx2_lt0 i⟩ : Fin 100000)) ?_).trans ?_
  · rw [Shape.rowMajor_val_one, Shape.rowMajor_val_two]
    show (i 0).val = (i 0).val * 1 + 0
    omega
  · exact congrFun (dinv_eq e) _

/-! ## The index columns and the gathers, read at an entry -/

theorem colOf_apply (l : TL) (e' : Fin 700000) : colOf l (ix2 e' (0 : Fin 1)) = l (ix1 e') := by
  unfold colOf
  exact broadcastInDim_apply _ Cert.ReferenceIdeal.Gen.bcast_S700000_S700000x1_0 l (ix2 e' (0 : Fin 1)) (ix1 e') (fun a => match a with
    | ⟨0, _⟩ => by show e'.val = if (700000 : Nat) = 1 then 0 else e'.val; rw [if_neg (by decide)])

/-- A nonnegative entry is not wrapped. -/
theorem wrap_of_nonneg (l : TL) (e' : Fin 700000) (n : Nat) (h : (l (ix1 e')).toInt = (n : Int)) : wrap l (ix1 e') = l (ix1 e') := by
  have hs : (l (ix1 e')).slt 0#32 = false := by
    simp [BitVec.slt, h]
  show Scalar.select (BitVec.ofBool ((l (ix1 e')).slt 0#32)) (IntOp.addi (l (ix1 e')) 100000#32) (l (ix1 e')) = l (ix1 e')
  rw [hs]
  rfl

theorem flat_gather_apply (x : (⟨Cert.ReferenceIdeal.S100000, .f32⟩ : BufTy).Contents (Elt Ideal)) (idx : (⟨Cert.ReferenceIdeal.S700000x1, .i32⟩ : BufTy).Contents (Elt Ideal)) (e' : Fin 700000) :
    Host.gather Cert.ReferenceIdeal.gather_S100000_S700000x1_S700000_n_0_n_n_0_1_1 x idx (ix1 e') = x (ix1 (clampRow 100000 (by decide) (idx (ix2 e' (0 : Fin 1))).toInt)) :=
  congrArg x (flat_operandIdx (N := 100000) (R := 700000) (by decide) Cert.ReferenceIdeal.gather_S100000_S700000x1_S700000_n_0_n_n_0_1_1.wf idx e')

/-- An edge's normalisation: the weights at its (wrapped, clamped) source and destination. -/
theorem normEC_apply (e : TE) (e' : Fin 700000) (c' : Fin 128) :
    normEC e (ix2 e' c') = (dinvR e (ix1 (clampRow 100000 (by decide) (colOf (wrap (srcR e)) (ix2 e' (0 : Fin 1))).toInt))
      * dinvR e (ix1 (clampRow 100000 (by decide) (colOf (wrap (dstR e)) (ix2 e' (0 : Fin 1))).toInt)) : EReal) := by
  unfold normEC
  rw [broadcastInDim_apply _ Cert.ReferenceIdeal.Gen.bcast_S700000x1_S700000x128_0_1 _ (ix2 e' c') (ix2 e' (0 : Fin 1)) (fun a => match a with
    | ⟨0, _⟩ => by show e'.val = if (700000 : Nat) = 1 then 0 else e'.val; rw [if_neg (by decide)]
    | ⟨1, _⟩ => by show 0 = if (1 : Nat) = 1 then 0 else c'.val; rw [if_pos rfl])]
  rw [broadcastInDim_apply _ Cert.ReferenceIdeal.Gen.bcast_S700000_S700000x1_0 (normR e) (ix2 e' (0 : Fin 1)) (ix1 e') (fun a => match a with
    | ⟨0, _⟩ => by show e'.val = if (700000 : Nat) = 1 then 0 else e'.val; rw [if_neg (by decide)])]
  show (Host.gather Cert.ReferenceIdeal.gather_S100000_S700000x1_S700000_n_0_n_n_0_1_1 (dinvR e) (colOf (wrap (srcR e))) (ix1 e')
    * Host.gather Cert.ReferenceIdeal.gather_S100000_S700000x1_S700000_n_0_n_n_0_1_1 (dinvR e) (colOf (wrap (dstR e))) (ix1 e') : EReal) = _
  rw [flat_gather_apply, flat_gather_apply]

/-- For an edge row that lands on an entry of node n, the normalisation is the source's weight times node n's. -/
theorem norm_fact (e : TE) (j : Cert.ReferenceIdeal.S700000x128.Idx) (i : SNC.Idx)
    (h : Cert.ReferenceIdeal.scatter_S100000x128_S700000x1_S700000x128_1_0_0_1.resultIdx? j (colOf (dstR e)) = some i) :
    normEC e j = (D e (Cert.ReferenceIdeal.gather_S100000x128_S700000x1_S700000x128_1_0_n_n_0_1_1128.operandIdx j (colOf (wrap (srcR e)))) * D e i : EReal) := by
  obtain ⟨e', c', rfl⟩ : ∃ (e' : Fin 700000) (c' : Fin 128), j = ix2 e' c' := ⟨j 0, j 1, eq_ix2 j⟩
  have hrow : (dstR e (ix1 e')).toInt = ((i 0).val : Int) := by
    have := rowScatter_row_of_some (N := 100000) (C := 128) (R := 700000) Cert.ReferenceIdeal.scatter_S100000x128_S700000x1_S700000x128_1_0_0_1.wf (colOf (dstR e)) e' c' i h
    rwa [colOf_apply] at this
  rw [normEC_apply]
  have hop : Cert.ReferenceIdeal.gather_S100000x128_S700000x1_S700000x128_1_0_n_n_0_1_1128.operandIdx (ix2 e' c') (colOf (wrap (srcR e)))
      = ix2 (clampRow 100000 (by decide) (colOf (wrap (srcR e)) (ix2 e' (0 : Fin 1))).toInt) c' :=
    row_operandIdx (N := 100000) (C := 128) (R := 700000) (by decide) Cert.ReferenceIdeal.gather_S100000x128_S700000x1_S700000x128_1_0_n_n_0_1_1128.wf (colOf (wrap (srcR e))) e' c'
  rw [hop]
  have hd : colOf (wrap (dstR e)) (ix2 e' (0 : Fin 1)) = dstR e (ix1 e') := by
    rw [colOf_apply, wrap_of_nonneg _ _ _ hrow]
  rw [hd, clampRow_of_eq (by decide) _ (⟨(i 0).val, idx2_lt0 i⟩ : Fin 100000) hrow]
  rfl

/-! ## One step, and the induction -/

/-- The kernel's node-wise step on the aggregation of the weighted rows `D · h` is the reference's step on `h`. -/
theorem step_eq (e : TE) (h0 h : TNC) (i : SNC.Idx) :
    blendH (aggOf (srcOf e) (dstOf e) (fun k => (D e k * h k : EReal))) h0 (dinvCol (dstOf e)) i = refStep e h0 h i := by
  rw [refStep_apply]
  unfold blendH
  rw [dinvCol_row]
  exact hop_eq Cert.ReferenceIdeal.scatter_S100000x128_S700000x1_S700000x128_1_0_0_1 Cert.ReferenceIdeal.gather_S100000x128_S700000x1_S700000x128_1_0_n_n_0_1_1128 _ (fun _ => Ideal.ofBits_zero_f32)
    (colOf (dstR e)) (colOf (wrap (srcR e))) (D e) h (fun k => (D_facts e k).1) (fun k => (D_facts e k).2)
    (normEC e) (norm_fact e) c9 (c1 * h0 i) i

/-- After `k` steps the kernel program's rows are the reference's, and its second array is the rows times the weights. -/
theorem main (e : TE) (h0 : TNC) : ∀ k : ℕ, (Cert.KernelIdeal.Chain.hopK e h0 k).1 = refIter e h0 k
      ∧ (Cert.KernelIdeal.Chain.hopK e h0 k).2 = fun i => (D e i * (Cert.KernelIdeal.Chain.hopK e h0 k).1 i : EReal)
  | 0 => ⟨rfl, funext fun i => by
      show scale h0 (dinvCol (dstOf e)) i = _
      unfold scale
      rw [dinvCol_row]
      rfl⟩
  | k + 1 => by
    obtain ⟨ih1, ih2⟩ := main e h0 k
    have h1 : (Cert.KernelIdeal.Chain.hopK e h0 (k + 1)).1 = refIter e h0 (k + 1) := by
      funext i
      show blendH (aggOf (srcOf e) (dstOf e) (Cert.KernelIdeal.Chain.hopK e h0 k).2) h0 (dinvCol (dstOf e)) i = refStep e h0 (refIter e h0 k) i
      rw [ih2, ih1]
      exact step_eq e h0 (refIter e h0 k) i
    refine ⟨h1, funext fun i => ?_⟩
    show blendHS (aggOf (srcOf e) (dstOf e) (Cert.KernelIdeal.Chain.hopK e h0 k).2) h0 (dinvCol (dstOf e)) i
      = (D e i * (Cert.KernelIdeal.Chain.hopK e h0 (k + 1)).1 i : EReal)
    unfold blendHS
    rw [dinvCol_row]
    rfl

end Cert.Appnp.Bridge

end
-- ==== Proof.H0Eq.lean ====
/-
  The projection, two ways.

  The kernel program's first step takes the weight matrix transposed and the bias laid as a row [1, 128], and computes at
  row p and lane q the sum over j of x (p, j) * wt (j, q) plus the row's entry at (0, q).  The reference contracts x with
  the same transposed matrix and adds the bias broadcast first to a row and then down the 100000 rows.  Entry by entry
  the two are one sum plus one bias entry: the contraction at (p, q) is the sum over j of x (p, j) times the transposed
  matrix at (j, q) (the kernel side's change of the matrix's element type is the identity on the extended reals), and
  both layouts of the bias read, at lane q, the bias at q.
-/
import proofs.«176388_j37022618092150_2_alg».proof.Proof.KHost
import proofs.«176388_j37022618092150_2_alg».proof.Proof.RefChain
import proofs.«176388_j37022618092150_2_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.Appnp.H0Eq

open Cert.ReferenceIdeal Cert.ReferenceIdeal.Gen Idealize.ShloMosaic Idealize.ShloMosaic.TcCoe Idealize.SL.Sem Idealize.ShloMosaic.ValueIdx

/-! ## The reference's contraction at one entry -/

/-- The operand indices of the product at output index i and contraction index k: row (i 0) and column k of the left
    operand, row k and column (i 1) of the right one. -/
theorem lhs_row (i : S100000x128.Idx) (k : dot_S100000x128_S128x128_S100000x128_1_0_0_1_n_n.contr.Idx) : (dot_S100000x128_S128x128_S100000x128_1_0_0_1_n_n.lhsIdx i k 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_contr (i : S100000x128.Idx) (k : dot_S100000x128_S128x128_S100000x128_1_0_0_1_n_n.contr.Idx) : (dot_S100000x128_S128x128_S100000x128_1_0_0_1_n_n.lhsIdx i k 1).val = (k ⟨0, by decide⟩).val :=
  dot_S100000x128_S128x128_S100000x128_1_0_0_1_n_n.lhsIdx_val_of_single rfl i k
theorem rhs_contr (i : S100000x128.Idx) (k : dot_S100000x128_S128x128_S100000x128_1_0_0_1_n_n.contr.Idx) : (dot_S100000x128_S128x128_S100000x128_1_0_0_1_n_n.rhsIdx i k 0).val = (k ⟨0, by decide⟩).val :=
  dot_S100000x128_S128x128_S100000x128_1_0_0_1_n_n.rhsIdx_val_of_single rfl i k
theorem rhs_col (i : S100000x128.Idx) (k : dot_S100000x128_S128x128_S100000x128_1_0_0_1_n_n.contr.Idx) : (dot_S100000x128_S128x128_S100000x128_1_0_0_1_n_n.rhsIdx i k 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The contraction at (p, q): the sum over j of x (p, j) * y (j, q). -/
theorem dot_apply (x : FVec Ideal S100000x128 .f32) (y : FVec Ideal S128x128 .f32) (p : Fin 100000) (q : Fin 128) :
    Host.dotGeneral (F := Ideal) dot_S100000x128_S128x128_S100000x128_1_0_0_1_n_n none x y (ix2 p q) = ∑ j : Fin 128, x (ix2 p j) * y (ix2 j q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_row _ _
    | ⟨1, _⟩ => exact (lhs_contr _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The bias at one entry, both ways -/

/-- The bias broadcast to a row and then down the rows reads, at (p, q), the bias at q. -/
theorem bias_apply (x3 : (⟨S128, .f32⟩ : BufTy).Contents (Elt Ideal)) (p : Fin 100000) (q : Fin 128) :
    broadcastInDim S100000x128 ![0, 1] bcast_S1x128_S100000x128_0_1 (broadcastInDim S1x128 ![1] bcast_S128_S1x128_1 x3) (ix2 p q) = x3 (ix1 q) :=
  (broadcastInDim_apply _ bcast_S1x128_S100000x128_0_1 (broadcastInDim S1x128 ![1] bcast_S128_S1x128_1 x3) (ix2 p q) (ix2 (0 : Fin 1) q) (fun a => match a with
    | ⟨0, _⟩ => by show (0 : ℕ) = if (1 : Nat) = 1 then 0 else p.val; rw [if_pos rfl]
    | ⟨1, _⟩ => by show q.val = if (128 : Nat) = 1 then 0 else q.val; rw [if_neg (by decide)])).trans
  (broadcastInDim_apply _ bcast_S128_S1x128_1 x3 (ix2 (0 : Fin 1) q) (ix1 q) (fun a => match a with
    | ⟨0, _⟩ => by show q.val = if (128 : Nat) = 1 then 0 else q.val; rw [if_neg (by decide)]))

/-- The bias laid as a row reads, at (0, q), the bias at q. -/
theorem biasRow_apply (x3 : (⟨S128, .f32⟩ : BufTy).Contents (Elt Ideal)) (q : Fin 128) :
    Cert.KernelIdeal.Host.biasRow x3 (ix2 (0 : Fin 1) q) = x3 (ix1 q) := by
  unfold Cert.KernelIdeal.Host.biasRow
  exact shapeCast_a_1a_apply x3 _ (0 : Fin 1) q

/-! ## The two projections agree -/

/-- The projection of the kernel program's first step, at the transposed matrix and the bias row, is the reference's. -/
theorem h0_eq (x0 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) :
    Cert.Appnp.linear x0 (Cert.KernelIdeal.Host.wtOf x2) (Cert.KernelIdeal.Host.biasRow x3) = Cert.ReferenceIdeal.Chain.h0R x0 x2 x3 := by
  funext i
  obtain ⟨p, q, rfl⟩ : ∃ (p : Fin 100000) (q : Fin 128), i = ix2 p q := ⟨i 0, i 1, eq_ix2 i⟩
  unfold Cert.ReferenceIdeal.Chain.h0R
  rw [addf_apply, dot_apply, bias_apply]
  unfold Cert.Appnp.linear
  show (∑ j : Fin 128, x0 (ix2 p j) * Cert.KernelIdeal.Host.wtOf x2 (ix2 j q)) + Cert.KernelIdeal.Host.biasRow x3 (ix2 (0 : Fin 1) q) = _
  rw [biasRow_apply]
  rfl

end Cert.Appnp.H0Eq

end
-- ==== Proof.lean ====
/-
  The certificate of an APPNP propagation kernel against its jnp reference, on the extended reals.

  Both programs project the node features, `h0 = x W^T + b`, build the same edge lists with one self-loop per node,
  count every node's incoming edges and take the node weight `D = where(deg > 0, deg^(-1/2), 0)`, and then repeat ten
  times `h <- 0.9 * (sum over the edges into a node of D(source) D(destination) h(source)) + 0.1 * h0`.  The
  reference multiplies every edge's gathered row by the product of the two weights.  The kernel program keeps, beside
  `h`, the rows `D · h`, gathers those, and multiplies node n's sum by `0.9 · D(n)` inside its blend kernel: the
  destination's weight has moved across the sum over the edges.  On the extended reals that is legitimate because the
  weight is nonnegative and finite for every degree, whatever the rows hold, so the precondition is never opened.

  The kernel program is twelve kernel regions among host stretches.  Its run is the generated frame's segments with
  the result buffer read at the last boundary (KernelRun); every region's output array is one whole-array function of
  its inputs (Linear0, Scale1, Blend2 … Blend11), every host stretch is read at the buffers the next region takes
  (KHost), and the walk through the twelve regions gives the result as the tenth iterate of a recurrence on pairs
  (KernelChain, KHop).  The reference's run is its generated one (a patched copy: see its header), its result the
  tenth iterate of one step (RefChain).  The two recurrences agree step by step (Bridge, HopAlgebra) from equal
  projections (H0Eq).  The three frames are the generated ones; the ideal pass rewrote nothing.
-/
import proofs.«176388_j37022618092150_2_alg».proof.Defs
import proofs.«176388_j37022618092150_2_alg».proof.Proof.Gen.Kernel
import proofs.«176388_j37022618092150_2_alg».proof.Proof.Gen.Kernel.Frame
import proofs.«176388_j37022618092150_2_alg».proof.Proof.Gen.KernelIdeal
import proofs.«176388_j37022618092150_2_alg».proof.Proof.Gen.KernelIdeal.Frame
import proofs.«176388_j37022618092150_2_alg».proof.Proof.Gen.ReferenceIdeal
import proofs.«176388_j37022618092150_2_alg».proof.Proof.Gen.Pre_finite_inputs
import proofs.«176388_j37022618092150_2_alg».proof.Proof.RefRunP
import proofs.«176388_j37022618092150_2_alg».proof.Proof.KernelRun
import proofs.«176388_j37022618092150_2_alg».proof.Proof.KernelChain
import proofs.«176388_j37022618092150_2_alg».proof.Proof.RefChain
import proofs.«176388_j37022618092150_2_alg».proof.Proof.Bridge
import proofs.«176388_j37022618092150_2_alg».proof.Proof.H0Eq
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the rows after ten propagation steps of arguments that agree. -/
theorem algebraic : Cert.algebraic_KernelIdeal_ReferenceIdeal := by
  intro m ρ m' ρ' _ hagree
  refine ⟨fun c => (Cert.KernelIdeal.Chain.hopK (m ((c.tc : Thread Cert.KernelIdeal.nD Cert.KernelIdeal.τ).loc Cert.KernelIdeal.main_arg1)) (Cert.KernelIdeal.Chain.h0K m c) 10).1, ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Chain.result_eq, (hagree c).1, (hagree c).2.1, (hagree c).2.2.1, (hagree c).2.2.2,
      ← Cert.Appnp.H0Eq.h0_eq]
    exact ((Cert.Appnp.Bridge.main _ _ 10).1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
